-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S256x128 .f32) (main_arg3 : FVec F S128 .f32) (main_arg4 : FVec F S256x128 .f32) (main_arg5 : FVec F S128 .f32) (main_arg6 : FVec F S128x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x128 : Shape := ⟨2, ![1, 128]⟩
abbrev S1x64 : Shape := ⟨2, ![1, 64]⟩
abbrev S10000x64 : Shape := ⟨2, ![10000, 64]⟩
abbrev S400x128 : Shape := ⟨2, ![400, 128]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩

abbrev nBuf : Space → Nat
  | .hbm => 19
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S1x128, .f32⟩
  | .hbm, ⟨14, _⟩ => ⟨S1x64, .f32⟩
  | .hbm, ⟨15, _⟩ => ⟨S10000x128, .f32⟩
  | .hbm, ⟨16, _⟩ => ⟨S10000x64, .f32⟩
  | .hbm, ⟨17, _⟩ => ⟨S10000x128, .f32⟩
  | .hbm, ⟨18, _⟩ => ⟨S10000x64, .f32⟩
  | .local _ .vmem, ⟨0, _⟩ => ⟨S400x128, .f32⟩
  | .local _ .vmem, ⟨1, _⟩ => ⟨S400x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S400x128, .f32⟩
  | .local _ .vmem, ⟨13, _⟩ => ⟨S400x128, .f32⟩
  | .local _ .vmem, ⟨14, _⟩ => ⟨S10000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S400x64, .f32⟩
  | .local _ .vmem, ⟨21, _⟩ => ⟨S400x64, .f32⟩
  | .local _ .vmem, ⟨22, _⟩ => ⟨S400x128, .f32⟩
  | .local _ .vmem, ⟨23, _⟩ => ⟨S400x128, .f32⟩
  | .local _ .vmem, ⟨24, _⟩ => ⟨S400x64, .f32⟩
  | .local _ .vmem, ⟨25, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_v0_1 : Ref sig .tc := ⟨.hbm, 15, rfl⟩
abbrev main_v0_0 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S400x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S10000x128_S10000x128 : S10000x128.ShapeCasts S10000x128
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S10000x128.size a
  hwx1_1 : ∀ i : grid1.Coords, EltTy.bits .f32 = 32 ∨ (Rect.block (s := S10000x128) S400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x64.size a ≤ S10000x64.size a
  hwx1_8 : ∀ i : grid1.Coords, EltTy.bits .f32 = 32 ∨ (Rect.block (s := S10000x64) S400x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x128.size a ≤ S10000x128.size a
  hwx1_9 : ∀ i : grid1.Coords, EltTy.bits .f32 = 32 ∨ (Rect.block (s := S10000x128) S400x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S400x64.size a ≤ S10000x64.size a
  hwx1_10 : ∀ i : grid1.Coords, EltTy.bits .f32 = 32 ∨ (Rect.block (s := S10000x64) S400x64.size (cc1_transform_10 i) (hinb1_10 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v5) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v6) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0_0) S400x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v0_2) S400x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v0_3) S400x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000x256 : Shape := ⟨2, ![10000, 256]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S10000x128, .f32⟩
  | .hbm, ⟨9, _⟩ => ⟨S10000x256, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x256, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000, .f32⟩
  | .hbm, ⟨41, _⟩ => ⟨S10000x1, .f32⟩
  | .hbm, ⟨42, _⟩ => ⟨S10000x1, .f32⟩
  | .hbm, ⟨43, _⟩ => ⟨S10000x64, .f32⟩
  | .hbm, ⟨44, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call2_cst : Ref sig .tc := ⟨.hbm, 30, rfl⟩
abbrev main_call2_v0 : Ref sig .tc := ⟨.hbm, 31, rfl⟩
abbrev main_call2_cst_0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_cst_1 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.K.Pass2.lean ====
/- Pass 2 of the two-layer GraphSAGE forward, seen from one row block.

   At a grid point the second pass's body is handed eleven buffers: 400 rows of the adjacency matrix, the
   matching 400 rows of the first layer's result h1, the whole of h1, the top and the bottom half of the
   second weight matrix, the second bias as one row, the classifier's weight matrix and its bias as one row,
   and the buffers of its three results. With
       h2     = max (h1_block · W2_top + (adj_block · h1) · W2_bottom + b2, 0)
       logits = h2 · Wl + bl
   it stores, each over a whole buffer, logits less the logarithm of the row sums of their exponentials (taken
   after the row maximum is subtracted and added back), then h2, then the logits, and changes nothing else.
   This module says that per point, at any float instance and at any contents V of the core's buffers when
   the pass is entered: what each buffer holds when the body is called, what it holds when the body returns,
   and that the body runs from the one to the other. -/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when pass 2 is entered
variable (V : (c : Dev nD) → (b : Ref sig .tc) → Buf (Elt F) ((c : Thread nD τ).loc b))

/-! ## The blocks the second pass reads -/

/-- The block of window w at grid point t, read off the window's array as the pass finds it: rows
    400·t … 400·t+399 of the adjacency matrix and of h1; the whole of h1, of each half of W2, of b2, of the
    classifier's weights and of its bias. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body loads and stores through: each is a whole buffer -/

abbrev rect1_400x10000 : Rect S400x10000 := Rect.unit (s := S400x10000) ![0, 0] S400x10000.size inb_S400x10000_S400x10000_0_0
abbrev rect1_400x128 : Rect S400x128 := Rect.unit (s := S400x128) ![0, 0] S400x128.size inb_S400x128_S400x128_0_0
abbrev rect1_10000x128 : Rect S10000x128 := Rect.unit (s := S10000x128) ![0, 0] S10000x128.size inb_S10000x128_S10000x128_0_0
abbrev rect1_128x128 : Rect S128x128 := Rect.unit (s := S128x128) ![0, 0] S128x128.size inb_S128x128_S128x128_0_0
abbrev rect1_1x128 : Rect S1x128 := Rect.unit (s := S1x128) ![0, 0] S1x128.size inb_S1x128_S1x128_0_0
abbrev rect1_128x64 : Rect S128x64 := Rect.unit (s := S128x64) ![0, 0] S128x64.size inb_S128x64_S128x64_0_0
abbrev rect1_1x64 : Rect S1x64 := Rect.unit (s := S1x64) ![0, 0] S1x64.size inb_S1x64_S1x64_0_0
abbrev rect1_400x64 : Rect S400x64 := Rect.unit (s := S400x64) ![0, 0] S400x64.size inb_S400x64_S400x64_0_0

/-! ## What the body leaves in the three result buffers

Each is one store over the whole buffer, of a value of the eight input buffers' contents x0 … x7 in window
order (the adjacency block, the h1 block, h1, the two halves of W2, b2, the classifier's weights, its bias). -/

/-- The log-softmax of the block's logits along each row. -/
def out1_8 (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32) : Vec F S400x64 .f32 :=
  View.canon [⟨rect1_400x64, k1_pay3 (View.ld x0 rect1_400x10000) (View.ld x2 rect1_10000x128) (View.ld x1 rect1_400x128) (View.ld x3 rect1_128x128) (View.ld x4 rect1_128x128) (View.ld x5 rect1_1x128) (View.ld x6 rect1_128x64) (View.ld x7 rect1_1x64)⟩]

/-- The second layer's value h2 on the block; it does not depend on the classifier. -/
def out1_9 (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32) : Vec F S400x128 .f32 :=
  View.canon [⟨rect1_400x128, k1_pay1 (View.ld x0 rect1_400x10000) (View.ld x2 rect1_10000x128) (View.ld x1 rect1_400x128) (View.ld x3 rect1_128x128) (View.ld x4 rect1_128x128) (View.ld x5 rect1_1x128)⟩]

/-- The block's logits h2 · Wl + bl. -/
def out1_10 (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32) : Vec F S400x64 .f32 :=
  View.canon [⟨rect1_400x64, k1_pay2 (View.ld x0 rect1_400x10000) (View.ld x2 rect1_10000x128) (View.ld x1 rect1_400x128) (View.ld x3 rect1_128x128) (View.ld x4 rect1_128x128) (View.ld x5 rect1_1x128) (View.ld x6 rect1_128x64) (View.ld x7 rect1_1x64)⟩]

/-- A store through the whole of a 400×64 buffer covers it, -/
theorem cover1_400x64 (p0 : Vec F S400x64 .f32) (y : S400x64.Idx) :
    ∃ pc ∈ ([⟨rect1_400x64, p0⟩] : List (View.Piece (Elt F) S400x64 .f32)), y ∈ pc.1.set :=
  View.cover_of_tiled [⟨rect1_400x64, p0⟩] S400x64.size (by rfl) y

/-- and one through the whole of a 400×128 buffer covers that. -/
theorem cover1_400x128 (p0 : Vec F S400x128 .f32) (y : S400x128.Idx) :
    ∃ pc ∈ ([⟨rect1_400x128, p0⟩] : List (View.Piece (Elt F) S400x128 .f32)), y ∈ pc.1.set :=
  View.cover_of_tiled [⟨rect1_400x128, p0⟩] S400x128.size (by rfl) y

/-! ## The body's triple -/

set_option maxHeartbeats 2000000 in
/-- The body on eleven whole buffers, the eight inputs holding x0 … x7 and the three result buffers anything,
    ends with the inputs as they were and each result buffer at its value of them. The arithmetic sits in one
    part of the body, which loads the eight inputs and returns the three values; the body then loads each result
    buffer (a read used nowhere) and stores over all of it. -/
theorem sound_kernel1 (c : Dev nD) (E : Set ℕ) (i : grid1.Coords)
    (arg0 : Memref sig .tc .vmem S400x10000 .f32) (harg0 : arg0.IsWhole) (arg1 : Memref sig .tc .vmem S400x128 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S400x128 .f32) (harg9 : arg9.IsWhole)
    (arg10 : Memref sig .tc .vmem S400x64 .f32) (harg10 : arg10.IsWhole)
    (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7)
            ∗ owns (c : Thread nD τ) arg9 fullShare (out1_9 x0 x1 x2 x3 x4 x5 x6 x7)
            ∗ owns (c : Thread nD τ) arg10 fullShare (out1_10 x0 x1 x2 x3 x4 x5 x6 x7)) -∗ K ⟨⟩))
      ⊢ wp frame (wpE (defs₀ (F := F)) Variants.none c none) E
          (cc1__pass2_body i arg0 harg0 arg1 harg1 arg2 harg2 arg3 harg3 arg4 harg4 arg5 harg5 arg6 harg6 arg7 harg7 arg8 harg8 arg9 harg9 arg10 harg10) K := by
  simp only [cc1__pass2_body_eq_skeleton]; unfold cc1__pass2_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_400x64 _)
  isplitl [H9]
  · iexists _; isplitr
    swap; · iexact H9
    ipureintro
    exact View.read_writes_eq_canon _ _ _ (cover1_400x128 _)
  iexists _; isplitr
  swap; · iexact H10
  ipureintro
  exact View.read_writes_eq_canon _ _ _ (cover1_400x64 _)

/-! ## The proof data of pass 2 -/

/-- Pass 2 on core c. The arrays are as the pass finds them. After the body at point t every input buffer
    still holds its block, and the three result buffers hold the log-softmax, h2 and the logits of the eight
    blocks. The h1 block and the whole of h1 are two windows on ONE array, so each holds half of it; every
    other array is held whole. The body uses nothing beyond its buffers and signals no one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) (iblk1 V c 7 t) := by dsimp only [dat1]
theorem after1_10 (c : Dev nD) (t : Fin cfg1.N) : (dat1 V c).after 10 t
    = out1_10 (iblk1 V c 0 t) (iblk1 V c 1 t) (iblk1 V c 2 t) (iblk1 V c 3 t) (iblk1 V c 4 t) (iblk1 V c 5 t) (iblk1 V c 6 t) (iblk1 V c 7 t) := by dsimp only [dat1]

/-- Each input buffer holds its window's block at every point, whether that point fetched it or not: a
    point that does not fetch a window has the block index of the point before it, where the body left the
    block in place. (Only the adjacency block and the h1 block are fetched at every point.) -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body obligation, at a generic point -/

/-- What the body is called with at point t: the invariant, what the core owes, and the eleven current buffers
    one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the eight input buffers hold their blocks, so the body's triple applies at those
    blocks; the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for pass 2, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Pass1.lean ====
/- Pass 1 of the two-layer GraphSAGE forward, seen from one row block.

   At a grid point the first layer's body is handed seven buffers: a block of 400 rows of the features x, the
   whole of x, the matching 400 rows of the adjacency matrix, the top and the bottom half of the first weight
   matrix, the first bias as one row, and the buffer of its result. It stores
       max (x_block · W1_top + (adj_block · x) · W1_bottom + b1, 0)
   over the whole result buffer and changes nothing else. This module says that per point, at any float
   instance and at any contents V of the core's buffers when the pass is entered: what each buffer holds
   when the body is called, what it holds when the body returns, and that the body runs from the one to the
   other. -/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when pass 1 is entered
variable (V : (c : Dev nD) → (b : Ref sig .tc) → Buf (Elt F) ((c : Thread nD τ).loc b))

/-! ## The blocks the first layer reads -/

/-- The block of window w at grid point t, read off the window's array as the pass finds it: rows
    400·t … 400·t+399 of x and of the adjacency matrix; the whole of x, of each half of W1 and of b1. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body loads and stores through: each is a whole buffer -/

abbrev rect0_400x128 : Rect S400x128 := Rect.unit (s := S400x128) ![0, 0] S400x128.size inb_S400x128_S400x128_0_0
abbrev rect0_10000x128 : Rect S10000x128 := Rect.unit (s := S10000x128) ![0, 0] S10000x128.size inb_S10000x128_S10000x128_0_0
abbrev rect0_400x10000 : Rect S400x10000 := Rect.unit (s := S400x10000) ![0, 0] S400x10000.size inb_S400x10000_S400x10000_0_0
abbrev rect0_128x128 : Rect S128x128 := Rect.unit (s := S128x128) ![0, 0] S128x128.size inb_S128x128_S128x128_0_0
abbrev rect0_1x128 : Rect S1x128 := Rect.unit (s := S1x128) ![0, 0] S1x128.size inb_S1x128_S1x128_0_0

/-! ## What the body leaves in the result buffer -/

/-- The first layer on one row block, from the contents of the six input buffers in window order (the x
    block, x, the adjacency block, the two halves of W1, b1): one store of the layer's value over the whole
    buffer. -/
def out0_6 (x0 : Vec F S400x128 .f32) (x1 : Vec F S10000x128 .f32) (x2 : Vec F S400x10000 .f32) (x3 x4 : Vec F S128x128 .f32) (x5 : Vec F S1x128 .f32) : Vec F S400x128 .f32 :=
  View.canon [⟨rect0_400x128, k0_pay1 (View.ld x2 rect0_400x10000) (View.ld x1 rect0_10000x128) (View.ld x0 rect0_400x128) (View.ld x3 rect0_128x128) (View.ld x4 rect0_128x128) (View.ld x5 rect0_1x128)⟩]

/-- The one store goes through the whole buffer, so it covers it. -/
theorem cover0_6 (p0 : Vec F S400x128 .f32) (y : S400x128.Idx) :
    ∃ pc ∈ ([⟨rect0_400x128, p0⟩] : List (View.Piece (Elt F) S400x128 .f32)), y ∈ pc.1.set :=
  View.cover_of_tiled [⟨rect0_400x128, p0⟩] S400x128.size (by rfl) y

/-! ## The body's triple -/

set_option maxHeartbeats 1000000 in
/-- The body on seven whole buffers, the six inputs holding x0 … x5 and the result buffer anything, ends with
    the inputs as they were and the result buffer at the layer's value of them. The body also loads the result
    buffer before it stores over all of it; what that load reads is used nowhere. -/
theorem sound_kernel0 (c : Dev nD) (E : Set ℕ) (i : grid0.Coords)
    (arg0 : Memref sig .tc .vmem S400x128 .f32) (harg0 : arg0.IsWhole) (arg1 : Memref sig .tc .vmem S10000x128 .f32) (harg1 : arg1.IsWhole)
    (arg2 : Memref sig .tc .vmem S400x10000 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S400x128 .f32) (harg6 : arg6.IsWhole)
    (x0 : Vec F S400x128 .f32) (x1 : Vec F S10000x128 .f32) (x2 : Vec F S400x10000 .f32) (x3 x4 : Vec F S128x128 .f32) (x5 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E
          (cc0__pass1_body i arg0 harg0 arg1 harg1 arg2 harg2 arg3 harg3 arg4 harg4 arg5 harg5 arg6 harg6) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of pass 1 -/

/-- Pass 1 on core c. The arrays are as the pass finds them. After the body at point t every input buffer
    still holds its block, and the result buffer holds the first layer's value of the six blocks. The x block
    and the whole of x are two windows on ONE array, so each holds half of it; every other array is held
    whole. The body uses nothing beyond its buffers and signals no one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input buffer holds its window's block at every point, whether that point fetched it or not: a
    point that does not fetch a window has the block index of the point before it, where the body left the
    block in place. (The whole of x, the halves of W1 and b1 are fetched at the first point only.) -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The body obligation, at a generic point -/

/-- What the body is called with at point t: the invariant, what the core owes, and the seven current buffers
    one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six input buffers hold their blocks, so the body's triple applies at those
    blocks; the invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pass 1, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Shares.lean ====
/-
  Pass 1 reads the node features through two windows — a row block and the whole array — and pass 2 reads the first layer's
  result the same way, so in each region one buffer stands behind two windows and is held in two halves, one per window.
  These lemmas say that the distinct buffers behind a region's windows, each whole at the full share, are exactly the region's
  windowed arrays at the proof data's shares (the shared buffer's halves split and recombine), in both directions.
-/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import proofs.«109832_g72069551227476_cont_9to1c4b_721_2_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Region 0: the six distinct buffers behind its seven windows, at contents `V`, give the seven windowed arrays at the
    proof data's shares: the node features' buffer splits into the two halves its two windows hold. -/
theorem arrays0_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hq4 : dat.q 4 = fullShare) (hq5 : dat.q 5 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (Pipeline.arrBufs spec0 c V : sProp 𝕄) ⊢ dat.arrays Fa := by
  have s0 : dat.share 0 = fullShare.left := (show dat.share 0 = dat.q 0 from rfl).trans hq0
  have s1 : dat.share 1 = fullShare.right := (show dat.share 1 = dat.q 1 from rfl).trans hq1
  have s2 : dat.share 2 = fullShare := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := rfl
  unfold Pipeline.arrBufs Dat.arrays
  rw [bigSep_W0, bigSep_eq_bigSepL_of_eq [main_arg0, main_arg1, main_call0_v0, main_call0_v1, main_call0_v4, main_v0_1] (by decide +kernel) (by decide)]
  rw [s0, s1, s2, s3, s4, s5, s6, hF 0, hF 1, hF 2, hF 3, hF 4, hF 5, hF 6,
    (arr_whole0 0).set_eq_univ, (arr_whole0 2).set_eq_univ, (arr_whole0 3).set_eq_univ,
    (arr_whole0 4).set_eq_univ, (arr_whole0 5).set_eq_univ, (arr_whole0 6).set_eq_univ]
  rw [show (bigSepL [main_arg0, main_arg1, main_call0_v0, main_call0_v1, main_call0_v4, main_v0_1] fun b => ((c : Thread nD τ).loc b) ↦{fullShare} V b : sProp 𝕄)
      = iprop((((c : Thread nD τ).loc main_arg0) ↦{fullShare} V main_arg0) ∗ (((c : Thread nD τ).loc main_arg1) ↦{fullShare} V main_arg1) ∗ (((c : Thread nD τ).loc main_call0_v0) ↦{fullShare} V main_call0_v0) ∗ (((c : Thread nD τ).loc main_call0_v1) ↦{fullShare} V main_call0_v1) ∗ (((c : Thread nD τ).loc main_call0_v4) ↦{fullShare} V main_call0_v4) ∗ (((c : Thread nD τ).loc main_v0_1) ↦{fullShare} V main_v0_1)) from rfl]
  iintro ⟨H0, H1, H2, H3, H4, H5⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  iexact H5

set_option maxHeartbeats 4000000 in
/-- Region 0, the way back: the seven windowed arrays at contents that are one valuation's give the six buffers whole at the
    full share: the two halves of the node features' buffer recombine. -/
theorem bufs_of_arrays0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hq4 : dat.q 4 = fullShare) (hq5 : dat.q 5 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    dat.arrays Fa ⊢ (Pipeline.arrBufs spec0 c V : sProp 𝕄) := by
  have s0 : dat.share 0 = fullShare.left := (show dat.share 0 = dat.q 0 from rfl).trans hq0
  have s1 : dat.share 1 = fullShare.right := (show dat.share 1 = dat.q 1 from rfl).trans hq1
  have s2 : dat.share 2 = fullShare := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := rfl
  unfold Pipeline.arrBufs Dat.arrays
  rw [bigSep_W0, bigSep_eq_bigSepL_of_eq [main_arg0, main_arg1, main_call0_v0, main_call0_v1, main_call0_v4, main_v0_1] (by decide +kernel) (by decide)]
  rw [s0, s1, s2, s3, s4, s5, s6, hF 0, hF 1, hF 2, hF 3, hF 4, hF 5, hF 6,
    (arr_whole0 0).set_eq_univ, (arr_whole0 2).set_eq_univ, (arr_whole0 3).set_eq_univ,
    (arr_whole0 4).set_eq_univ, (arr_whole0 5).set_eq_univ, (arr_whole0 6).set_eq_univ]
  rw [show (bigSepL [main_arg0, main_arg1, main_call0_v0, main_call0_v1, main_call0_v4, main_v0_1] fun b => ((c : Thread nD τ).loc b) ↦{fullShare} V b : sProp 𝕄)
      = iprop((((c : Thread nD τ).loc main_arg0) ↦{fullShare} V main_arg0) ∗ (((c : Thread nD τ).loc main_arg1) ↦{fullShare} V main_arg1) ∗ (((c : Thread nD τ).loc main_call0_v0) ↦{fullShare} V main_call0_v0) ∗ (((c : Thread nD τ).loc main_call0_v1) ↦{fullShare} V main_call0_v1) ∗ (((c : Thread nD τ).loc main_call0_v4) ↦{fullShare} V main_call0_v4) ∗ (((c : Thread nD τ).loc main_v0_1) ↦{fullShare} V main_v0_1)) from rfl]
  iintro ⟨Ha, Hb, H1, H2, H3, H4, H5⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  iexact H5

set_option maxHeartbeats 4000000 in
/-- Region 1: the ten distinct buffers behind its eleven windows give the eleven windowed arrays at the proof data's shares: the
    first layer's result splits into the two halves its two windows hold. -/
theorem arrays1_of_bufs (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (hq4 : dat.q 4 = fullShare) (hq5 : dat.q 5 = fullShare) (hq6 : dat.q 6 = fullShare) (hq7 : dat.q 7 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs spec1 c V : sProp 𝕄) ⊢ dat.arrays Fa := by
  have s0 : dat.share 0 = fullShare := (show dat.share 0 = dat.q 0 from rfl).trans hq0
  have s1 : dat.share 1 = fullShare.left := (show dat.share 1 = dat.q 1 from rfl).trans hq1
  have s2 : dat.share 2 = fullShare.right := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := (show dat.share 6 = dat.q 6 from rfl).trans hq6
  have s7 : dat.share 7 = fullShare := (show dat.share 7 = dat.q 7 from rfl).trans hq7
  have s8 : dat.share 8 = fullShare := rfl
  have s9 : dat.share 9 = fullShare := rfl
  have s10 : dat.share 10 = fullShare := rfl
  unfold Pipeline.arrBufs Dat.arrays
  rw [bigSep_W1, bigSep_eq_bigSepL_of_eq [main_arg1, main_v0_1, main_call0_v2, main_call0_v3, main_call0_v5, main_arg6, main_call0_v6, main_v0_0, main_v0_2, main_v0_3] (by decide +kernel) (by decide)]
  rw [s0, s1, s2, s3, s4, s5, s6, s7, s8, s9, s10, hF 0, hF 1, hF 2, hF 3, hF 4, hF 5, hF 6, hF 7, hF 8, hF 9, hF 10,
    (arr_whole1 0).set_eq_univ, (arr_whole1 1).set_eq_univ, (arr_whole1 3).set_eq_univ, (arr_whole1 4).set_eq_univ,
    (arr_whole1 5).set_eq_univ, (arr_whole1 6).set_eq_univ, (arr_whole1 7).set_eq_univ, (arr_whole1 8).set_eq_univ,
    (arr_whole1 9).set_eq_univ, (arr_whole1 10).set_eq_univ]
  rw [show (bigSepL [main_arg1, main_v0_1, main_call0_v2, main_call0_v3, main_call0_v5, main_arg6, main_call0_v6, main_v0_0, main_v0_2, main_v0_3] fun b => ((c : Thread nD τ).loc b) ↦{fullShare} V b : sProp 𝕄)
      = iprop((((c : Thread nD τ).loc main_arg1) ↦{fullShare} V main_arg1) ∗ (((c : Thread nD τ).loc main_v0_1) ↦{fullShare} V main_v0_1) ∗ (((c : Thread nD τ).loc main_call0_v2) ↦{fullShare} V main_call0_v2) ∗ (((c : Thread nD τ).loc main_call0_v3) ↦{fullShare} V main_call0_v3) ∗ (((c : Thread nD τ).loc main_call0_v5) ↦{fullShare} V main_call0_v5) ∗ (((c : Thread nD τ).loc main_arg6) ↦{fullShare} V main_arg6) ∗ (((c : Thread nD τ).loc main_call0_v6) ↦{fullShare} V main_call0_v6) ∗ (((c : Thread nD τ).loc main_v0_0) ↦{fullShare} V main_v0_0) ∗ (((c : Thread nD τ).loc main_v0_2) ↦{fullShare} V main_v0_2) ∗ (((c : Thread nD τ).loc main_v0_3) ↦{fullShare} V main_v0_3)) from rfl]
  iintro ⟨H0, H1, H2, H3, H4, H5, H6, H7, H8, H9⟩
  ihave Hs := (pointsTo_share (PosShare.mem_left_op_right fullShare)).1 $$ H1
  icases Hs with ⟨Ha, Hb⟩
  isplitl [H0]; · iexact H0
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- Region 1, the way back: the two halves of the first layer's result recombine. -/
theorem bufs_of_arrays1 (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (hq4 : dat.q 4 = fullShare) (hq5 : dat.q 5 = fullShare) (hq6 : dat.q 6 = fullShare) (hq7 : dat.q 7 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    dat.arrays Fa ⊢ (Pipeline.arrBufs spec1 c V : sProp 𝕄) := by
  have s0 : dat.share 0 = fullShare := (show dat.share 0 = dat.q 0 from rfl).trans hq0
  have s1 : dat.share 1 = fullShare.left := (show dat.share 1 = dat.q 1 from rfl).trans hq1
  have s2 : dat.share 2 = fullShare.right := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := (show dat.share 6 = dat.q 6 from rfl).trans hq6
  have s7 : dat.share 7 = fullShare := (show dat.share 7 = dat.q 7 from rfl).trans hq7
  have s8 : dat.share 8 = fullShare := rfl
  have s9 : dat.share 9 = fullShare := rfl
  have s10 : dat.share 10 = fullShare := rfl
  unfold Pipeline.arrBufs Dat.arrays
  rw [bigSep_W1, bigSep_eq_bigSepL_of_eq [main_arg1, main_v0_1, main_call0_v2, main_call0_v3, main_call0_v5, main_arg6, main_call0_v6, main_v0_0, main_v0_2, main_v0_3] (by decide +kernel) (by decide)]
  rw [s0, s1, s2, s3, s4, s5, s6, s7, s8, s9, s10, hF 0, hF 1, hF 2, hF 3, hF 4, hF 5, hF 6, hF 7, hF 8, hF 9, hF 10,
    (arr_whole1 0).set_eq_univ, (arr_whole1 1).set_eq_univ, (arr_whole1 3).set_eq_univ, (arr_whole1 4).set_eq_univ,
    (arr_whole1 5).set_eq_univ, (arr_whole1 6).set_eq_univ, (arr_whole1 7).set_eq_univ, (arr_whole1 8).set_eq_univ,
    (arr_whole1 9).set_eq_univ, (arr_whole1 10).set_eq_univ]
  rw [show (bigSepL [main_arg1, main_v0_1, main_call0_v2, main_call0_v3, main_call0_v5, main_arg6, main_call0_v6, main_v0_0, main_v0_2, main_v0_3] fun b => ((c : Thread nD τ).loc b) ↦{fullShare} V b : sProp 𝕄)
      = iprop((((c : Thread nD τ).loc main_arg1) ↦{fullShare} V main_arg1) ∗ (((c : Thread nD τ).loc main_v0_1) ↦{fullShare} V main_v0_1) ∗ (((c : Thread nD τ).loc main_call0_v2) ↦{fullShare} V main_call0_v2) ∗ (((c : Thread nD τ).loc main_call0_v3) ↦{fullShare} V main_call0_v3) ∗ (((c : Thread nD τ).loc main_call0_v5) ↦{fullShare} V main_call0_v5) ∗ (((c : Thread nD τ).loc main_arg6) ↦{fullShare} V main_arg6) ∗ (((c : Thread nD τ).loc main_call0_v6) ↦{fullShare} V main_call0_v6) ∗ (((c : Thread nD τ).loc main_v0_0) ↦{fullShare} V main_v0_0) ∗ (((c : Thread nD τ).loc main_v0_2) ↦{fullShare} V main_v0_2) ∗ (((c : Thread nD τ).loc main_v0_3) ↦{fullShare} V main_v0_3)) from rfl]
  iintro ⟨H0, Ha, Hb, H2, H3, H4, H5, H6, H7, H8, H9⟩
  isplitl [H0]; · iexact H0
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Hand

end
-- ==== Proof.K.Seg0.lean ====
/-
  Pass 1 as a segment of the program's run. Between the program's items a core holds every unscoped buffer whole at a known
  valuation: at launch the arguments; then, after the host has sliced the weight matrices into halves and reshaped the biases,
  the valuation `X1`; pass 1 changes only the first layer's result, which ends at what the row blocks' write-backs leave
  (`X2`). Entering the region, the buffers behind its windows are taken out of that valuation (the node features' buffer in
  two halves, one per window that reads it); leaving it, they are put back.
-/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import proofs.«109832_g72069551227476_cont_9to1c4b_721_2_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.K.Pass1
import proofs.«109832_g72069551227476_cont_9to1c4b_721_2_alg».proof.Proof.K.Shares

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch, -/
abbrev X0 (c : Dev nD) : Valuation τ sig (Elt F) := fun b => m (c, b)
/-- and when pass 1 is entered: after the host's slices and reshapes. -/
abbrev X1 (c : Dev nD) : Valuation τ sig (Elt F) := StableHlo.after hostOps0 (X0 m c)
/-- The same read at the TensorCore's references: what pass 1's proof data take. -/
abbrev E1 : (c : Dev nD) → (b : Ref sig .tc) → Buf (Elt F) ((c : Thread nD τ).loc b) := fun c b => X1 m c b

/-- After pass 1: the first layer's result at what the 25 write-backs leave, every other buffer as entered. -/
def X2 (c : Dev nD) : Valuation τ sig (Elt F) :=
  Function.update (X1 m c) main_v0_1 ((dat0 (E1 m) c).arrAt 6 cfg0.N)
abbrev E2 : (c : Dev nD) → (b : Ref sig .tc) → Buf (Elt F) ((c : Thread nD τ).loc b) := fun c b => X2 m c b

theorem X2_h1 (c : Dev nD) : X2 m c main_v0_1 = (dat0 (E1 m) c).arrAt 6 cfg0.N := by
  unfold X2; exact Function.update_self ..
theorem X2_of_ne (c : Dev nD) (b : Ref sig .tc) (hb : b ≠ main_v0_1) : X2 m c b = X1 m c b := by
  unfold X2; exact Function.update_of_ne (StableHlo.devRef_ne_of_ne hb) ..

/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- Each of pass 1's windowed arrays ends where `X2` has it: an input as entered, the result at its write-backs. -/
theorem exit0_arr (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (X2_of_ne m c main_arg0 (by decide)).symm)
  | ⟨1, _⟩ => exact ((dat0 (E1 m) c).arrAt_in 1 rfl _).trans ((A_eq0 (E1 m) c 1).trans (X2_of_ne m c main_arg0 (by decide)).symm)
  | ⟨2, _⟩ => exact ((dat0 (E1 m) c).arrAt_in 2 rfl _).trans ((A_eq0 (E1 m) c 2).trans (X2_of_ne m c main_arg1 (by decide)).symm)
  | ⟨3, _⟩ => exact ((dat0 (E1 m) c).arrAt_in 3 rfl _).trans ((A_eq0 (E1 m) c 3).trans (X2_of_ne m c main_call0_v0 (by decide)).symm)
  | ⟨4, _⟩ => exact ((dat0 (E1 m) c).arrAt_in 4 rfl _).trans ((A_eq0 (E1 m) c 4).trans (X2_of_ne m c main_call0_v1 (by decide)).symm)
  | ⟨5, _⟩ => exact ((dat0 (E1 m) c).arrAt_in 5 rfl _).trans ((A_eq0 (E1 m) c 5).trans (X2_of_ne m c main_call0_v4 (by decide)).symm)
  | ⟨6, _⟩ => exact (X2_h1 m c).symm

/-- Off pass 1's arrays nothing changed. -/
theorem exit0_rest (c : Dev nD) (b : Ref sig .tc) (hb : b ∉ Finset.univ.image (Pipeline.arrRef spec0)) : E2 m c b = E1 m c b :=
  X2_of_ne m c b fun e => hb (Finset.mem_image.mpr ⟨6, Finset.mem_univ _, e.symm⟩)

/-- ENTRY: every unscoped buffer at `X1` is pass 1's windowed arrays at their entry contents and shares, beside the
    unscoped buffers that are no window's array. -/
theorem entry0 (c : Dev nD) :
    (StableHlo.held (c : Thread nD τ) (Pipeline.ucRefs τ sig) (X1 m c) : sProp 𝕄)
      ⊢ iprop((dat0 (E1 m) c).arrays ((dat0 (E1 m) c).arrAt · 0)
          ∗ Pipeline.unscopedRest (Ix := Unit) (Name := ℕ) (U := UR sig nD τ) (Lvl := ℕ) spec0 c (E1 m c)) := by
  rw [← Pipeline.unscopedBufs_held c (X1 m c), Pipeline.unscopedBufs_split₀ cfgs 0 winFacts₀0.arr_unscoped c (E1 m c)]
  exact sep_mono (arrays0_of_bufs c (dat0 (E1 m) c) rfl rfl rfl rfl rfl rfl (E1 m c) _ (fun w => A_eq0 (E1 m) c w)) .rfl

/-- EXIT: pass 1's arrays at their final contents and the rest as entered are every unscoped buffer at `X2`. -/
theorem exit0 (c : Dev nD) :
    iprop((dat0 (E1 m) c).arrays ((dat0 (E1 m) c).arrAt · cfg0.N)
          ∗ Pipeline.unscopedRest (Ix := Unit) (Name := ℕ) (U := UR sig nD τ) (Lvl := ℕ) spec0 c (E1 m c))
      ⊢ (StableHlo.held (c : Thread nD τ) (Pipeline.ucRefs τ sig) (X2 m c) : sProp 𝕄) := by
  rw [← Pipeline.unscopedBufs_held c (X2 m c), Pipeline.unscopedBufs_split₀ cfgs 0 winFacts₀0.arr_unscoped c (E2 m c)]
  refine sep_mono (bufs_of_arrays0 c (dat0 (E1 m) c) rfl rfl rfl rfl rfl rfl (E2 m c) _ (exit0_arr m c)) (Entails.of_eq ?_)
  unfold Pipeline.unscopedRest
  exact bigSep_congr fun b hb => by rw [exit0_rest m c b (Finset.mem_sdiff.mp hb).2]

end Cert.Kernel.Hand

end
-- ==== Proof.K.Seg1.lean ====
/-
  Pass 2 as a segment of the program's run: entered from the valuation pass 1 left (`X2`), it changes only its three results
  — the log-softmax, the second layer's result and the logits — which end at what the row blocks' write-backs leave (`X3`).
  The first layer's result is read through two windows (a row block and the whole array), so its buffer is taken in two halves.
-/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import proofs.«109832_g72069551227476_cont_9to1c4b_721_2_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.K.Pass2
import proofs.«109832_g72069551227476_cont_9to1c4b_721_2_alg».proof.Proof.K.Seg0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After pass 2: its three results at what the write-backs leave, every other buffer as pass 1 left it. -/
def X3 (c : Dev nD) : Valuation τ sig (Elt F) :=
  Function.update (Function.update (Function.update (X2 m c) main_v0_0 ((dat1 (E2 m) c).arrAt 8 cfg1.N))
    main_v0_2 ((dat1 (E2 m) c).arrAt 9 cfg1.N)) main_v0_3 ((dat1 (E2 m) c).arrAt 10 cfg1.N)
abbrev E3 : (c : Dev nD) → (b : Ref sig .tc) → Buf (Elt F) ((c : Thread nD τ).loc b) := fun c b => X3 m c b

theorem X3_logits (c : Dev nD) : X3 m c main_v0_3 = (dat1 (E2 m) c).arrAt 10 cfg1.N := by
  unfold X3; exact Function.update_self ..
theorem X3_h2 (c : Dev nD) : X3 m c main_v0_2 = (dat1 (E2 m) c).arrAt 9 cfg1.N := by
  unfold X3
  rw [Function.update_of_ne (StableHlo.devRef_ne_of_ne (by decide) : (Proc.devRef .tc main_v0_2 : DevRef τ sig) ≠ Proc.devRef .tc main_v0_3)]
  exact Function.update_self ..
theorem X3_out (c : Dev nD) : X3 m c main_v0_0 = (dat1 (E2 m) c).arrAt 8 cfg1.N := by
  unfold X3
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2)]
  exact Function.update_self ..
theorem X3_of_ne (c : Dev nD) (b : Ref sig .tc) (h0 : b ≠ main_v0_0) (h2 : b ≠ main_v0_2) (h3 : b ≠ main_v0_3) : X3 m c b = X2 m c b := by
  unfold X3
  rw [Function.update_of_ne (StableHlo.devRef_ne_of_ne h3 : (Proc.devRef .tc b : DevRef τ sig) ≠ Proc.devRef .tc main_v0_3),
    Function.update_of_ne (StableHlo.devRef_ne_of_ne h2 : (Proc.devRef .tc b : DevRef τ sig) ≠ Proc.devRef .tc main_v0_2),
    Function.update_of_ne (StableHlo.devRef_ne_of_ne h0 : (Proc.devRef .tc b : DevRef τ sig) ≠ Proc.devRef .tc main_v0_0)]

/-- Each of pass 2's windowed arrays ends where `X3` has it: an input as entered, a result at its write-backs. -/
theorem exit1_arr (c : Dev nD) (w : Fin cfg1.W) : (dat1 (E2 m) c).arrAt w cfg1.N = E3 m c (Pipeline.arrRef spec1 w) := by
  match w with
  | ⟨0, _⟩ => exact ((dat1 (E2 m) c).arrAt_in 0 rfl _).trans ((A_eq1 (E2 m) c 0).trans (X3_of_ne m c main_arg1 (by decide) (by decide) (by decide)).symm)
  | ⟨1, _⟩ => exact ((dat1 (E2 m) c).arrAt_in 1 rfl _).trans ((A_eq1 (E2 m) c 1).trans (X3_of_ne m c main_v0_1 (by decide) (by decide) (by decide)).symm)
  | ⟨2, _⟩ => exact ((dat1 (E2 m) c).arrAt_in 2 rfl _).trans ((A_eq1 (E2 m) c 2).trans (X3_of_ne m c main_v0_1 (by decide) (by decide) (by decide)).symm)
  | ⟨3, _⟩ => exact ((dat1 (E2 m) c).arrAt_in 3 rfl _).trans ((A_eq1 (E2 m) c 3).trans (X3_of_ne m c main_call0_v2 (by decide) (by decide) (by decide)).symm)
  | ⟨4, _⟩ => exact ((dat1 (E2 m) c).arrAt_in 4 rfl _).trans ((A_eq1 (E2 m) c 4).trans (X3_of_ne m c main_call0_v3 (by decide) (by decide) (by decide)).symm)
  | ⟨5, _⟩ => exact ((dat1 (E2 m) c).arrAt_in 5 rfl _).trans ((A_eq1 (E2 m) c 5).trans (X3_of_ne m c main_call0_v5 (by decide) (by decide) (by decide)).symm)
  | ⟨6, _⟩ => exact ((dat1 (E2 m) c).arrAt_in 6 rfl _).trans ((A_eq1 (E2 m) c 6).trans (X3_of_ne m c main_arg6 (by decide) (by decide) (by decide)).symm)
  | ⟨7, _⟩ => exact ((dat1 (E2 m) c).arrAt_in 7 rfl _).trans ((A_eq1 (E2 m) c 7).trans (X3_of_ne m c main_call0_v6 (by decide) (by decide) (by decide)).symm)
  | ⟨8, _⟩ => exact (X3_out m c).symm
  | ⟨9, _⟩ => exact (X3_h2 m c).symm
  | ⟨10, _⟩ => exact (X3_logits m c).symm

/-- Off pass 2's arrays nothing changed. -/
theorem exit1_rest (c : Dev nD) (b : Ref sig .tc) (hb : b ∉ Finset.univ.image (Pipeline.arrRef spec1)) : E3 m c b = E2 m c b :=
  X3_of_ne m c b (fun e => hb (Finset.mem_image.mpr ⟨8, Finset.mem_univ _, e.symm⟩))
    (fun e => hb (Finset.mem_image.mpr ⟨9, Finset.mem_univ _, e.symm⟩)) (fun e => hb (Finset.mem_image.mpr ⟨10, Finset.mem_univ _, e.symm⟩))

/-- ENTRY: every unscoped buffer at `X2` is pass 2's windowed arrays at their entry contents and shares, beside the rest. -/
theorem entry1 (c : Dev nD) :
    (StableHlo.held (c : Thread nD τ) (Pipeline.ucRefs τ sig) (X2 m c) : sProp 𝕄)
      ⊢ iprop((dat1 (E2 m) c).arrays ((dat1 (E2 m) c).arrAt · 0)
          ∗ Pipeline.unscopedRest (Ix := Unit) (Name := ℕ) (U := UR sig nD τ) (Lvl := ℕ) spec1 c (E2 m c)) := by
  rw [← Pipeline.unscopedBufs_held c (X2 m c), Pipeline.unscopedBufs_split₀ cfgs 1 winFacts₀1.arr_unscoped c (E2 m c)]
  exact sep_mono (arrays1_of_bufs c (dat1 (E2 m) c) rfl rfl rfl rfl rfl rfl rfl rfl (E2 m c) _ (fun w => A_eq1 (E2 m) c w)) .rfl

/-- EXIT: pass 2's arrays at their final contents and the rest as entered are every unscoped buffer at `X3`. -/
theorem exit1 (c : Dev nD) :
    iprop((dat1 (E2 m) c).arrays ((dat1 (E2 m) c).arrAt · cfg1.N)
          ∗ Pipeline.unscopedRest (Ix := Unit) (Name := ℕ) (U := UR sig nD τ) (Lvl := ℕ) spec1 c (E2 m c))
      ⊢ (StableHlo.held (c : Thread nD τ) (Pipeline.ucRefs τ sig) (X3 m c) : sProp 𝕄) := by
  rw [← Pipeline.unscopedBufs_held c (X3 m c), Pipeline.unscopedBufs_split₀ cfgs 1 winFacts₀1.arr_unscoped c (E3 m c)]
  refine sep_mono (bufs_of_arrays1 c (dat1 (E2 m) c) rfl rfl rfl rfl rfl rfl rfl rfl (E3 m c) _ (exit1_arr m c)) (Entails.of_eq ?_)
  unfold Pipeline.unscopedRest
  exact bigSep_congr fun b hb => by rw [exit1_rest m c b (Finset.mem_sdiff.mp hb).2]

end Cert.Kernel.Hand

end
-- ==== Proof.K.Run.lean ====
/-
  The program's run: the host's slices and reshapes, pass 1, pass 2, as three segments entered one from the other. Every
  weakly fair execution from a memory with zero counters terminates, and every final memory holds each unscoped buffer at the
  last valuation `X3`: the arguments as launched, the four results at what the passes' write-backs leave.
-/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import proofs.«109832_g72069551227476_cont_9to1c4b_721_2_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.K.Seg1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0

/-- The last thread state without the `owes`: every unscoped buffer at `X3`, the generator register at some state. -/
abbrev Tₙ (c : Dev nD) : sProp 𝕄 := iprop(StableHlo.held (c : Thread nD τ) (Pipeline.ucRefs τ sig) (X3 m c) ∗ ∃ r, prngReg c r)

-- a library lemma stated over the pinned configuration unifies with the printed one only when unification may unfold plain
-- definitions in a metavariable's type
set_option backward.isDefEq.respectTransparency.types false in
/-- Pass 1 as a region of the run: entered from every unscoped buffer at `X1`, left at `X2`; its arrays taken out of
    the unscoped buffers at entry and put back at exit; the generator register into the region's invariant and out; nothing
    owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := entry0 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit0 m c; isplitl [Ha]
      · iexact Ha
      · iexact Hrest
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pass 2 as a region of the run: entered from every unscoped buffer at `X2`, left at `X3`; its arrays taken out of
    the unscoped buffers at entry and put back at exit; the generator register into the region's invariant and out; nothing
    owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := entry1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply exit1 m c; isplitl [Ha]
        · iexact Ha
        · iexact Hrest
      iexact HY
    unfold Pipeline.Dat.owesAt Pipeline.owesWithin
    icases HO with ⟨%W, -, HO⟩; iexists W; iexact HO

/-- The host's seven slices and reshapes as a segment: over the unscoped references from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (X0 m) R

/-- The run's three segments. -/
abbrev segs : List (Pipeline.Seg (pcfgs (F := F)) adm (pdats m) () defs₀ 𝒱₀ L lv) :=
  [ .host (hostSeg m), .region (reg0 m), .region (reg1 m) ]
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution from `m` with zero counters terminates, nothing faulting, and every final memory
    holds every unscoped buffer of every core at `X3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c => h c)

end Cert.Kernel.Hand

end
-- ==== Proof.K.Frame.lean ====
/-
  The frame: no item of the run writes an argument array — the host's slices and reshapes write seven fresh buffers, pass 1 its
  result, pass 2 its three results — so each argument's buffer is, at the last valuation, what it was at launch.
-/
import proofs.«109832_g72069551227476_cont_9to1c4b_721_2_alg».proof.Proof.Gen.Kernel.Launch
import proofs.«109832_g72069551227476_cont_9to1c4b_721_2_alg».proof.Proof.Gen.Kernel.Skeleton
import proofs.«109832_g72069551227476_cont_9to1c4b_721_2_alg».proof.Proof.Gen.Kernel.Points
import proofs.«109832_g72069551227476_cont_9to1c4b_721_2_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.K.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is none of the four results and that the host does not write ends as launched. -/
theorem X3_kept (c : Dev nD) (b : Ref sig .tc) (h0 : b ≠ main_v0_0) (h1 : b ≠ main_v0_1) (h2 : b ≠ main_v0_2) (h3 : b ≠ main_v0_3)
    (hh : b ∉ hostOps0_W) : X3 m c b = m ((c : Thread nD τ).loc b) :=
  (X3_of_ne m c b h0 h2 h3).trans ((X2_of_ne m c b h1).trans ((V1_of m c b hh).trans rfl))

/-- Every weakly fair execution terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (X3_kept m c main_arg0 (by decide) (by decide) (by decide) (by decide) (by decide)),
    (h c _ (mem_uc main_arg1 (by decide))).trans (X3_kept m c main_arg1 (by decide) (by decide) (by decide) (by decide) (by decide)),
    (h c _ (mem_uc main_arg2 (by decide))).trans (X3_kept m c main_arg2 (by decide) (by decide) (by decide) (by decide) (by decide)),
    (h c _ (mem_uc main_arg3 (by decide))).trans (X3_kept m c main_arg3 (by decide) (by decide) (by decide) (by decide) (by decide)),
    (h c _ (mem_uc main_arg4 (by decide))).trans (X3_kept m c main_arg4 (by decide) (by decide) (by decide) (by decide) (by decide)),
    (h c _ (mem_uc main_arg5 (by decide))).trans (X3_kept m c main_arg5 (by decide) (by decide) (by decide) (by decide) (by decide)),
    (h c _ (mem_uc main_arg6 (by decide))).trans (X3_kept m c main_arg6 (by decide) (by decide) (by decide) (by decide) (by decide)),
    (h c _ (mem_uc main_arg7 (by decide))).trans (X3_kept m c main_arg7 (by decide) (by decide) (by decide) (by decide) (by decide))⟩)
    (run_all m ρ)

end Cert.Kernel.Hand

end
-- ==== Proof.KI.Pass2.lean ====
/- Pass 2 of the two-layer GraphSAGE forward, seen from one row block.

   At a grid point the second pass's body is handed eleven buffers: 400 rows of the adjacency matrix, the
   matching 400 rows of the first layer's result h1, the whole of h1, the top and the bottom half of the
   second weight matrix, the second bias as one row, the classifier's weight matrix and its bias as one row,
   and the buffers of its three results. With
       h2     = max (h1_block · W2_top + (adj_block · h1) · W2_bottom + b2, 0)
       logits = h2 · Wl + bl
   it stores, each over a whole buffer, logits less the logarithm of the row sums of their exponentials (taken
   after the row maximum is subtracted and added back), then h2, then the logits, and changes nothing else.
   This module says that per point, at any float instance and at any contents V of the core's buffers when
   the pass is entered: what each buffer holds when the body is called, what it holds when the body returns,
   and that the body runs from the one to the other. -/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when pass 2 is entered
variable (V : (c : Dev nD) → (b : Ref sig .tc) → Buf (Elt F) ((c : Thread nD τ).loc b))

/-! ## The blocks the second pass reads -/

/-- The block of window w at grid point t, read off the window's array as the pass finds it: rows
    400·t … 400·t+399 of the adjacency matrix and of h1; the whole of h1, of each half of W2, of b2, of the
    classifier's weights and of its bias. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body loads and stores through: each is a whole buffer -/

abbrev rect1_400x10000 : Rect S400x10000 := Rect.unit (s := S400x10000) ![0, 0] S400x10000.size inb_S400x10000_S400x10000_0_0
abbrev rect1_400x128 : Rect S400x128 := Rect.unit (s := S400x128) ![0, 0] S400x128.size inb_S400x128_S400x128_0_0
abbrev rect1_10000x128 : Rect S10000x128 := Rect.unit (s := S10000x128) ![0, 0] S10000x128.size inb_S10000x128_S10000x128_0_0
abbrev rect1_128x128 : Rect S128x128 := Rect.unit (s := S128x128) ![0, 0] S128x128.size inb_S128x128_S128x128_0_0
abbrev rect1_1x128 : Rect S1x128 := Rect.unit (s := S1x128) ![0, 0] S1x128.size inb_S1x128_S1x128_0_0
abbrev rect1_128x64 : Rect S128x64 := Rect.unit (s := S128x64) ![0, 0] S128x64.size inb_S128x64_S128x64_0_0
abbrev rect1_1x64 : Rect S1x64 := Rect.unit (s := S1x64) ![0, 0] S1x64.size inb_S1x64_S1x64_0_0
abbrev rect1_400x64 : Rect S400x64 := Rect.unit (s := S400x64) ![0, 0] S400x64.size inb_S400x64_S400x64_0_0

/-! ## What the body leaves in the three result buffers

Each is one store over the whole buffer, of a value of the eight input buffers' contents x0 … x7 in window
order (the adjacency block, the h1 block, h1, the two halves of W2, b2, the classifier's weights, its bias). -/

/-- The log-softmax of the block's logits along each row. -/
def out1_8 (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32) : Vec F S400x64 .f32 :=
  View.canon [⟨rect1_400x64, k1_pay3 (View.ld x0 rect1_400x10000) (View.ld x2 rect1_10000x128) (View.ld x1 rect1_400x128) (View.ld x3 rect1_128x128) (View.ld x4 rect1_128x128) (View.ld x5 rect1_1x128) (View.ld x6 rect1_128x64) (View.ld x7 rect1_1x64)⟩]

/-- The second layer's value h2 on the block; it does not depend on the classifier. -/
def out1_9 (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32) : Vec F S400x128 .f32 :=
  View.canon [⟨rect1_400x128, k1_pay1 (View.ld x0 rect1_400x10000) (View.ld x2 rect1_10000x128) (View.ld x1 rect1_400x128) (View.ld x3 rect1_128x128) (View.ld x4 rect1_128x128) (View.ld x5 rect1_1x128)⟩]

/-- The block's logits h2 · Wl + bl. -/
def out1_10 (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32) : Vec F S400x64 .f32 :=
  View.canon [⟨rect1_400x64, k1_pay2 (View.ld x0 rect1_400x10000) (View.ld x2 rect1_10000x128) (View.ld x1 rect1_400x128) (View.ld x3 rect1_128x128) (View.ld x4 rect1_128x128) (View.ld x5 rect1_1x128) (View.ld x6 rect1_128x64) (View.ld x7 rect1_1x64)⟩]

/-- A store through the whole of a 400×64 buffer covers it, -/
theorem cover1_400x64 (p0 : Vec F S400x64 .f32) (y : S400x64.Idx) :
    ∃ pc ∈ ([⟨rect1_400x64, p0⟩] : List (View.Piece (Elt F) S400x64 .f32)), y ∈ pc.1.set :=
  View.cover_of_tiled [⟨rect1_400x64, p0⟩] S400x64.size (by rfl) y

/-- and one through the whole of a 400×128 buffer covers that. -/
theorem cover1_400x128 (p0 : Vec F S400x128 .f32) (y : S400x128.Idx) :
    ∃ pc ∈ ([⟨rect1_400x128, p0⟩] : List (View.Piece (Elt F) S400x128 .f32)), y ∈ pc.1.set :=
  View.cover_of_tiled [⟨rect1_400x128, p0⟩] S400x128.size (by rfl) y

/-! ## The body's triple -/

set_option maxHeartbeats 2000000 in
/-- The body on eleven whole buffers, the eight inputs holding x0 … x7 and the three result buffers anything,
    ends with the inputs as they were and each result buffer at its value of them. The arithmetic sits in one
    part of the body, which loads the eight inputs and returns the three values; the body then loads each result
    buffer (a read used nowhere) and stores over all of it. -/
theorem sound_kernel1 (c : Dev nD) (E : Set ℕ) (i : grid1.Coords)
    (arg0 : Memref sig .tc .vmem S400x10000 .f32) (harg0 : arg0.IsWhole) (arg1 : Memref sig .tc .vmem S400x128 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S400x128 .f32) (harg9 : arg9.IsWhole)
    (arg10 : Memref sig .tc .vmem S400x64 .f32) (harg10 : arg10.IsWhole)
    (x0 : Vec F S400x10000 .f32) (x1 : Vec F S400x128 .f32) (x2 : Vec F S10000x128 .f32) (x3 x4 : Vec F S128x128 .f32) (x5 : Vec F S1x128 .f32) (x6 : Vec F S128x64 .f32) (x7 : Vec F S1x64 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7)
            ∗ owns (c : Thread nD τ) arg9 fullShare (out1_9 x0 x1 x2 x3 x4 x5 x6 x7)
            ∗ owns (c : Thread nD τ) arg10 fullShare (out1_10 x0 x1 x2 x3 x4 x5 x6 x7)) -∗ K ⟨⟩))
      ⊢ wp frame (wpE (defs₀ (F := F)) Variants.none c none) E
          (cc1__pass2_body i arg0 harg0 arg1 harg1 arg2 harg2 arg3 harg3 arg4 harg4 arg5 harg5 arg6 harg6 arg7 harg7 arg8 harg8 arg9 harg9 arg10 harg10) K := by
  simp only [cc1__pass2_body_eq_skeleton]; unfold cc1__pass2_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_400x64 _)
  isplitl [H9]
  · iexists _; isplitr
    swap; · iexact H9
    ipureintro
    exact View.read_writes_eq_canon _ _ _ (cover1_400x128 _)
  iexists _; isplitr
  swap; · iexact H10
  ipureintro
  exact View.read_writes_eq_canon _ _ _ (cover1_400x64 _)

/-! ## The proof data of pass 2 -/

/-- Pass 2 on core c. The arrays are as the pass finds them. After the body at point t every input buffer
    still holds its block, and the three result buffers hold the log-softmax, h2 and the logits of the eight
    blocks. The h1 block and the whole of h1 are two windows on ONE array, so each holds half of it; every
    other array is held whole. The body uses nothing beyond its buffers and signals no one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) (iblk1 V c 7 t) := by dsimp only [dat1]
theorem after1_10 (c : Dev nD) (t : Fin cfg1.N) : (dat1 V c).after 10 t
    = out1_10 (iblk1 V c 0 t) (iblk1 V c 1 t) (iblk1 V c 2 t) (iblk1 V c 3 t) (iblk1 V c 4 t) (iblk1 V c 5 t) (iblk1 V c 6 t) (iblk1 V c 7 t) := by dsimp only [dat1]

/-- Each input buffer holds its window's block at every point, whether that point fetched it or not: a
    point that does not fetch a window has the block index of the point before it, where the body left the
    block in place. (Only the adjacency block and the h1 block are fetched at every point.) -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body obligation, at a generic point -/

/-- What the body is called with at point t: the invariant, what the core owes, and the eleven current buffers
    one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the eight input buffers hold their blocks, so the body's triple applies at those
    blocks; the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for pass 2, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Pass1.lean ====
/- Pass 1 of the two-layer GraphSAGE forward, seen from one row block.

   At a grid point the first layer's body is handed seven buffers: a block of 400 rows of the features x, the
   whole of x, the matching 400 rows of the adjacency matrix, the top and the bottom half of the first weight
   matrix, the first bias as one row, and the buffer of its result. It stores
       max (x_block · W1_top + (adj_block · x) · W1_bottom + b1, 0)
   over the whole result buffer and changes nothing else. This module says that per point, at any float
   instance and at any contents V of the core's buffers when the pass is entered: what each buffer holds
   when the body is called, what it holds when the body returns, and that the body runs from the one to the
   other. -/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when pass 1 is entered
variable (V : (c : Dev nD) → (b : Ref sig .tc) → Buf (Elt F) ((c : Thread nD τ).loc b))

/-! ## The blocks the first layer reads -/

/-- The block of window w at grid point t, read off the window's array as the pass finds it: rows
    400·t … 400·t+399 of x and of the adjacency matrix; the whole of x, of each half of W1 and of b1. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body loads and stores through: each is a whole buffer -/

abbrev rect0_400x128 : Rect S400x128 := Rect.unit (s := S400x128) ![0, 0] S400x128.size inb_S400x128_S400x128_0_0
abbrev rect0_10000x128 : Rect S10000x128 := Rect.unit (s := S10000x128) ![0, 0] S10000x128.size inb_S10000x128_S10000x128_0_0
abbrev rect0_400x10000 : Rect S400x10000 := Rect.unit (s := S400x10000) ![0, 0] S400x10000.size inb_S400x10000_S400x10000_0_0
abbrev rect0_128x128 : Rect S128x128 := Rect.unit (s := S128x128) ![0, 0] S128x128.size inb_S128x128_S128x128_0_0
abbrev rect0_1x128 : Rect S1x128 := Rect.unit (s := S1x128) ![0, 0] S1x128.size inb_S1x128_S1x128_0_0

/-! ## What the body leaves in the result buffer -/

/-- The first layer on one row block, from the contents of the six input buffers in window order (the x
    block, x, the adjacency block, the two halves of W1, b1): one store of the layer's value over the whole
    buffer. -/
def out0_6 (x0 : Vec F S400x128 .f32) (x1 : Vec F S10000x128 .f32) (x2 : Vec F S400x10000 .f32) (x3 x4 : Vec F S128x128 .f32) (x5 : Vec F S1x128 .f32) : Vec F S400x128 .f32 :=
  View.canon [⟨rect0_400x128, k0_pay1 (View.ld x2 rect0_400x10000) (View.ld x1 rect0_10000x128) (View.ld x0 rect0_400x128) (View.ld x3 rect0_128x128) (View.ld x4 rect0_128x128) (View.ld x5 rect0_1x128)⟩]

/-- The one store goes through the whole buffer, so it covers it. -/
theorem cover0_6 (p0 : Vec F S400x128 .f32) (y : S400x128.Idx) :
    ∃ pc ∈ ([⟨rect0_400x128, p0⟩] : List (View.Piece (Elt F) S400x128 .f32)), y ∈ pc.1.set :=
  View.cover_of_tiled [⟨rect0_400x128, p0⟩] S400x128.size (by rfl) y

/-! ## The body's triple -/

set_option maxHeartbeats 1000000 in
/-- The body on seven whole buffers, the six inputs holding x0 … x5 and the result buffer anything, ends with
    the inputs as they were and the result buffer at the layer's value of them. The body also loads the result
    buffer before it stores over all of it; what that load reads is used nowhere. -/
theorem sound_kernel0 (c : Dev nD) (E : Set ℕ) (i : grid0.Coords)
    (arg0 : Memref sig .tc .vmem S400x128 .f32) (harg0 : arg0.IsWhole) (arg1 : Memref sig .tc .vmem S10000x128 .f32) (harg1 : arg1.IsWhole)
    (arg2 : Memref sig .tc .vmem S400x10000 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S400x128 .f32) (harg6 : arg6.IsWhole)
    (x0 : Vec F S400x128 .f32) (x1 : Vec F S10000x128 .f32) (x2 : Vec F S400x10000 .f32) (x3 x4 : Vec F S128x128 .f32) (x5 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E
          (cc0__pass1_body i arg0 harg0 arg1 harg1 arg2 harg2 arg3 harg3 arg4 harg4 arg5 harg5 arg6 harg6) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of pass 1 -/

/-- Pass 1 on core c. The arrays are as the pass finds them. After the body at point t every input buffer
    still holds its block, and the result buffer holds the first layer's value of the six blocks. The x block
    and the whole of x are two windows on ONE array, so each holds half of it; every other array is held
    whole. The body uses nothing beyond its buffers and signals no one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input buffer holds its window's block at every point, whether that point fetched it or not: a
    point that does not fetch a window has the block index of the point before it, where the body left the
    block in place. (The whole of x, the halves of W1 and b1 are fetched at the first point only.) -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The body obligation, at a generic point -/

/-- What the body is called with at point t: the invariant, what the core owes, and the seven current buffers
    one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six input buffers hold their blocks, so the body's triple applies at those
    blocks; the invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pass 1, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Shares.lean ====
/-
  Pass 1 reads the node features through two windows — a row block and the whole array — and pass 2 reads the first layer's
  result the same way, so in each region one buffer stands behind two windows and is held in two halves, one per window.
  These lemmas say that the distinct buffers behind a region's windows, each whole at the full share, are exactly the region's
  windowed arrays at the proof data's shares (the shared buffer's halves split and recombine), in both directions.
-/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import proofs.«109832_g72069551227476_cont_9to1c4b_721_2_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Region 0: the six distinct buffers behind its seven windows, at contents `V`, give the seven windowed arrays at the
    proof data's shares: the node features' buffer splits into the two halves its two windows hold. -/
theorem arrays0_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hq4 : dat.q 4 = fullShare) (hq5 : dat.q 5 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (Pipeline.arrBufs spec0 c V : sProp 𝕄) ⊢ dat.arrays Fa := by
  have s0 : dat.share 0 = fullShare.left := (show dat.share 0 = dat.q 0 from rfl).trans hq0
  have s1 : dat.share 1 = fullShare.right := (show dat.share 1 = dat.q 1 from rfl).trans hq1
  have s2 : dat.share 2 = fullShare := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := rfl
  unfold Pipeline.arrBufs Dat.arrays
  rw [bigSep_W0, bigSep_eq_bigSepL_of_eq [main_arg0, main_arg1, main_call0_v0, main_call0_v1, main_call0_v4, main_v0_1] (by decide +kernel) (by decide)]
  rw [s0, s1, s2, s3, s4, s5, s6, hF 0, hF 1, hF 2, hF 3, hF 4, hF 5, hF 6,
    (arr_whole0 0).set_eq_univ, (arr_whole0 2).set_eq_univ, (arr_whole0 3).set_eq_univ,
    (arr_whole0 4).set_eq_univ, (arr_whole0 5).set_eq_univ, (arr_whole0 6).set_eq_univ]
  rw [show (bigSepL [main_arg0, main_arg1, main_call0_v0, main_call0_v1, main_call0_v4, main_v0_1] fun b => ((c : Thread nD τ).loc b) ↦{fullShare} V b : sProp 𝕄)
      = iprop((((c : Thread nD τ).loc main_arg0) ↦{fullShare} V main_arg0) ∗ (((c : Thread nD τ).loc main_arg1) ↦{fullShare} V main_arg1) ∗ (((c : Thread nD τ).loc main_call0_v0) ↦{fullShare} V main_call0_v0) ∗ (((c : Thread nD τ).loc main_call0_v1) ↦{fullShare} V main_call0_v1) ∗ (((c : Thread nD τ).loc main_call0_v4) ↦{fullShare} V main_call0_v4) ∗ (((c : Thread nD τ).loc main_v0_1) ↦{fullShare} V main_v0_1)) from rfl]
  iintro ⟨H0, H1, H2, H3, H4, H5⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  iexact H5

set_option maxHeartbeats 4000000 in
/-- Region 0, the way back: the seven windowed arrays at contents that are one valuation's give the six buffers whole at the
    full share: the two halves of the node features' buffer recombine. -/
theorem bufs_of_arrays0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hq4 : dat.q 4 = fullShare) (hq5 : dat.q 5 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    dat.arrays Fa ⊢ (Pipeline.arrBufs spec0 c V : sProp 𝕄) := by
  have s0 : dat.share 0 = fullShare.left := (show dat.share 0 = dat.q 0 from rfl).trans hq0
  have s1 : dat.share 1 = fullShare.right := (show dat.share 1 = dat.q 1 from rfl).trans hq1
  have s2 : dat.share 2 = fullShare := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := rfl
  unfold Pipeline.arrBufs Dat.arrays
  rw [bigSep_W0, bigSep_eq_bigSepL_of_eq [main_arg0, main_arg1, main_call0_v0, main_call0_v1, main_call0_v4, main_v0_1] (by decide +kernel) (by decide)]
  rw [s0, s1, s2, s3, s4, s5, s6, hF 0, hF 1, hF 2, hF 3, hF 4, hF 5, hF 6,
    (arr_whole0 0).set_eq_univ, (arr_whole0 2).set_eq_univ, (arr_whole0 3).set_eq_univ,
    (arr_whole0 4).set_eq_univ, (arr_whole0 5).set_eq_univ, (arr_whole0 6).set_eq_univ]
  rw [show (bigSepL [main_arg0, main_arg1, main_call0_v0, main_call0_v1, main_call0_v4, main_v0_1] fun b => ((c : Thread nD τ).loc b) ↦{fullShare} V b : sProp 𝕄)
      = iprop((((c : Thread nD τ).loc main_arg0) ↦{fullShare} V main_arg0) ∗ (((c : Thread nD τ).loc main_arg1) ↦{fullShare} V main_arg1) ∗ (((c : Thread nD τ).loc main_call0_v0) ↦{fullShare} V main_call0_v0) ∗ (((c : Thread nD τ).loc main_call0_v1) ↦{fullShare} V main_call0_v1) ∗ (((c : Thread nD τ).loc main_call0_v4) ↦{fullShare} V main_call0_v4) ∗ (((c : Thread nD τ).loc main_v0_1) ↦{fullShare} V main_v0_1)) from rfl]
  iintro ⟨Ha, Hb, H1, H2, H3, H4, H5⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  iexact H5

set_option maxHeartbeats 4000000 in
/-- Region 1: the ten distinct buffers behind its eleven windows give the eleven windowed arrays at the proof data's shares: the
    first layer's result splits into the two halves its two windows hold. -/
theorem arrays1_of_bufs (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (hq4 : dat.q 4 = fullShare) (hq5 : dat.q 5 = fullShare) (hq6 : dat.q 6 = fullShare) (hq7 : dat.q 7 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs spec1 c V : sProp 𝕄) ⊢ dat.arrays Fa := by
  have s0 : dat.share 0 = fullShare := (show dat.share 0 = dat.q 0 from rfl).trans hq0
  have s1 : dat.share 1 = fullShare.left := (show dat.share 1 = dat.q 1 from rfl).trans hq1
  have s2 : dat.share 2 = fullShare.right := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := (show dat.share 6 = dat.q 6 from rfl).trans hq6
  have s7 : dat.share 7 = fullShare := (show dat.share 7 = dat.q 7 from rfl).trans hq7
  have s8 : dat.share 8 = fullShare := rfl
  have s9 : dat.share 9 = fullShare := rfl
  have s10 : dat.share 10 = fullShare := rfl
  unfold Pipeline.arrBufs Dat.arrays
  rw [bigSep_W1, bigSep_eq_bigSepL_of_eq [main_arg1, main_v0_1, main_call0_v2, main_call0_v3, main_call0_v5, main_arg6, main_call0_v6, main_v0_0, main_v0_2, main_v0_3] (by decide +kernel) (by decide)]
  rw [s0, s1, s2, s3, s4, s5, s6, s7, s8, s9, s10, hF 0, hF 1, hF 2, hF 3, hF 4, hF 5, hF 6, hF 7, hF 8, hF 9, hF 10,
    (arr_whole1 0).set_eq_univ, (arr_whole1 1).set_eq_univ, (arr_whole1 3).set_eq_univ, (arr_whole1 4).set_eq_univ,
    (arr_whole1 5).set_eq_univ, (arr_whole1 6).set_eq_univ, (arr_whole1 7).set_eq_univ, (arr_whole1 8).set_eq_univ,
    (arr_whole1 9).set_eq_univ, (arr_whole1 10).set_eq_univ]
  rw [show (bigSepL [main_arg1, main_v0_1, main_call0_v2, main_call0_v3, main_call0_v5, main_arg6, main_call0_v6, main_v0_0, main_v0_2, main_v0_3] fun b => ((c : Thread nD τ).loc b) ↦{fullShare} V b : sProp 𝕄)
      = iprop((((c : Thread nD τ).loc main_arg1) ↦{fullShare} V main_arg1) ∗ (((c : Thread nD τ).loc main_v0_1) ↦{fullShare} V main_v0_1) ∗ (((c : Thread nD τ).loc main_call0_v2) ↦{fullShare} V main_call0_v2) ∗ (((c : Thread nD τ).loc main_call0_v3) ↦{fullShare} V main_call0_v3) ∗ (((c : Thread nD τ).loc main_call0_v5) ↦{fullShare} V main_call0_v5) ∗ (((c : Thread nD τ).loc main_arg6) ↦{fullShare} V main_arg6) ∗ (((c : Thread nD τ).loc main_call0_v6) ↦{fullShare} V main_call0_v6) ∗ (((c : Thread nD τ).loc main_v0_0) ↦{fullShare} V main_v0_0) ∗ (((c : Thread nD τ).loc main_v0_2) ↦{fullShare} V main_v0_2) ∗ (((c : Thread nD τ).loc main_v0_3) ↦{fullShare} V main_v0_3)) from rfl]
  iintro ⟨H0, H1, H2, H3, H4, H5, H6, H7, H8, H9⟩
  ihave Hs := (pointsTo_share (PosShare.mem_left_op_right fullShare)).1 $$ H1
  icases Hs with ⟨Ha, Hb⟩
  isplitl [H0]; · iexact H0
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- Region 1, the way back: the two halves of the first layer's result recombine. -/
theorem bufs_of_arrays1 (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (hq4 : dat.q 4 = fullShare) (hq5 : dat.q 5 = fullShare) (hq6 : dat.q 6 = fullShare) (hq7 : dat.q 7 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    dat.arrays Fa ⊢ (Pipeline.arrBufs spec1 c V : sProp 𝕄) := by
  have s0 : dat.share 0 = fullShare := (show dat.share 0 = dat.q 0 from rfl).trans hq0
  have s1 : dat.share 1 = fullShare.left := (show dat.share 1 = dat.q 1 from rfl).trans hq1
  have s2 : dat.share 2 = fullShare.right := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := (show dat.share 6 = dat.q 6 from rfl).trans hq6
  have s7 : dat.share 7 = fullShare := (show dat.share 7 = dat.q 7 from rfl).trans hq7
  have s8 : dat.share 8 = fullShare := rfl
  have s9 : dat.share 9 = fullShare := rfl
  have s10 : dat.share 10 = fullShare := rfl
  unfold Pipeline.arrBufs Dat.arrays
  rw [bigSep_W1, bigSep_eq_bigSepL_of_eq [main_arg1, main_v0_1, main_call0_v2, main_call0_v3, main_call0_v5, main_arg6, main_call0_v6, main_v0_0, main_v0_2, main_v0_3] (by decide +kernel) (by decide)]
  rw [s0, s1, s2, s3, s4, s5, s6, s7, s8, s9, s10, hF 0, hF 1, hF 2, hF 3, hF 4, hF 5, hF 6, hF 7, hF 8, hF 9, hF 10,
    (arr_whole1 0).set_eq_univ, (arr_whole1 1).set_eq_univ, (arr_whole1 3).set_eq_univ, (arr_whole1 4).set_eq_univ,
    (arr_whole1 5).set_eq_univ, (arr_whole1 6).set_eq_univ, (arr_whole1 7).set_eq_univ, (arr_whole1 8).set_eq_univ,
    (arr_whole1 9).set_eq_univ, (arr_whole1 10).set_eq_univ]
  rw [show (bigSepL [main_arg1, main_v0_1, main_call0_v2, main_call0_v3, main_call0_v5, main_arg6, main_call0_v6, main_v0_0, main_v0_2, main_v0_3] fun b => ((c : Thread nD τ).loc b) ↦{fullShare} V b : sProp 𝕄)
      = iprop((((c : Thread nD τ).loc main_arg1) ↦{fullShare} V main_arg1) ∗ (((c : Thread nD τ).loc main_v0_1) ↦{fullShare} V main_v0_1) ∗ (((c : Thread nD τ).loc main_call0_v2) ↦{fullShare} V main_call0_v2) ∗ (((c : Thread nD τ).loc main_call0_v3) ↦{fullShare} V main_call0_v3) ∗ (((c : Thread nD τ).loc main_call0_v5) ↦{fullShare} V main_call0_v5) ∗ (((c : Thread nD τ).loc main_arg6) ↦{fullShare} V main_arg6) ∗ (((c : Thread nD τ).loc main_call0_v6) ↦{fullShare} V main_call0_v6) ∗ (((c : Thread nD τ).loc main_v0_0) ↦{fullShare} V main_v0_0) ∗ (((c : Thread nD τ).loc main_v0_2) ↦{fullShare} V main_v0_2) ∗ (((c : Thread nD τ).loc main_v0_3) ↦{fullShare} V main_v0_3)) from rfl]
  iintro ⟨H0, Ha, Hb, H2, H3, H4, H5, H6, H7, H8, H9⟩
  isplitl [H0]; · iexact H0
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.KI.Seg0.lean ====
/-
  Pass 1 as a segment of the program's run. Between the program's items a core holds every unscoped buffer whole at a known
  valuation: at launch the arguments; then, after the host has sliced the weight matrices into halves and reshaped the biases,
  the valuation `X1`; pass 1 changes only the first layer's result, which ends at what the row blocks' write-backs leave
  (`X2`). Entering the region, the buffers behind its windows are taken out of that valuation (the node features' buffer in
  two halves, one per window that reads it); leaving it, they are put back.
-/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import proofs.«109832_g72069551227476_cont_9to1c4b_721_2_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.KI.Pass1
import proofs.«109832_g72069551227476_cont_9to1c4b_721_2_alg».proof.Proof.KI.Shares

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch, -/
abbrev X0 (c : Dev nD) : Valuation τ sig (Elt F) := fun b => m (c, b)
/-- and when pass 1 is entered: after the host's slices and reshapes. -/
abbrev X1 (c : Dev nD) : Valuation τ sig (Elt F) := StableHlo.after hostOps0 (X0 m c)
/-- The same read at the TensorCore's references: what pass 1's proof data take. -/
abbrev E1 : (c : Dev nD) → (b : Ref sig .tc) → Buf (Elt F) ((c : Thread nD τ).loc b) := fun c b => X1 m c b

/-- After pass 1: the first layer's result at what the 25 write-backs leave, every other buffer as entered. -/
def X2 (c : Dev nD) : Valuation τ sig (Elt F) :=
  Function.update (X1 m c) main_v0_1 ((dat0 (E1 m) c).arrAt 6 cfg0.N)
abbrev E2 : (c : Dev nD) → (b : Ref sig .tc) → Buf (Elt F) ((c : Thread nD τ).loc b) := fun c b => X2 m c b

theorem X2_h1 (c : Dev nD) : X2 m c main_v0_1 = (dat0 (E1 m) c).arrAt 6 cfg0.N := by
  unfold X2; exact Function.update_self ..
theorem X2_of_ne (c : Dev nD) (b : Ref sig .tc) (hb : b ≠ main_v0_1) : X2 m c b = X1 m c b := by
  unfold X2; exact Function.update_of_ne (StableHlo.devRef_ne_of_ne hb) ..

/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- Each of pass 1's windowed arrays ends where `X2` has it: an input as entered, the result at its write-backs. -/
theorem exit0_arr (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (X2_of_ne m c main_arg0 (by decide)).symm)
  | ⟨1, _⟩ => exact ((dat0 (E1 m) c).arrAt_in 1 rfl _).trans ((A_eq0 (E1 m) c 1).trans (X2_of_ne m c main_arg0 (by decide)).symm)
  | ⟨2, _⟩ => exact ((dat0 (E1 m) c).arrAt_in 2 rfl _).trans ((A_eq0 (E1 m) c 2).trans (X2_of_ne m c main_arg1 (by decide)).symm)
  | ⟨3, _⟩ => exact ((dat0 (E1 m) c).arrAt_in 3 rfl _).trans ((A_eq0 (E1 m) c 3).trans (X2_of_ne m c main_call0_v0 (by decide)).symm)
  | ⟨4, _⟩ => exact ((dat0 (E1 m) c).arrAt_in 4 rfl _).trans ((A_eq0 (E1 m) c 4).trans (X2_of_ne m c main_call0_v1 (by decide)).symm)
  | ⟨5, _⟩ => exact ((dat0 (E1 m) c).arrAt_in 5 rfl _).trans ((A_eq0 (E1 m) c 5).trans (X2_of_ne m c main_call0_v4 (by decide)).symm)
  | ⟨6, _⟩ => exact (X2_h1 m c).symm

/-- Off pass 1's arrays nothing changed. -/
theorem exit0_rest (c : Dev nD) (b : Ref sig .tc) (hb : b ∉ Finset.univ.image (Pipeline.arrRef spec0)) : E2 m c b = E1 m c b :=
  X2_of_ne m c b fun e => hb (Finset.mem_image.mpr ⟨6, Finset.mem_univ _, e.symm⟩)

/-- ENTRY: every unscoped buffer at `X1` is pass 1's windowed arrays at their entry contents and shares, beside the
    unscoped buffers that are no window's array. -/
theorem entry0 (c : Dev nD) :
    (StableHlo.held (c : Thread nD τ) (Pipeline.ucRefs τ sig) (X1 m c) : sProp 𝕄)
      ⊢ iprop((dat0 (E1 m) c).arrays ((dat0 (E1 m) c).arrAt · 0)
          ∗ Pipeline.unscopedRest (Ix := Unit) (Name := ℕ) (U := UR sig nD τ) (Lvl := ℕ) spec0 c (E1 m c)) := by
  rw [← Pipeline.unscopedBufs_held c (X1 m c), Pipeline.unscopedBufs_split₀ cfgs 0 winFacts₀0.arr_unscoped c (E1 m c)]
  exact sep_mono (arrays0_of_bufs c (dat0 (E1 m) c) rfl rfl rfl rfl rfl rfl (E1 m c) _ (fun w => A_eq0 (E1 m) c w)) .rfl

/-- EXIT: pass 1's arrays at their final contents and the rest as entered are every unscoped buffer at `X2`. -/
theorem exit0 (c : Dev nD) :
    iprop((dat0 (E1 m) c).arrays ((dat0 (E1 m) c).arrAt · cfg0.N)
          ∗ Pipeline.unscopedRest (Ix := Unit) (Name := ℕ) (U := UR sig nD τ) (Lvl := ℕ) spec0 c (E1 m c))
      ⊢ (StableHlo.held (c : Thread nD τ) (Pipeline.ucRefs τ sig) (X2 m c) : sProp 𝕄) := by
  rw [← Pipeline.unscopedBufs_held c (X2 m c), Pipeline.unscopedBufs_split₀ cfgs 0 winFacts₀0.arr_unscoped c (E2 m c)]
  refine sep_mono (bufs_of_arrays0 c (dat0 (E1 m) c) rfl rfl rfl rfl rfl rfl (E2 m c) _ (exit0_arr m c)) (Entails.of_eq ?_)
  unfold Pipeline.unscopedRest
  exact bigSep_congr fun b hb => by rw [exit0_rest m c b (Finset.mem_sdiff.mp hb).2]

end Cert.KernelIdeal.Hand

end
-- ==== Proof.KI.Seg1.lean ====
/-
  Pass 2 as a segment of the program's run: entered from the valuation pass 1 left (`X2`), it changes only its three results
  — the log-softmax, the second layer's result and the logits — which end at what the row blocks' write-backs leave (`X3`).
  The first layer's result is read through two windows (a row block and the whole array), so its buffer is taken in two halves.
-/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import proofs.«109832_g72069551227476_cont_9to1c4b_721_2_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.KI.Pass2
import proofs.«109832_g72069551227476_cont_9to1c4b_721_2_alg».proof.Proof.KI.Seg0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After pass 2: its three results at what the write-backs leave, every other buffer as pass 1 left it. -/
def X3 (c : Dev nD) : Valuation τ sig (Elt F) :=
  Function.update (Function.update (Function.update (X2 m c) main_v0_0 ((dat1 (E2 m) c).arrAt 8 cfg1.N))
    main_v0_2 ((dat1 (E2 m) c).arrAt 9 cfg1.N)) main_v0_3 ((dat1 (E2 m) c).arrAt 10 cfg1.N)
abbrev E3 : (c : Dev nD) → (b : Ref sig .tc) → Buf (Elt F) ((c : Thread nD τ).loc b) := fun c b => X3 m c b

theorem X3_logits (c : Dev nD) : X3 m c main_v0_3 = (dat1 (E2 m) c).arrAt 10 cfg1.N := by
  unfold X3; exact Function.update_self ..
theorem X3_h2 (c : Dev nD) : X3 m c main_v0_2 = (dat1 (E2 m) c).arrAt 9 cfg1.N := by
  unfold X3
  rw [Function.update_of_ne (StableHlo.devRef_ne_of_ne (by decide) : (Proc.devRef .tc main_v0_2 : DevRef τ sig) ≠ Proc.devRef .tc main_v0_3)]
  exact Function.update_self ..
theorem X3_out (c : Dev nD) : X3 m c main_v0_0 = (dat1 (E2 m) c).arrAt 8 cfg1.N := by
  unfold X3
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2)]
  exact Function.update_self ..
theorem X3_of_ne (c : Dev nD) (b : Ref sig .tc) (h0 : b ≠ main_v0_0) (h2 : b ≠ main_v0_2) (h3 : b ≠ main_v0_3) : X3 m c b = X2 m c b := by
  unfold X3
  rw [Function.update_of_ne (StableHlo.devRef_ne_of_ne h3 : (Proc.devRef .tc b : DevRef τ sig) ≠ Proc.devRef .tc main_v0_3),
    Function.update_of_ne (StableHlo.devRef_ne_of_ne h2 : (Proc.devRef .tc b : DevRef τ sig) ≠ Proc.devRef .tc main_v0_2),
    Function.update_of_ne (StableHlo.devRef_ne_of_ne h0 : (Proc.devRef .tc b : DevRef τ sig) ≠ Proc.devRef .tc main_v0_0)]

/-- Each of pass 2's windowed arrays ends where `X3` has it: an input as entered, a result at its write-backs. -/
theorem exit1_arr (c : Dev nD) (w : Fin cfg1.W) : (dat1 (E2 m) c).arrAt w cfg1.N = E3 m c (Pipeline.arrRef spec1 w) := by
  match w with
  | ⟨0, _⟩ => exact ((dat1 (E2 m) c).arrAt_in 0 rfl _).trans ((A_eq1 (E2 m) c 0).trans (X3_of_ne m c main_arg1 (by decide) (by decide) (by decide)).symm)
  | ⟨1, _⟩ => exact ((dat1 (E2 m) c).arrAt_in 1 rfl _).trans ((A_eq1 (E2 m) c 1).trans (X3_of_ne m c main_v0_1 (by decide) (by decide) (by decide)).symm)
  | ⟨2, _⟩ => exact ((dat1 (E2 m) c).arrAt_in 2 rfl _).trans ((A_eq1 (E2 m) c 2).trans (X3_of_ne m c main_v0_1 (by decide) (by decide) (by decide)).symm)
  | ⟨3, _⟩ => exact ((dat1 (E2 m) c).arrAt_in 3 rfl _).trans ((A_eq1 (E2 m) c 3).trans (X3_of_ne m c main_call0_v2 (by decide) (by decide) (by decide)).symm)
  | ⟨4, _⟩ => exact ((dat1 (E2 m) c).arrAt_in 4 rfl _).trans ((A_eq1 (E2 m) c 4).trans (X3_of_ne m c main_call0_v3 (by decide) (by decide) (by decide)).symm)
  | ⟨5, _⟩ => exact ((dat1 (E2 m) c).arrAt_in 5 rfl _).trans ((A_eq1 (E2 m) c 5).trans (X3_of_ne m c main_call0_v5 (by decide) (by decide) (by decide)).symm)
  | ⟨6, _⟩ => exact ((dat1 (E2 m) c).arrAt_in 6 rfl _).trans ((A_eq1 (E2 m) c 6).trans (X3_of_ne m c main_arg6 (by decide) (by decide) (by decide)).symm)
  | ⟨7, _⟩ => exact ((dat1 (E2 m) c).arrAt_in 7 rfl _).trans ((A_eq1 (E2 m) c 7).trans (X3_of_ne m c main_call0_v6 (by decide) (by decide) (by decide)).symm)
  | ⟨8, _⟩ => exact (X3_out m c).symm
  | ⟨9, _⟩ => exact (X3_h2 m c).symm
  | ⟨10, _⟩ => exact (X3_logits m c).symm

/-- Off pass 2's arrays nothing changed. -/
theorem exit1_rest (c : Dev nD) (b : Ref sig .tc) (hb : b ∉ Finset.univ.image (Pipeline.arrRef spec1)) : E3 m c b = E2 m c b :=
  X3_of_ne m c b (fun e => hb (Finset.mem_image.mpr ⟨8, Finset.mem_univ _, e.symm⟩))
    (fun e => hb (Finset.mem_image.mpr ⟨9, Finset.mem_univ _, e.symm⟩)) (fun e => hb (Finset.mem_image.mpr ⟨10, Finset.mem_univ _, e.symm⟩))

/-- ENTRY: every unscoped buffer at `X2` is pass 2's windowed arrays at their entry contents and shares, beside the rest. -/
theorem entry1 (c : Dev nD) :
    (StableHlo.held (c : Thread nD τ) (Pipeline.ucRefs τ sig) (X2 m c) : sProp 𝕄)
      ⊢ iprop((dat1 (E2 m) c).arrays ((dat1 (E2 m) c).arrAt · 0)
          ∗ Pipeline.unscopedRest (Ix := Unit) (Name := ℕ) (U := UR sig nD τ) (Lvl := ℕ) spec1 c (E2 m c)) := by
  rw [← Pipeline.unscopedBufs_held c (X2 m c), Pipeline.unscopedBufs_split₀ cfgs 1 winFacts₀1.arr_unscoped c (E2 m c)]
  exact sep_mono (arrays1_of_bufs c (dat1 (E2 m) c) rfl rfl rfl rfl rfl rfl rfl rfl (E2 m c) _ (fun w => A_eq1 (E2 m) c w)) .rfl

/-- EXIT: pass 2's arrays at their final contents and the rest as entered are every unscoped buffer at `X3`. -/
theorem exit1 (c : Dev nD) :
    iprop((dat1 (E2 m) c).arrays ((dat1 (E2 m) c).arrAt · cfg1.N)
          ∗ Pipeline.unscopedRest (Ix := Unit) (Name := ℕ) (U := UR sig nD τ) (Lvl := ℕ) spec1 c (E2 m c))
      ⊢ (StableHlo.held (c : Thread nD τ) (Pipeline.ucRefs τ sig) (X3 m c) : sProp 𝕄) := by
  rw [← Pipeline.unscopedBufs_held c (X3 m c), Pipeline.unscopedBufs_split₀ cfgs 1 winFacts₀1.arr_unscoped c (E3 m c)]
  refine sep_mono (bufs_of_arrays1 c (dat1 (E2 m) c) rfl rfl rfl rfl rfl rfl rfl rfl (E3 m c) _ (exit1_arr m c)) (Entails.of_eq ?_)
  unfold Pipeline.unscopedRest
  exact bigSep_congr fun b hb => by rw [exit1_rest m c b (Finset.mem_sdiff.mp hb).2]

end Cert.KernelIdeal.Hand

end
-- ==== Proof.KI.Run.lean ====
/-
  The program's run: the host's slices and reshapes, pass 1, pass 2, as three segments entered one from the other. Every
  weakly fair execution from a memory with zero counters terminates, and every final memory holds each unscoped buffer at the
  last valuation `X3`: the arguments as launched, the four results at what the passes' write-backs leave.
-/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import proofs.«109832_g72069551227476_cont_9to1c4b_721_2_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.KI.Seg1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0

/-- The last thread state without the `owes`: every unscoped buffer at `X3`, the generator register at some state. -/
abbrev Tₙ (c : Dev nD) : sProp 𝕄 := iprop(StableHlo.held (c : Thread nD τ) (Pipeline.ucRefs τ sig) (X3 m c) ∗ ∃ r, prngReg c r)

-- a library lemma stated over the pinned configuration unifies with the printed one only when unification may unfold plain
-- definitions in a metavariable's type
set_option backward.isDefEq.respectTransparency.types false in
/-- Pass 1 as a region of the run: entered from every unscoped buffer at `X1`, left at `X2`; its arrays taken out of
    the unscoped buffers at entry and put back at exit; the generator register into the region's invariant and out; nothing
    owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := entry0 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit0 m c; isplitl [Ha]
      · iexact Ha
      · iexact Hrest
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pass 2 as a region of the run: entered from every unscoped buffer at `X2`, left at `X3`; its arrays taken out of
    the unscoped buffers at entry and put back at exit; the generator register into the region's invariant and out; nothing
    owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := entry1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply exit1 m c; isplitl [Ha]
        · iexact Ha
        · iexact Hrest
      iexact HY
    unfold Pipeline.Dat.owesAt Pipeline.owesWithin
    icases HO with ⟨%W, -, HO⟩; iexists W; iexact HO

/-- The host's seven slices and reshapes as a segment: over the unscoped references from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (X0 m) R

/-- The run's three segments. -/
abbrev segs : List (Pipeline.Seg (pcfgs (F := F)) adm (pdats m) () defs₀ 𝒱₀ L lv) :=
  [ .host (hostSeg m), .region (reg0 m), .region (reg1 m) ]
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution from `m` with zero counters terminates, nothing faulting, and every final memory
    holds every unscoped buffer of every core at `X3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c => h c)

end Cert.KernelIdeal.Hand

end
-- ==== Proof.KI.Frame.lean ====
/-
  The frame: no item of the run writes an argument array — the host's slices and reshapes write seven fresh buffers, pass 1 its
  result, pass 2 its three results — so each argument's buffer is, at the last valuation, what it was at launch.
-/
import proofs.«109832_g72069551227476_cont_9to1c4b_721_2_alg».proof.Proof.Gen.KernelIdeal.Launch
import proofs.«109832_g72069551227476_cont_9to1c4b_721_2_alg».proof.Proof.Gen.KernelIdeal.Skeleton
import proofs.«109832_g72069551227476_cont_9to1c4b_721_2_alg».proof.Proof.Gen.KernelIdeal.Points
import proofs.«109832_g72069551227476_cont_9to1c4b_721_2_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic
import proofs.«109832_g72069551227476_cont_9to1c4b_721_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is none of the four results and that the host does not write ends as launched. -/
theorem X3_kept (c : Dev nD) (b : Ref sig .tc) (h0 : b ≠ main_v0_0) (h1 : b ≠ main_v0_1) (h2 : b ≠ main_v0_2) (h3 : b ≠ main_v0_3)
    (hh : b ∉ hostOps0_W) : X3 m c b = m ((c : Thread nD τ).loc b) :=
  (X3_of_ne m c b h0 h2 h3).trans ((X2_of_ne m c b h1).trans ((V1_of m c b hh).trans rfl))

/-- Every weakly fair execution terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (X3_kept m c main_arg0 (by decide) (by decide) (by decide) (by decide) (by decide)),
    (h c _ (mem_uc main_arg1 (by decide))).trans (X3_kept m c main_arg1 (by decide) (by decide) (by decide) (by decide) (by decide)),
    (h c _ (mem_uc main_arg2 (by decide))).trans (X3_kept m c main_arg2 (by decide) (by decide) (by decide) (by decide) (by decide)),
    (h c _ (mem_uc main_arg3 (by decide))).trans (X3_kept m c main_arg3 (by decide) (by decide) (by decide) (by decide) (by decide)),
    (h c _ (mem_uc main_arg4 (by decide))).trans (X3_kept m c main_arg4 (by decide) (by decide) (by decide) (by decide) (by decide)),
    (h c _ (mem_uc main_arg5 (by decide))).trans (X3_kept m c main_arg5 (by decide) (by decide) (by decide) (by decide) (by decide)),
    (h c _ (mem_uc main_arg6 (by decide))).trans (X3_kept m c main_arg6 (by decide) (by decide) (by decide) (by decide) (by decide)),
    (h c _ (mem_uc main_arg7 (by decide))).trans (X3_kept m c main_arg7 (by decide) (by decide) (by decide) (by decide) (by decide))⟩)
    (run_all m ρ)

end Cert.KernelIdeal.Hand

end
-- ==== Proof.KI.Layer.lean ====
/- One GraphSAGE layer and the classifier's logits, as functions of whole arrays of extended reals.

   A layer takes features h (10000 × 128), the adjacency matrix adj (10000 × 10000), the two halves wa, wb of
   its weights (128 × 128 each) and its bias as one row b (1 × 128) to max (h · wa + (adj · h) · wb + b, 0).
   The logits of features h against weights wl (128 × 64) and a bias row bl (1 × 64) are h · wl + bl. Both
   passes of the kernel compute blocks of rows of these; the arrays they leave are these functions of the
   arrays they find. -/
import proofs.«109832_g72069551227476_cont_9to1c4b_721_2_alg».proof.KernelIdeal
import Idealize.ShloMosaic.PureOps.Ideal
import Idealize.ShloMosaic.Lib.ValueIdx

noncomputable section

namespace Cert.KernelIdeal.Hand

open Cert.KernelIdeal Idealize.ShloMosaic Idealize.ShloMosaic.ValueIdx

/-- A layer, entry by entry: at (r, q) the row r of h against column q of wa, plus the row r of adj · h against
    column q of wb, plus b at q, rectified. -/
def layerOf (h : S10000x128.Idx → EReal) (adj : S10000x10000.Idx → EReal) (wa wb : S128x128.Idx → EReal)
    (b : S1x128.Idx → EReal) : S10000x128.Idx → EReal := fun i =>
  max ((∑ k : Fin 128, h (ix2 (i 0) k) * wa (ix2 k (i 1)))
        + (∑ k : Fin 128, (∑ j : Fin 10000, adj (ix2 (i 0) j) * h (ix2 j k)) * wb (ix2 k (i 1)))
        + b (ix2 (0 : Fin 1) (i 1))) 0

theorem layerOf_apply (h : S10000x128.Idx → EReal) (adj : S10000x10000.Idx → EReal) (wa wb : S128x128.Idx → EReal)
    (b : S1x128.Idx → EReal) (r : Fin 10000) (q : Fin 128) :
    layerOf h adj wa wb b (ix2 r q)
      = max ((∑ k : Fin 128, h (ix2 r k) * wa (ix2 k q))
              + (∑ k : Fin 128, (∑ j : Fin 10000, adj (ix2 r j) * h (ix2 j k)) * wb (ix2 k q))
              + b (ix2 (0 : Fin 1) q)) 0 := rfl

/-- The logits, entry by entry: at (r, q) the row r of h against column q of wl, plus bl at q. -/
def logitsOf (h : S10000x128.Idx → EReal) (wl : S128x64.Idx → EReal) (bl : S1x64.Idx → EReal) : S10000x64.Idx → EReal := fun i =>
  (∑ k : Fin 128, h (ix2 (i 0) k) * wl (ix2 k (i 1))) + bl (ix2 (0 : Fin 1) (i 1))

theorem logitsOf_apply (h : S10000x128.Idx → EReal) (wl : S128x64.Idx → EReal) (bl : S1x64.Idx → EReal) (r : Fin 10000) (q : Fin 64) :
    logitsOf h wl bl (ix2 r q) = (∑ k : Fin 128, h (ix2 r k) * wl (ix2 k q)) + bl (ix2 (0 : Fin 1) q) := rfl

/-- The two zero offsets of a whole-buffer rectangle, as a constant function. -/
theorem zero_offsets : (![0, 0] : Fin 2 → Nat) = fun _ => 0 := funext fun a => by fin_cases a <;> rfl

end Cert.KernelIdeal.Hand

end
-- ==== Proof.Spec.lean ====
/-
  The mathematics of the two programs, as functions of the argument arrays over the extended reals.

  A layer takes node features `h` (10000 × 128), the dense adjacency `adj` (10000 × 10000), a weight matrix `W`
  (256 × 128) and a bias `b` (128) to `max(h · W_top + (adj · h) · W_bot + b, 0)`: the product of the row `[h | adj · h]`
  with `W`, the 256 contraction coordinates taken as the top 128 rows of `W` (against `h`) and the bottom 128 (against
  `adj · h`). The logits are `h₂ · Wl + bl` and the last result is the row-wise log-softmax of the logits, written as
  `z - (log Σ exp (z - m) + m)` with `m` the row's maximum.
-/
import Idealize.ShloMosaic.PureOps.Ideal
import Idealize.ShloMosaic.Lib.ValueIdx

noncomputable section

namespace Cert.Sage

open Idealize.ShloMosaic Idealize.ShloMosaic.ValueIdx

/-- A matrix of extended reals, indexed as the programs' rank-2 arrays are. -/
abbrev Mat (a b : Nat) : Type := (⟨2, ![a, b]⟩ : Shape).Idx → EReal
/-- A vector of extended reals, indexed as the programs' rank-1 arrays are. -/
abbrev Vct (a : Nat) : Type := (⟨1, ![a]⟩ : Shape).Idx → EReal

/-- Every entry of an array is a real number (neither infinity). -/
def AllReal {s : Shape} (f : s.Idx → EReal) : Prop := ∀ i, ∃ r : ℝ, f i = (r : EReal)

/-- Row `k` of the top half of a 256-row weight matrix. -/
def top (W : Mat 256 128) (k c : Fin 128) : EReal := W (ix2 (⟨k.val, by omega⟩ : Fin 256) c)
/-- Row `k` of its bottom half. -/
def bot (W : Mat 256 128) (k c : Fin 128) : EReal := W (ix2 (⟨128 + k.val, by omega⟩ : Fin 256) c)

/-- The neighbourhood sum `(adj · h)[r, k]`. -/
def agg (adj : Mat 10000 10000) (h : Mat 10000 128) (r : Fin 10000) (k : Fin 128) : EReal :=
  ∑ j : Fin 10000, adj (ix2 r j) * h (ix2 j k)

/-- A layer before its rectifier: `h · W_top + (adj · h) · W_bot + b` at row `r`, column `c`. -/
def pre (h : Mat 10000 128) (adj : Mat 10000 10000) (W : Mat 256 128) (b : Vct 128) (r : Fin 10000) (c : Fin 128) : EReal :=
  (∑ k : Fin 128, h (ix2 r k) * top W k c) + (∑ k : Fin 128, agg adj h r k * bot W k c) + b (ix1 c)

/-- A layer: the rectified `pre`. -/
def layer (h : Mat 10000 128) (adj : Mat 10000 10000) (W : Mat 256 128) (b : Vct 128) : Mat 10000 128 :=
  fun i => max (pre h adj W b (i 0) (i 1)) 0

theorem layer_apply (h : Mat 10000 128) (adj : Mat 10000 10000) (W : Mat 256 128) (b : Vct 128) (r : Fin 10000) (c : Fin 128) :
    layer h adj W b (ix2 r c) = max (pre h adj W b r c) 0 := rfl

/-- The logits `h · Wl + bl`. -/
def logits (h : Mat 10000 128) (Wl : Mat 128 64) (bl : Vct 64) : Mat 10000 64 :=
  fun i => (∑ k : Fin 128, h (ix2 (i 0) k) * Wl (ix2 k (i 1))) + bl (ix1 (i 1))

theorem logits_apply (h : Mat 10000 128) (Wl : Mat 128 64) (bl : Vct 64) (r : Fin 10000) (c : Fin 64) :
    logits h Wl bl (ix2 r c) = (∑ k : Fin 128, h (ix2 r k) * Wl (ix2 k c)) + bl (ix1 c) := rfl

/-- A row's maximum, folded from `-∞`. -/
def rowMax (z : Mat 10000 64) (r : Fin 10000) : EReal :=
  (Finset.univ : Finset (Fin 64)).fold max (⊥ : EReal) (fun k => z (ix2 r k))

/-- A row's log-sum-exp, shifted by the row's maximum and shifted back. -/
def lse (z : Mat 10000 64) (r : Fin 10000) : EReal :=
  Ideal.log (∑ k : Fin 64, Ideal.exp (z (ix2 r k) - rowMax z r)) + rowMax z r

/-- The row-wise log-softmax, in the arrangement `z - (log Σ exp (z - m) + m)`. -/
def logSoftmax (z : Mat 10000 64) : Mat 10000 64 := fun i => z i - lse z (i 0)

theorem logSoftmax_apply (z : Mat 10000 64) (r : Fin 10000) (c : Fin 64) :
    logSoftmax z (ix2 r c) = z (ix2 r c) - lse z r := rfl

/-- The four results, as functions of the eight arguments. -/
def h1 (x : Mat 10000 128) (adj : Mat 10000 10000) (W1 : Mat 256 128) (b1 : Vct 128) : Mat 10000 128 := layer x adj W1 b1
def h2 (x : Mat 10000 128) (adj : Mat 10000 10000) (W1 : Mat 256 128) (b1 : Vct 128) (W2 : Mat 256 128) (b2 : Vct 128) : Mat 10000 128 :=
  layer (h1 x adj W1 b1) adj W2 b2
def x3 (x : Mat 10000 128) (adj : Mat 10000 10000) (W1 : Mat 256 128) (b1 : Vct 128) (W2 : Mat 256 128) (b2 : Vct 128)
    (Wl : Mat 128 64) (bl : Vct 64) : Mat 10000 64 := logits (h2 x adj W1 b1 W2 b2) Wl bl
def out (x : Mat 10000 128) (adj : Mat 10000 10000) (W1 : Mat 256 128) (b1 : Vct 128) (W2 : Mat 256 128) (b2 : Vct 128)
    (Wl : Mat 128 64) (bl : Vct 64) : Mat 10000 64 := logSoftmax (x3 x adj W1 b1 W2 b2 Wl bl)

end Cert.Sage

end
-- ==== Proof.KI.HostReads.lean ====
/-
  What the buffers hold when the first pass starts.

  Before the first pass the program cuts each 256 × 128 weight matrix into its top and bottom 128 × 128 halves and
  views each bias vector as a one-row matrix. So the seven buffers written there hold, entry by entry: rows `k` and
  `128 + k` of `W1` and of `W2`, and the entries of `b1`, `b2`, `bl` along the one row. The feature matrix, the adjacency
  matrix and the last layer's weights are not touched and hold what they held at the start.
-/
import proofs.«109832_g72069551227476_cont_9to1c4b_721_2_alg».proof.Proof.Gen.KernelIdeal.Regions
import proofs.«109832_g72069551227476_cont_9to1c4b_721_2_alg».proof.Proof.Spec
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.SL.Sem Cert.KernelIdeal Cert.KernelIdeal.Gen Idealize.ShloMosaic.ValueIdx

variable (m : (ℓ : Loc nD τ sig) → Buf (Elt Ideal) ℓ) (c : Dev nD)

/-- The top half of `W1`: row `k` of the half is row `k` of `W1`. -/
theorem w1_top_read (k q : Fin 128) :
    Gen.V1 (F := Ideal) m c main_call0_v0 (ix2 k q) = Cert.Sage.top (m ((c : Thread nD τ).loc main_arg2)) k q := by
  dsimp only [Gen.V1, Gen.hostOps0]
  after_results
  exact slice2_axis0_apply 0 (m ((c : Thread nD τ).loc main_arg2)) slices_S256x128_S128x128_0_0 k q ⟨k.val, by omega⟩ (Nat.zero_add _).symm

/-- The bottom half of `W1`: row `k` of the half is row `128 + k` of `W1`. -/
theorem w1_bot_read (k q : Fin 128) :
    Gen.V1 (F := Ideal) m c main_call0_v1 (ix2 k q) = Cert.Sage.bot (m ((c : Thread nD τ).loc main_arg2)) k q := by
  dsimp only [Gen.V1, Gen.hostOps0]
  after_results
  exact slice2_axis0_apply 128 (m ((c : Thread nD τ).loc main_arg2)) slices_S256x128_S128x128_128_0 k q ⟨128 + k.val, by omega⟩ rfl

/-- The top half of `W2`. -/
theorem w2_top_read (k q : Fin 128) :
    Gen.V1 (F := Ideal) m c main_call0_v2 (ix2 k q) = Cert.Sage.top (m ((c : Thread nD τ).loc main_arg4)) k q := by
  dsimp only [Gen.V1, Gen.hostOps0]
  after_results
  exact slice2_axis0_apply 0 (m ((c : Thread nD τ).loc main_arg4)) slices_S256x128_S128x128_0_0 k q ⟨k.val, by omega⟩ (Nat.zero_add _).symm

/-- The bottom half of `W2`. -/
theorem w2_bot_read (k q : Fin 128) :
    Gen.V1 (F := Ideal) m c main_call0_v3 (ix2 k q) = Cert.Sage.bot (m ((c : Thread nD τ).loc main_arg4)) k q := by
  dsimp only [Gen.V1, Gen.hostOps0]
  after_results
  exact slice2_axis0_apply 128 (m ((c : Thread nD τ).loc main_arg4)) slices_S256x128_S128x128_128_0 k q ⟨128 + k.val, by omega⟩ rfl

/-- `b1` as one row. -/
theorem b1_read (q : Fin 128) :
    Gen.V1 (F := Ideal) m c main_call0_v4 (ix2 (0 : Fin 1) q) = m ((c : Thread nD τ).loc main_arg3) (ix1 q) := by
  dsimp only [Gen.V1, Gen.hostOps0]
  after_results
  exact shapeCast_a_1a_apply (m ((c : Thread nD τ).loc main_arg3)) shapeCasts_S128_S1x128 (0 : Fin 1) q

/-- `b2` as one row. -/
theorem b2_read (q : Fin 128) :
    Gen.V1 (F := Ideal) m c main_call0_v5 (ix2 (0 : Fin 1) q) = m ((c : Thread nD τ).loc main_arg5) (ix1 q) := by
  dsimp only [Gen.V1, Gen.hostOps0]
  after_results
  exact shapeCast_a_1a_apply (m ((c : Thread nD τ).loc main_arg5)) shapeCasts_S128_S1x128 (0 : Fin 1) q

/-- `bl` as one row. -/
theorem bl_read (q : Fin 64) :
    Gen.V1 (F := Ideal) m c main_call0_v6 (ix2 (0 : Fin 1) q) = m ((c : Thread nD τ).loc main_arg7) (ix1 q) := by
  dsimp only [Gen.V1, Gen.hostOps0]
  after_results
  exact shapeCast_a_1a_apply (m ((c : Thread nD τ).loc main_arg7)) shapeCasts_S64_S1x64 (0 : Fin 1) q

/-- The feature matrix is as at the start. -/
theorem x_read : Gen.V1 (F := Ideal) m c main_arg0 = m ((c : Thread nD τ).loc main_arg0) :=
  Gen.V1_of m c main_arg0 (by decide)

/-- The adjacency matrix is as at the start. -/
theorem adj_read : Gen.V1 (F := Ideal) m c main_arg1 = m ((c : Thread nD τ).loc main_arg1) :=
  Gen.V1_of m c main_arg1 (by decide)

/-- The last layer's weights are as at the start. -/
theorem wl_read : Gen.V1 (F := Ideal) m c main_arg6 = m ((c : Thread nD τ).loc main_arg6) :=
  Gen.V1_of m c main_arg6 (by decide)

end Cert.KernelIdeal.Hand

end
-- ==== Proof.KernelPay.lean ====
/-
  The arithmetic of one row block, read entry by entry over the extended reals.

  A block of 400 rows takes its rows of the adjacency matrix `a` (400 × 10000), the whole feature matrix `xf`
  (10000 × 128), its own rows `xb` of it (400 × 128), the two halves `wa`, `wb` of a layer's weights (128 × 128 each)
  and the bias row `b` (1 × 128) to `max (xb · wa + (a · xf) · wb + b, 0)`. The second pass goes on from that block
  `h` to the logits `h · wl + bl` (400 × 64) and to their row-wise log-softmax `z - (log Σ exp (z - m) + m)`, `m` the
  row's maximum. Each theorem below says what one entry `(p, q)` of such a block is, as sums over the contracted
  coordinate, a fold of `max` along a row, and the exact `exp` and `log`.
-/
import proofs.«109832_g72069551227476_cont_9to1c4b_721_2_alg».proof.Proof.Gen.KernelIdeal.Skeleton
import proofs.«109832_g72069551227476_cont_9to1c4b_721_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Pay

open Idealize.ShloMosaic Cert.KernelIdeal Cert.KernelIdeal.Gen Idealize.ShloMosaic.ValueIdx

/-! ### The 400 × 10000 by 10000 × 128 product -/

theorem agg_lhs0 (i : S400x128.Idx) (t : dot_S400x10000_S10000x128_S400x128_1_0_0_1_n_n.contr.Idx) : (dot_S400x10000_S10000x128_S400x128_1_0_0_1_n_n.lhsIdx i t 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem agg_lhs1 (i : S400x128.Idx) (t : dot_S400x10000_S10000x128_S400x128_1_0_0_1_n_n.contr.Idx) : (dot_S400x10000_S10000x128_S400x128_1_0_0_1_n_n.lhsIdx i t 1).val = (t ⟨0, by decide⟩).val :=
  dot_S400x10000_S10000x128_S400x128_1_0_0_1_n_n.lhsIdx_val_of_single rfl i t
theorem agg_rhs0 (i : S400x128.Idx) (t : dot_S400x10000_S10000x128_S400x128_1_0_0_1_n_n.contr.Idx) : (dot_S400x10000_S10000x128_S400x128_1_0_0_1_n_n.rhsIdx i t 0).val = (t ⟨0, by decide⟩).val :=
  dot_S400x10000_S10000x128_S400x128_1_0_0_1_n_n.rhsIdx_val_of_single rfl i t
theorem agg_rhs1 (i : S400x128.Idx) (t : dot_S400x10000_S10000x128_S400x128_1_0_0_1_n_n.contr.Idx) : (dot_S400x10000_S10000x128_S400x128_1_0_0_1_n_n.rhsIdx i t 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product into the zero block, read at `(p, q)`: the sum over the 10000 contracted coordinates of the left
    operand's row `p` against the right operand's column `q`. -/
theorem aggProduct_apply (l : FVec Ideal S400x10000 .f32) (r : FVec Ideal S10000x128 .f32) (p : Fin 400) (q : Fin 128) :
    matmul dot_S400x10000_S10000x128_S400x128_1_0_0_1_n_n none l r (constant (F := Ideal) S400x128 .f32 0x00000000#32) (ix2 p q)
      = ∑ k : Fin 10000, l (ix2 p k) * r (ix2 k q) := by
  refine (Ideal.matmul_constant_zero_apply dot_S400x10000_S10000x128_S400x128_1_0_0_1_n_n none l r (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k :=
    funext fun a => Fin.ext (by
      match a with
      | ⟨0, _⟩ => exact agg_lhs0 _ _
      | ⟨1, _⟩ => exact (agg_lhs1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q :=
    funext fun a => Fin.ext (by
      match a with
      | ⟨0, _⟩ => exact (agg_rhs0 _ _).trans hk
      | ⟨1, _⟩ => exact agg_rhs1 _ _)
  rw [el, er]

/-! ### The 400 × 128 by 128 × 128 product -/

theorem half_lhs0 (i : S400x128.Idx) (t : dot_S400x128_S128x128_S400x128_1_0_0_1_n_n.contr.Idx) : (dot_S400x128_S128x128_S400x128_1_0_0_1_n_n.lhsIdx i t 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem half_lhs1 (i : S400x128.Idx) (t : dot_S400x128_S128x128_S400x128_1_0_0_1_n_n.contr.Idx) : (dot_S400x128_S128x128_S400x128_1_0_0_1_n_n.lhsIdx i t 1).val = (t ⟨0, by decide⟩).val :=
  dot_S400x128_S128x128_S400x128_1_0_0_1_n_n.lhsIdx_val_of_single rfl i t
theorem half_rhs0 (i : S400x128.Idx) (t : dot_S400x128_S128x128_S400x128_1_0_0_1_n_n.contr.Idx) : (dot_S400x128_S128x128_S400x128_1_0_0_1_n_n.rhsIdx i t 0).val = (t ⟨0, by decide⟩).val :=
  dot_S400x128_S128x128_S400x128_1_0_0_1_n_n.rhsIdx_val_of_single rfl i t
theorem half_rhs1 (i : S400x128.Idx) (t : dot_S400x128_S128x128_S400x128_1_0_0_1_n_n.contr.Idx) : (dot_S400x128_S128x128_S400x128_1_0_0_1_n_n.rhsIdx i t 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The product into the zero block, read at `(p, q)`: the sum over the 128 contracted coordinates of the left
    operand's row `p` against the right operand's column `q`. -/
theorem halfProduct_apply (l : FVec Ideal S400x128 .f32) (r : FVec Ideal S128x128 .f32) (p : Fin 400) (q : Fin 128) :
    matmul dot_S400x128_S128x128_S400x128_1_0_0_1_n_n none l r (constant (F := Ideal) S400x128 .f32 0x00000000#32) (ix2 p q)
      = ∑ k : Fin 128, l (ix2 p k) * r (ix2 k q) := by
  refine (Ideal.matmul_constant_zero_apply dot_S400x128_S128x128_S400x128_1_0_0_1_n_n none l r (ix2 p q)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k :=
    funext fun a => Fin.ext (by
      match a with
      | ⟨0, _⟩ => exact half_lhs0 _ _
      | ⟨1, _⟩ => exact (half_lhs1 _ _).trans hk)
  have er : dot_S400x128_S128x128_S400x128_1_0_0_1_n_n.rhsIdx (ix2 p q) ((contrEquiv1 dot_S400x128_S128x128_S400x128_1_0_0_1_n_n 128 rfl rfl).symm k) = ix2 k q :=
    funext fun a => Fin.ext (by
      match a with
      | ⟨0, _⟩ => exact (half_rhs0 _ _).trans hk
      | ⟨1, _⟩ => exact half_rhs1 _ _)
  rw [el, er]

/-! ### The 400 × 128 by 128 × 64 product -/

theorem head_lhs0 (i : S400x64.Idx) (t : dot_S400x128_S128x64_S400x64_1_0_0_1_n_n.contr.Idx) : (dot_S400x128_S128x64_S400x64_1_0_0_1_n_n.lhsIdx i t 0).val = (i 0).val := by
  unfold DotDims.lhsIdx
  rw [dif_neg (show ¬(0 : Fin S400x128.rank) ∈ dot_S400x128_S128x64_S400x64_1_0_0_1_n_n.lhsBatch by decide),
    dif_pos (show (0 : Fin S400x128.rank) ∈ dot_S400x128_S128x64_S400x64_1_0_0_1_n_n.lhsNonContracting by decide)]
  rfl
theorem head_lhs1 (i : S400x64.Idx) (t : dot_S400x128_S128x64_S400x64_1_0_0_1_n_n.contr.Idx) : (dot_S400x128_S128x64_S400x64_1_0_0_1_n_n.lhsIdx i t 1).val = (t ⟨0, by decide⟩).val :=
  dot_S400x128_S128x64_S400x64_1_0_0_1_n_n.lhsIdx_val_of_single rfl i t
theorem head_rhs0 (i : S400x64.Idx) (t : dot_S400x128_S128x64_S400x64_1_0_0_1_n_n.contr.Idx) : (dot_S400x128_S128x64_S400x64_1_0_0_1_n_n.rhsIdx i t 0).val = (t ⟨0, by decide⟩).val :=
  dot_S400x128_S128x64_S400x64_1_0_0_1_n_n.rhsIdx_val_of_single rfl i t
theorem head_rhs1 (i : S400x64.Idx) (t : dot_S400x128_S128x64_S400x64_1_0_0_1_n_n.contr.Idx) : (dot_S400x128_S128x64_S400x64_1_0_0_1_n_n.rhsIdx i t 1).val = (i 1).val := by
  unfold DotDims.rhsIdx
  rw [dif_neg (show ¬(1 : Fin S128x64.rank) ∈ dot_S400x128_S128x64_S400x64_1_0_0_1_n_n.rhsBatch by decide),
    dif_pos (show (1 : Fin S128x64.rank) ∈ dot_S400x128_S128x64_S400x64_1_0_0_1_n_n.rhsNonContracting by decide)]
  rfl

/-- The product into the zero block, read at `(p, q)`: the sum over the 128 contracted coordinates of the left
    operand's row `p` against the right operand's column `q`. -/
theorem headProduct_apply (l : FVec Ideal S400x128 .f32) (r : FVec Ideal S128x64 .f32) (p : Fin 400) (q : Fin 64) :
    matmul dot_S400x128_S128x64_S400x64_1_0_0_1_n_n none l r (constant (F := Ideal) S400x64 .f32 0x00000000#32) (ix2 p q)
      = ∑ k : Fin 128, l (ix2 p k) * r (ix2 k q) := by
  refine (Ideal.matmul_constant_zero_apply dot_S400x128_S128x64_S400x64_1_0_0_1_n_n none l r (ix2 p q)).trans ?_
  rw [← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p q) ((contrEquiv1 dot_S400x128_S128x64_S400x64_1_0_0_1_n_n 128 rfl rfl).symm k) = ix2 p k :=
    funext fun a => Fin.ext (by
      match a with
      | ⟨0, _⟩ => exact head_lhs0 _ _
      | ⟨1, _⟩ => exact (head_lhs1 _ _).trans hk)
  have er : dot_S400x128_S128x64_S400x64_1_0_0_1_n_n.rhsIdx (ix2 p q) ((contrEquiv1 dot_S400x128_S128x64_S400x64_1_0_0_1_n_n 128 rfl rfl).symm k) = ix2 k q :=
    funext fun a => Fin.ext (by
      match a with
      | ⟨0, _⟩ => exact (head_rhs0 _ _).trans hk
      | ⟨1, _⟩ => exact head_rhs1 _ _)
  rw [el, er]

/-! ### A column of row values: `[a]` seen as `[a, 1]`, and `[a, 1]` spread over `[a, b]` -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The exponential and the logarithm of a block, entry by entry -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-! ### Reductions along a row of a 400 × 64 block -/

/-- Row `p` of the block with the column coordinate `k` put back. -/
theorem lift_row (p : Fin 400) (k : Fin 64) : reduces_S400x64_S400.lift (ix1 p) k = ix2 p k :=
  funext fun a => Fin.ext (by match a with | ⟨0, _⟩ => rfl | ⟨1, _⟩ => rfl)

/-- The word `0xFF800000` is `-∞`. -/
theorem ofBits_negInf_f32 : FloatOps.ofBits (F := Ideal) .f32 0xFF800000#32 = (⊥ : EReal) := by
  simp [Ideal.ofBits, Ideal.ieee]

/-- The maximum along row `p`: the fold of `max` from `-∞` over the row's 64 entries. -/
theorem rowMax_apply (z : FVec Ideal S400x64 .f32) (p : Fin 400) (hφ : FTy.f32 = FTy.f32 ∨ FTy.f32 = FTy.bf16)
    (hacc : (0xFF800000#32 : BitVec 32) = 0xFF800000#32) :
    multiReduction (F := Ideal) .maximumf [1] S400 z 0xFF800000#32 reduces_S400x64_S400 hφ hacc (ix1 p)
      = (Finset.univ : Finset (Fin 64)).fold max (⊥ : EReal) (fun k => z (ix2 p k)) := by
  refine (Ideal.multiReduction_maximumf_single z 0xFF800000#32 reduces_S400x64_S400 hφ hacc (ix1 p)).trans ?_
  rw [ofBits_negInf_f32]
  exact Finset.fold_congr fun k _ => congrArg z (lift_row p k)

/-- The sum along row `p`: the sum of the row's 64 entries. -/
theorem rowSum_apply (y : FVec Ideal S400x64 .f32) (p : Fin 400) (hφ : FTy.f32 = FTy.f32 ∨ FTy.f32 = FTy.bf16)
    (hacc : (0x00000000#32 : BitVec 32) = 0x00000000#32) :
    multiReduction (F := Ideal) .add [1] S400 y 0x00000000#32 reduces_S400x64_S400 hφ hacc (ix1 p)
      = ∑ k : Fin 64, y (ix2 p k) := by
  refine (Ideal.multiReduction_add_single y 0x00000000#32 reduces_S400x64_S400 hφ hacc (ix1 p)).trans ?_
  exact Finset.sum_congr rfl fun k _ => congrArg y (lift_row p k)

/-- One entry of a layer's block: `max (Σₖ xb[p,k]·wa[k,q] + Σₖ (Σⱼ a[p,j]·xf[j,k])·wb[k,q] + b[0,q], 0)`. -/
theorem pass1_apply (a : FVec Ideal S400x10000 .f32) (xf : FVec Ideal S10000x128 .f32) (xb : FVec Ideal S400x128 .f32)
    (wa wb : FVec Ideal S128x128 .f32) (b : FVec Ideal S1x128 .f32) (p : Fin 400) (q : Fin 128) :
    k0_pay1 (F := Ideal) a xf xb wa wb b (ix2 p q)
      = max ((∑ k : Fin 128, xb (ix2 p k) * wa (ix2 k q))
              + (∑ k : Fin 128, (∑ j : Fin 10000, a (ix2 p j) * xf (ix2 j k)) * wb (ix2 k q))
              + b (ix2 (0 : Fin 1) q)) 0 := by
  unfold k0_pay1
  simp only [shapeCast_self]
  rw [maximumf_apply, addf_apply, addf_apply, broadcast_apply, broadcastTo_1b_ab_apply, halfProduct_apply,
    halfProduct_apply, Ideal.ofBits_def, Ideal.ofBits_zero_f32]
  simp only [aggProduct_apply]

/-- The second layer's block is the same function of its operands. -/
theorem pass2_h_apply (a : FVec Ideal S400x10000 .f32) (hf : FVec Ideal S10000x128 .f32) (hb : FVec Ideal S400x128 .f32)
    (wa wb : FVec Ideal S128x128 .f32) (b : FVec Ideal S1x128 .f32) (p : Fin 400) (q : Fin 128) :
    k1_pay1 (F := Ideal) a hf hb wa wb b (ix2 p q)
      = max ((∑ k : Fin 128, hb (ix2 p k) * wa (ix2 k q))
              + (∑ k : Fin 128, (∑ j : Fin 10000, a (ix2 p j) * hf (ix2 j k)) * wb (ix2 k q))
              + b (ix2 (0 : Fin 1) q)) 0 := by
  unfold k1_pay1
  simp only [shapeCast_self]
  rw [maximumf_apply, addf_apply, addf_apply, broadcast_apply, broadcastTo_1b_ab_apply, halfProduct_apply,
    halfProduct_apply, Ideal.ofBits_def, Ideal.ofBits_zero_f32]
  simp only [aggProduct_apply]

/-- One logit: the block's row `p` against column `c` of `wl`, plus the bias. -/
theorem pass2_logits_apply (a : FVec Ideal S400x10000 .f32) (hf : FVec Ideal S10000x128 .f32) (hb : FVec Ideal S400x128 .f32)
    (wa wb : FVec Ideal S128x128 .f32) (b : FVec Ideal S1x128 .f32) (wl : FVec Ideal S128x64 .f32) (bl : FVec Ideal S1x64 .f32)
    (p : Fin 400) (c : Fin 64) :
    k1_pay2 (F := Ideal) a hf hb wa wb b wl bl (ix2 p c)
      = (∑ k : Fin 128, k1_pay1 (F := Ideal) a hf hb wa wb b (ix2 p k) * wl (ix2 k c)) + bl (ix2 (0 : Fin 1) c) := by
  unfold k1_pay2
  simp only [shapeCast_self]
  rw [addf_apply, broadcastTo_1b_ab_apply, headProduct_apply]

/-- One entry of the log-softmax block: the logit minus the row's shifted log-sum-exp. -/
theorem pass2_out_apply (a : FVec Ideal S400x10000 .f32) (hf : FVec Ideal S10000x128 .f32) (hb : FVec Ideal S400x128 .f32)
    (wa wb : FVec Ideal S128x128 .f32) (b : FVec Ideal S1x128 .f32) (wl : FVec Ideal S128x64 .f32) (bl : FVec Ideal S1x64 .f32)
    (p : Fin 400) (c : Fin 64) :
    k1_pay3 (F := Ideal) a hf hb wa wb b wl bl (ix2 p c)
      = k1_pay2 (F := Ideal) a hf hb wa wb b wl bl (ix2 p c)
        - (Ideal.log (∑ k : Fin 64, Ideal.exp (k1_pay2 (F := Ideal) a hf hb wa wb b wl bl (ix2 p k)
              - (Finset.univ : Finset (Fin 64)).fold max (⊥ : EReal) (fun k => k1_pay2 (F := Ideal) a hf hb wa wb b wl bl (ix2 p k))))
            + (Finset.univ : Finset (Fin 64)).fold max (⊥ : EReal) (fun k => k1_pay2 (F := Ideal) a hf hb wa wb b wl bl (ix2 p k))) := by
  unfold k1_pay3
  generalize k1_pay2 (F := Ideal) a hf hb wa wb b wl bl = z
  simp only [subf_apply, addf_apply, log_apply, broadcastTo_a1_ab_apply, shapeCast_a_a1_apply]
  rw [rowMax_apply z p, rowSum_apply _ p]
  simp only [subf_apply, exp_apply, broadcastTo_a1_ab_apply, shapeCast_a_a1_apply]
  rw [rowMax_apply z p]

end Cert.Sage.Pay

end
-- ==== Proof.KI.Value1.lean ====
/- The first layer's result as ONE function of the arrays pass 1 finds.

   Pass 1 writes its result back 400 rows at a time: point t writes rows 400·t … 400·t+399, computed from the
   same rows of x and of the adjacency matrix and from the whole of x, of the two halves of W1 and of b1. Row r
   of the array therefore lies in block r / 400, at row r % 400 of it, and the 25 blocks tile the 10000 rows.
   So after the last point entry (r, q) of the array is
       max (Σₖ x[r,k]·W1_top[k,q] + Σₖ (Σⱼ adj[r,j]·x[j,k])·W1_bottom[k,q] + b1[0,q], 0),
   at the extended reals, whatever the arrays held when the pass was entered. -/
import proofs.«109832_g72069551227476_cont_9to1c4b_721_2_alg».proof.Proof.KI.Pass1
import proofs.«109832_g72069551227476_cont_9to1c4b_721_2_alg».proof.Proof.KI.Layer
import proofs.«109832_g72069551227476_cont_9to1c4b_721_2_alg».proof.Proof.KernelPay
import proofs.«109832_g72069551227476_cont_9to1c4b_721_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when pass 1 is entered, at the extended reals
variable (V : (c : Dev nD) → (b : Ref sig .tc) → Buf (Elt Ideal) ((c : Thread nD τ).loc b))

/-! ## Where each window's block sits -/

/-- The index maps over the grid: the x block, the adjacency block and the result block are at block row t
    at point t, in block column 0; the whole of x, the halves of W1 and b1 are at block (0, 0) throughout. -/
theorem blockAt0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry (p, k) of the x block at point t is entry (400·t + p, k) of x. -/
theorem xRows_entry (c : Dev nD) (t : Fin cfg0.N) (p : Fin 400) (k : Fin 128) (r : Fin 10000) (hr : r.val = 400 * t.val + p.val) :
    (iblk0 V c 0 t : S400x128.Idx → EReal) (ix2 p k) = (V c main_arg0 : S10000x128.Idx → EReal) (ix2 r k) := by
  obtain ⟨e0, e1, -⟩ := blockAt0 t
  unfold iblk0
  rw [View.read_apply]
  refine congrArg (V c main_arg0 : S10000x128.Idx → EReal) ?_
  funext a; apply Fin.ext
  match a with
  | ⟨0, _⟩ => show win0_0.index t (0 : Fin 2) * 400 + 1 * p.val = r.val; rw [e0, hr]; omega
  | ⟨1, _⟩ => show win0_0.index t (1 : Fin 2) * 128 + 1 * k.val = k.val; rw [e1]; omega

/-- Entry (p, j) of the adjacency block at point t is entry (400·t + p, j) of the adjacency matrix. -/
theorem adjRows_entry (c : Dev nD) (t : Fin cfg0.N) (p : Fin 400) (j : Fin 10000) (r : Fin 10000) (hr : r.val = 400 * t.val + p.val) :
    (iblk0 V c 2 t : S400x10000.Idx → EReal) (ix2 p j) = (V c main_arg1 : S10000x10000.Idx → EReal) (ix2 r j) := by
  obtain ⟨-, -, -, -, e0, e1, -⟩ := blockAt0 t
  unfold iblk0
  rw [View.read_apply]
  refine congrArg (V c main_arg1 : S10000x10000.Idx → EReal) ?_
  funext a; apply Fin.ext
  match a with
  | ⟨0, _⟩ => show win0_2.index t (0 : Fin 2) * 400 + 1 * p.val = r.val; rw [e0, hr]; omega
  | ⟨1, _⟩ => show win0_2.index t (1 : Fin 2) * 10000 + 1 * j.val = j.val; rw [e1]; omega

/-- The block of the whole-x window is x, at every point. -/
theorem xWhole_eq (c : Dev nD) (t : Fin cfg0.N) :
    (iblk0 V c 1 t : S10000x128.Idx → EReal) = (V c main_arg0 : S10000x128.Idx → EReal) := by
  obtain ⟨-, -, e0, e1, -⟩ := blockAt0 t
  funext y
  unfold iblk0
  rw [View.read_apply]
  refine congrArg (V c main_arg0 : S10000x128.Idx → EReal) ?_
  funext a; apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The blocks of the two weight windows and of the bias window are the whole arrays, at every point. -/
theorem wTop_eq (c : Dev nD) (t : Fin cfg0.N) :
    (iblk0 V c 3 t : S128x128.Idx → EReal) = (V c main_call0_v0 : S128x128.Idx → EReal) := by
  obtain ⟨-, -, -, -, -, -, e0, e1, -⟩ := blockAt0 t
  funext y
  unfold iblk0
  rw [View.read_apply]
  refine congrArg (V c main_call0_v0 : S128x128.Idx → EReal) ?_
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem wBottom_eq (c : Dev nD) (t : Fin cfg0.N) :
    (iblk0 V c 4 t : S128x128.Idx → EReal) = (V c main_call0_v1 : S128x128.Idx → EReal) := by
  obtain ⟨-, -, -, -, -, -, -, -, e0, e1, -⟩ := blockAt0 t
  funext y
  unfold iblk0
  rw [View.read_apply]
  refine congrArg (V c main_call0_v1 : S128x128.Idx → EReal) ?_
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem bias_eq (c : Dev nD) (t : Fin cfg0.N) :
    (iblk0 V c 5 t : S1x128.Idx → EReal) = (V c main_call0_v4 : S1x128.Idx → EReal) := by
  obtain ⟨-, -, -, -, -, -, -, -, -, -, e0, e1, -⟩ := blockAt0 t
  funext y
  unfold iblk0
  rw [View.read_apply]
  refine congrArg (V c main_call0_v4 : S1x128.Idx → EReal) ?_
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## One entry of a block, from blocks that are rows of whole arrays -/

/-- If row p of the feature block and of the adjacency block are row r of the whole arrays, and the other
    operands are the whole arrays, then entry (p, q) of the layer's block is entry (r, q) of the layer. -/
theorem block_entry (a : FVec Ideal S400x10000 .f32) (xf : FVec Ideal S10000x128 .f32) (xb : FVec Ideal S400x128 .f32)
    (wa wb : FVec Ideal S128x128 .f32) (b : FVec Ideal S1x128 .f32)
    (X : S10000x128.Idx → EReal) (A : S10000x10000.Idx → EReal) (r : Fin 10000) (p : Fin 400) (q : Fin 128)
    (hxb : ∀ k : Fin 128, xb (ix2 p k) = X (ix2 r k)) (ha : ∀ j : Fin 10000, a (ix2 p j) = A (ix2 r j)) (hxf : xf = X) :
    k0_pay1 (F := Ideal) a xf xb wa wb b (ix2 p q) = layerOf X A wa wb b (ix2 r q) := by
  rw [Cert.Sage.Pay.pass1_apply, layerOf_apply]
  simp only [hxb, ha, hxf]

/-! ## What a point writes back, and the whole array -/

/-- What point t writes back is block t of the layer of the arrays the pass found. -/
theorem flushed0_6 (c : Dev nD) (t : Fin cfg0.N) :
    (dat0 (F := Ideal) V c).flushed 6 t
      = ((cfg0.win 6).blk t).view.read (Elt Ideal)
          (layerOf (V c main_arg0) (V c main_arg1) (V c main_call0_v0) (V c main_call0_v1) (V c main_call0_v4)) := by
  show (cfg0.win 6).cut (grid0.coords t) ((dat0 (F := Ideal) V c).after 6 t) = _
  rw [after0_6]
  unfold out0_6
  rw [View.canon_unit_zero zero_offsets]
  simp only [View.ld_unit_zero (S := S400x128) zero_offsets, View.ld_unit_zero (S := S10000x128) zero_offsets,
    View.ld_unit_zero (S := S400x10000) zero_offsets, View.ld_unit_zero (S := S128x128) zero_offsets,
    View.ld_unit_zero (S := S1x128) zero_offsets]
  funext y
  obtain ⟨p, q, rfl⟩ : ∃ (p : Fin 400) (q : Fin 128), y = ix2 p q := ⟨y 0, y 1, eq_ix2 y⟩
  have ht : t.val < 25 := Nat.lt_of_lt_of_eq t.isLt N_0
  obtain ⟨-, -, -, -, -, -, -, -, -, -, -, -, e0, e1⟩ := blockAt0 t
  rw [View.read_apply]
  have hemb : ((cfg0.win 6).blk t).view.emb (ix2 p q) = (ix2 (⟨400 * t.val + p.val, by omega⟩ : Fin 10000) q : S10000x128.Idx) := by
    funext a; apply Fin.ext
    match a with
    | ⟨0, _⟩ => show win0_6.index t (0 : Fin 2) * 400 + 1 * p.val = 400 * t.val + p.val; rw [e0]; omega
    | ⟨1, _⟩ => show win0_6.index t (1 : Fin 2) * 128 + 1 * q.val = q.val; rw [e1]; omega
  rw [hemb]
  refine (block_entry (iblk0 V c 2 t) (iblk0 V c 1 t) (iblk0 V c 0 t) (iblk0 V c 3 t) (iblk0 V c 4 t) (iblk0 V c 5 t)
    (V c main_arg0) (V c main_arg1) ⟨400 * t.val + p.val, by omega⟩ p q
    (fun k => xRows_entry V c t p k _ rfl) (fun j => adjRows_entry V c t p j _ rfl) (xWhole_eq V c t)).trans ?_
  rw [wTop_eq V c t, wBottom_eq V c t, bias_eq V c t]
  rfl

/-- An index of the array is in point t's block iff its row is among rows 400·t … 400·t+399. -/
theorem mem_block0_6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0_1).slice (win0_6.rect t)).set ↔ _
  rw [View.set_slice_whole, Rect.mem_set_unit]
  exact Iff.rfl

/-- Every index of the array lies in the block of the point its row divided by 400 names. -/
theorem covered0_6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, -, -, -, -, e0, e1⟩ := blockAt0 t
  have e0' : win0_6.index t (0 : Fin 2) = (i 0).val / 400 := e0
  refine ⟨t, flush0_6 t, ?_⟩
  rw [mem_block0_6]
  intro a
  match a with
  | ⟨0, _⟩ => show win0_6.index t (0 : Fin 2) * 400 ≤ (i 0).val ∧ (i 0).val < win0_6.index t (0 : Fin 2) * 400 + 400; rw [e0']; omega
  | ⟨1, _⟩ => show win0_6.index t (1 : Fin 2) * 128 ≤ (i 1).val ∧ (i 1).val < win0_6.index t (1 : Fin 2) * 128 + 128; rw [e1]; omega

/-- After the last point the first layer's array holds the layer of the arrays the pass found. -/
theorem h1_whole (c : Dev nD) :
    (dat0 (F := Ideal) V c).arrAt 6 cfg0.N
      = layerOf (V c main_arg0) (V c main_arg1) (V c main_call0_v0) (V c main_call0_v1) (V c main_call0_v4) :=
  (dat0 (F := Ideal) V c).arrAt_eq_of_cover 6 _ (fun t _ => flushed0_6 V c t) covered0_6

end Cert.KernelIdeal.Hand

end
-- ==== Proof.KI.Value2.lean ====
/- The second pass's three results as functions of the arrays pass 2 finds.

   Pass 2 writes each result back 400 rows at a time: point t writes rows 400·t … 400·t+399, computed from
   the same rows of the adjacency matrix and of the first layer's result h1, and from the whole of h1, of the
   two halves of W2, of b2, of the classifier's weights Wl and of its bias bl. The 25 blocks of a result tile
   its 10000 rows. So after the last point, at the extended reals and whatever the arrays held on entry,
     the second result is the layer of h1, the adjacency matrix, W2's halves and b2;
     the third is that layer's logits against Wl and bl;
     the first is the row-wise log-softmax of those logits, z - (log Σ exp (z - m) + m), m the row's maximum. -/
import proofs.«109832_g72069551227476_cont_9to1c4b_721_2_alg».proof.Proof.KI.Pass2
import proofs.«109832_g72069551227476_cont_9to1c4b_721_2_alg».proof.Proof.KI.Layer
import proofs.«109832_g72069551227476_cont_9to1c4b_721_2_alg».proof.Proof.KernelPay
import proofs.«109832_g72069551227476_cont_9to1c4b_721_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when pass 2 is entered, at the extended reals
variable (V : (c : Dev nD) → (b : Ref sig .tc) → Buf (Elt Ideal) ((c : Thread nD τ).loc b))

/-! ## The three results as functions of the arrays the pass finds -/

/-- The second layer: the layer of the first layer's result, the adjacency matrix, W2's halves and b2. -/
def secondLayer (c : Dev nD) : S10000x128.Idx → EReal :=
  layerOf (V c main_v0_1) (V c main_arg1) (V c main_call0_v2) (V c main_call0_v3) (V c main_call0_v5)

/-- The classifier's logits of the second layer. -/
def classLogits (c : Dev nD) : S10000x64.Idx → EReal :=
  logitsOf (secondLayer V c) (V c main_arg6) (V c main_call0_v6)

/-! ## Where each window's block sits -/

/-- The index maps over the grid: the adjacency block, the h1 block and the three result blocks are at block
    row t at point t, in block column 0; every other window is at block (0, 0) throughout. -/
theorem blockAt1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Entry (p, j) of the adjacency block at point t is entry (400·t + p, j) of the adjacency matrix. -/
theorem adjRows1_entry (c : Dev nD) (t : Fin cfg1.N) (p : Fin 400) (j : Fin 10000) (r : Fin 10000) (hr : r.val = 400 * t.val + p.val) :
    (iblk1 V c 0 t : S400x10000.Idx → EReal) (ix2 p j) = (V c main_arg1 : S10000x10000.Idx → EReal) (ix2 r j) := by
  obtain ⟨e0, e1, -⟩ := blockAt1 t
  unfold iblk1
  rw [View.read_apply]
  refine congrArg (V c main_arg1 : S10000x10000.Idx → EReal) ?_
  funext a; apply Fin.ext
  match a with
  | ⟨0, _⟩ => show win1_0.index t (0 : Fin 2) * 400 + 1 * p.val = r.val; rw [e0, hr]; omega
  | ⟨1, _⟩ => show win1_0.index t (1 : Fin 2) * 10000 + 1 * j.val = j.val; rw [e1]; omega

/-- Entry (p, k) of the h1 block at point t is entry (400·t + p, k) of h1. -/
theorem h1Rows_entry (c : Dev nD) (t : Fin cfg1.N) (p : Fin 400) (k : Fin 128) (r : Fin 10000) (hr : r.val = 400 * t.val + p.val) :
    (iblk1 V c 1 t : S400x128.Idx → EReal) (ix2 p k) = (V c main_v0_1 : S10000x128.Idx → EReal) (ix2 r k) := by
  obtain ⟨-, -, e0, e1, -⟩ := blockAt1 t
  unfold iblk1
  rw [View.read_apply]
  refine congrArg (V c main_v0_1 : S10000x128.Idx → EReal) ?_
  funext a; apply Fin.ext
  match a with
  | ⟨0, _⟩ => show win1_1.index t (0 : Fin 2) * 400 + 1 * p.val = r.val; rw [e0, hr]; omega
  | ⟨1, _⟩ => show win1_1.index t (1 : Fin 2) * 128 + 1 * k.val = k.val; rw [e1]; omega

/-- The blocks of the six windows that do not move are the whole arrays, at every point: h1, W2's halves,
    b2, Wl and bl. -/
theorem h1Whole_eq (c : Dev nD) (t : Fin cfg1.N) :
    (iblk1 V c 2 t : S10000x128.Idx → EReal) = (V c main_v0_1 : S10000x128.Idx → EReal) := by
  obtain ⟨-, -, -, -, e0, e1, -⟩ := blockAt1 t
  funext y
  unfold iblk1
  rw [View.read_apply]
  refine congrArg (V c main_v0_1 : S10000x128.Idx → EReal) ?_
  funext a; apply Fin.ext
  match a with
  | ⟨0, _⟩ => show win1_2.index t (0 : Fin 2) * 10000 + 1 * (y 0).val = (y 0).val; rw [e0]; omega
  | ⟨1, _⟩ => show win1_2.index t (1 : Fin 2) * 128 + 1 * (y 1).val = (y 1).val; rw [e1]; omega

theorem w2Top_eq (c : Dev nD) (t : Fin cfg1.N) :
    (iblk1 V c 3 t : S128x128.Idx → EReal) = (V c main_call0_v2 : S128x128.Idx → EReal) := by
  obtain ⟨-, -, -, -, -, -, e0, e1, -⟩ := blockAt1 t
  funext y
  unfold iblk1
  rw [View.read_apply]
  refine congrArg (V c main_call0_v2 : S128x128.Idx → EReal) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem w2Bottom_eq (c : Dev nD) (t : Fin cfg1.N) :
    (iblk1 V c 4 t : S128x128.Idx → EReal) = (V c main_call0_v3 : S128x128.Idx → EReal) := by
  obtain ⟨-, -, -, -, -, -, -, -, e0, e1, -⟩ := blockAt1 t
  funext y
  unfold iblk1
  rw [View.read_apply]
  refine congrArg (V c main_call0_v3 : S128x128.Idx → EReal) ?_
  funext a; apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem bias2_eq (c : Dev nD) (t : Fin cfg1.N) :
    (iblk1 V c 5 t : S1x128.Idx → EReal) = (V c main_call0_v5 : S1x128.Idx → EReal) := by
  obtain ⟨-, -, -, -, -, -, -, -, -, -, e0, e1, -⟩ := blockAt1 t
  funext y
  unfold iblk1
  rw [View.read_apply]
  refine congrArg (V c main_call0_v5 : S1x128.Idx → EReal) ?_
  funext a; apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

theorem wl_eq (c : Dev nD) (t : Fin cfg1.N) :
    (iblk1 V c 6 t : S128x64.Idx → EReal) = (V c main_arg6 : S128x64.Idx → EReal) := by
  obtain ⟨-, -, -, -, -, -, -, -, -, -, -, -, e0, e1, -⟩ := blockAt1 t
  funext y
  unfold iblk1
  rw [View.read_apply]
  refine congrArg (V c main_arg6 : S128x64.Idx → EReal) ?_
  funext a; apply Fin.ext
  match a with
  | ⟨0, _⟩ => show win1_6.index t (0 : Fin 2) * 128 + 1 * (y 0).val = (y 0).val; rw [e0]; omega
  | ⟨1, _⟩ => show win1_6.index t (1 : Fin 2) * 64 + 1 * (y 1).val = (y 1).val; rw [e1]; omega

theorem bl_eq (c : Dev nD) (t : Fin cfg1.N) :
    (iblk1 V c 7 t : S1x64.Idx → EReal) = (V c main_call0_v6 : S1x64.Idx → EReal) := by
  obtain ⟨-, -, -, -, -, -, -, -, -, -, -, -, -, -, e0, e1, -⟩ := blockAt1 t
  funext y
  unfold iblk1
  rw [View.read_apply]
  refine congrArg (V c main_call0_v6 : S1x64.Idx → EReal) ?_
  funext a; apply Fin.ext
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-! ## One entry of each result block, from blocks that are rows of whole arrays

In all three: "a" and "hb" are 400 rows of the adjacency matrix A and of the features X, row p of them being
row r of the whole arrays, and "hf" is X. -/

/-- Entry (p, q) of the second layer's block is entry (r, q) of the layer. -/
theorem h2_entry (a : FVec Ideal S400x10000 .f32) (hf : FVec Ideal S10000x128 .f32) (hb : FVec Ideal S400x128 .f32)
    (wa wb : FVec Ideal S128x128 .f32) (b : FVec Ideal S1x128 .f32)
    (X : S10000x128.Idx → EReal) (A : S10000x10000.Idx → EReal) (r : Fin 10000) (p : Fin 400) (q : Fin 128)
    (hhb : ∀ k : Fin 128, hb (ix2 p k) = X (ix2 r k)) (ha : ∀ j : Fin 10000, a (ix2 p j) = A (ix2 r j)) (hhf : hf = X) :
    k1_pay1 (F := Ideal) a hf hb wa wb b (ix2 p q) = layerOf X A wa wb b (ix2 r q) := by
  rw [Cert.Sage.Pay.pass2_h_apply, layerOf_apply]
  simp only [hhb, ha, hhf]

/-- Entry (p, q) of the logits' block is entry (r, q) of the layer's logits. -/
theorem logits_entry (a : FVec Ideal S400x10000 .f32) (hf : FVec Ideal S10000x128 .f32) (hb : FVec Ideal S400x128 .f32)
    (wa wb : FVec Ideal S128x128 .f32) (b : FVec Ideal S1x128 .f32) (wl : FVec Ideal S128x64 .f32) (bl : FVec Ideal S1x64 .f32)
    (X : S10000x128.Idx → EReal) (A : S10000x10000.Idx → EReal) (r : Fin 10000) (p : Fin 400) (q : Fin 64)
    (hhb : ∀ k : Fin 128, hb (ix2 p k) = X (ix2 r k)) (ha : ∀ j : Fin 10000, a (ix2 p j) = A (ix2 r j)) (hhf : hf = X) :
    k1_pay2 (F := Ideal) a hf hb wa wb b wl bl (ix2 p q) = logitsOf (layerOf X A wa wb b) wl bl (ix2 r q) := by
  rw [Cert.Sage.Pay.pass2_logits_apply, logitsOf_apply]
  refine congrArg (· + bl (ix2 (0 : Fin 1) q)) ?_
  exact Finset.sum_congr rfl fun k _ => by rw [h2_entry a hf hb wa wb b X A r p k hhb ha hhf]

/-- Entry (p, q) of the log-softmax block is entry (r, q) of the log-softmax of the layer's logits: a row of
    the block is a row of the logits, so it has the same maximum and the same sum of exponentials. -/
theorem logSoftmax_entry (a : FVec Ideal S400x10000 .f32) (hf : FVec Ideal S10000x128 .f32) (hb : FVec Ideal S400x128 .f32)
    (wa wb : FVec Ideal S128x128 .f32) (b : FVec Ideal S1x128 .f32) (wl : FVec Ideal S128x64 .f32) (bl : FVec Ideal S1x64 .f32)
    (X : S10000x128.Idx → EReal) (A : S10000x10000.Idx → EReal) (r : Fin 10000) (p : Fin 400) (q : Fin 64)
    (hhb : ∀ k : Fin 128, hb (ix2 p k) = X (ix2 r k)) (ha : ∀ j : Fin 10000, a (ix2 p j) = A (ix2 r j)) (hhf : hf = X) :
    k1_pay3 (F := Ideal) a hf hb wa wb b wl bl (ix2 p q)
      = Cert.Sage.logSoftmax (logitsOf (layerOf X A wa wb b) wl bl) (ix2 r q) := by
  have hz : ∀ k : Fin 64, k1_pay2 (F := Ideal) a hf hb wa wb b wl bl (ix2 p k) = logitsOf (layerOf X A wa wb b) wl bl (ix2 r k) :=
    fun k => logits_entry a hf hb wa wb b wl bl X A r p k hhb ha hhf
  rw [Cert.Sage.Pay.pass2_out_apply]
  simp only [hz]
  rfl

/-! ## What a point writes back, and the whole arrays -/

/-- What point t writes back into this result is block t of its whole-array function. -/
theorem flushed1_9 (c : Dev nD) (t : Fin cfg1.N) :
    (dat1 (F := Ideal) V c).flushed 9 t = ((cfg1.win 9).blk t).view.read (Elt Ideal) (secondLayer V c) := by
  show (cfg1.win 9).cut (grid1.coords t) ((dat1 (F := Ideal) V c).after 9 t) = _
  rw [after1_9]
  unfold out1_9
  rw [View.canon_unit_zero zero_offsets]
  simp only [View.ld_unit_zero (S := S400x128) zero_offsets, View.ld_unit_zero (S := S10000x128) zero_offsets,
    View.ld_unit_zero (S := S400x10000) zero_offsets, View.ld_unit_zero (S := S128x128) zero_offsets,
    View.ld_unit_zero (S := S1x128) zero_offsets, View.ld_unit_zero (S := S128x64) zero_offsets,
    View.ld_unit_zero (S := S1x64) zero_offsets]
  funext y
  obtain ⟨p, q, rfl⟩ : ∃ (p : Fin 400) (q : Fin 128), y = ix2 p q := ⟨y 0, y 1, eq_ix2 y⟩
  have ht : t.val < 25 := Nat.lt_of_lt_of_eq t.isLt N_1
  obtain ⟨-, -, -, -, -, -, -, -, -, -, -, -, -, -, -, -, -, -, e0, e1, -⟩ := blockAt1 t
  rw [View.read_apply]
  have hemb : ((cfg1.win 9).blk t).view.emb (ix2 p q) = (ix2 (⟨400 * t.val + p.val, by omega⟩ : Fin 10000) q : S10000x128.Idx) := by
    funext a; apply Fin.ext
    match a with
    | ⟨0, _⟩ => show win1_9.index t (0 : Fin 2) * 400 + 1 * p.val = 400 * t.val + p.val; rw [e0]; omega
    | ⟨1, _⟩ => show win1_9.index t (1 : Fin 2) * 128 + 1 * q.val = q.val; rw [e1]; omega
  rw [hemb]
  refine (h2_entry (iblk1 V c 0 t) (iblk1 V c 2 t) (iblk1 V c 1 t) (iblk1 V c 3 t) (iblk1 V c 4 t) (iblk1 V c 5 t)
    (V c main_v0_1) (V c main_arg1) ⟨400 * t.val + p.val, by omega⟩ p q
    (fun k => h1Rows_entry V c t p k _ rfl) (fun j => adjRows1_entry V c t p j _ rfl) (h1Whole_eq V c t)).trans ?_
  rw [w2Top_eq V c t, w2Bottom_eq V c t, bias2_eq V c t]
  rfl

/-- An index of the array is in point t's block iff its row is among rows 400·t … 400·t+399. -/
theorem mem_block1_9 (t : Fin cfg1.N) (i : S10000x128.Idx) :
    i ∈ ((cfg1.win 9).blk t).view.set ↔ ∀ a : Fin 2, win1_9.index t a * S400x128.size a ≤ (i a).val ∧ (i a).val < win1_9.index t a * S400x128.size a + S400x128.size a := by
  show i ∈ ((View.whole main_v0_2).slice (win1_9.rect t)).set ↔ _
  rw [View.set_slice_whole, Rect.mem_set_unit]
  exact Iff.rfl

/-- Every index of the array lies in the block of the point its row divided by 400 names. -/
theorem covered1_9 (i : S10000x128.Idx) :
    ∃ t : Fin cfg1.N, (cfg1.win 9).flush t = true ∧ i ∈ ((cfg1.win 9).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨-, -, -, -, -, -, -, -, -, -, -, -, -, -, -, -, -, -, e0, e1, -⟩ := blockAt1 t
  have e0' : win1_9.index t (0 : Fin 2) = (i 0).val / 400 := e0
  refine ⟨t, flush1_9 t, ?_⟩
  rw [mem_block1_9]
  intro a
  match a with
  | ⟨0, _⟩ => show win1_9.index t (0 : Fin 2) * 400 ≤ (i 0).val ∧ (i 0).val < win1_9.index t (0 : Fin 2) * 400 + 400; rw [e0']; omega
  | ⟨1, _⟩ => show win1_9.index t (1 : Fin 2) * 128 ≤ (i 1).val ∧ (i 1).val < win1_9.index t (1 : Fin 2) * 128 + 128; rw [e1]; omega

/-- What point t writes back into this result is block t of its whole-array function. -/
theorem flushed1_10 (c : Dev nD) (t : Fin cfg1.N) :
    (dat1 (F := Ideal) V c).flushed 10 t = ((cfg1.win 10).blk t).view.read (Elt Ideal) (classLogits V c) := by
  show (cfg1.win 10).cut (grid1.coords t) ((dat1 (F := Ideal) V c).after 10 t) = _
  rw [after1_10]
  unfold out1_10
  rw [View.canon_unit_zero zero_offsets]
  simp only [View.ld_unit_zero (S := S400x128) zero_offsets, View.ld_unit_zero (S := S10000x128) zero_offsets,
    View.ld_unit_zero (S := S400x10000) zero_offsets, View.ld_unit_zero (S := S128x128) zero_offsets,
    View.ld_unit_zero (S := S1x128) zero_offsets, View.ld_unit_zero (S := S128x64) zero_offsets,
    View.ld_unit_zero (S := S1x64) zero_offsets]
  funext y
  obtain ⟨p, q, rfl⟩ : ∃ (p : Fin 400) (q : Fin 64), y = ix2 p q := ⟨y 0, y 1, eq_ix2 y⟩
  have ht : t.val < 25 := Nat.lt_of_lt_of_eq t.isLt N_1
  obtain ⟨-, -, -, -, -, -, -, -, -, -, -, -, -, -, -, -, -, -, -, -, e0, e1⟩ := blockAt1 t
  rw [View.read_apply]
  have hemb : ((cfg1.win 10).blk t).view.emb (ix2 p q) = (ix2 (⟨400 * t.val + p.val, by omega⟩ : Fin 10000) q : S10000x64.Idx) := by
    funext a; apply Fin.ext
    match a with
    | ⟨0, _⟩ => show win1_10.index t (0 : Fin 2) * 400 + 1 * p.val = 400 * t.val + p.val; rw [e0]; omega
    | ⟨1, _⟩ => show win1_10.index t (1 : Fin 2) * 64 + 1 * q.val = q.val; rw [e1]; omega
  rw [hemb]
  refine (logits_entry (iblk1 V c 0 t) (iblk1 V c 2 t) (iblk1 V c 1 t) (iblk1 V c 3 t) (iblk1 V c 4 t) (iblk1 V c 5 t) (iblk1 V c 6 t) (iblk1 V c 7 t)
    (V c main_v0_1) (V c main_arg1) ⟨400 * t.val + p.val, by omega⟩ p q
    (fun k => h1Rows_entry V c t p k _ rfl) (fun j => adjRows1_entry V c t p j _ rfl) (h1Whole_eq V c t)).trans ?_
  rw [w2Top_eq V c t, w2Bottom_eq V c t, bias2_eq V c t, wl_eq V c t, bl_eq V c t]
  rfl

/-- An index of the array is in point t's block iff its row is among rows 400·t … 400·t+399. -/
theorem mem_block1_10 (t : Fin cfg1.N) (i : S10000x64.Idx) :
    i ∈ ((cfg1.win 10).blk t).view.set ↔ ∀ a : Fin 2, win1_10.index t a * S400x64.size a ≤ (i a).val ∧ (i a).val < win1_10.index t a * S400x64.size a + S400x64.size a := by
  show i ∈ ((View.whole main_v0_3).slice (win1_10.rect t)).set ↔ _
  rw [View.set_slice_whole, Rect.mem_set_unit]
  exact Iff.rfl

/-- Every index of the array lies in the block of the point its row divided by 400 names. -/
theorem covered1_10 (i : S10000x64.Idx) :
    ∃ t : Fin cfg1.N, (cfg1.win 10).flush t = true ∧ i ∈ ((cfg1.win 10).blk t).view.set := by
  have hi0 : (i 0).val < 10000 := (i 0).isLt
  have hi1 : (i 1).val < 64 := (i 1).isLt
  have hN : cfg1.N = 25 := N_1
  let t : Fin cfg1.N := ⟨(i 0).val / 400, by rw [hN]; omega⟩
  obtain ⟨-, -, -, -, -, -, -, -, -, -, -, -, -, -, -, -, -, -, -, -, e0, e1⟩ := blockAt1 t
  have e0' : win1_10.index t (0 : Fin 2) = (i 0).val / 400 := e0
  refine ⟨t, flush1_10 t, ?_⟩
  rw [mem_block1_10]
  intro a
  match a with
  | ⟨0, _⟩ => show win1_10.index t (0 : Fin 2) * 400 ≤ (i 0).val ∧ (i 0).val < win1_10.index t (0 : Fin 2) * 400 + 400; rw [e0']; omega
  | ⟨1, _⟩ => show win1_10.index t (1 : Fin 2) * 64 ≤ (i 1).val ∧ (i 1).val < win1_10.index t (1 : Fin 2) * 64 + 64; rw [e1]; omega

/-- What point t writes back into this result is block t of its whole-array function. -/
theorem flushed1_8 (c : Dev nD) (t : Fin cfg1.N) :
    (dat1 (F := Ideal) V c).flushed 8 t = ((cfg1.win 8).blk t).view.read (Elt Ideal) (Cert.Sage.logSoftmax (classLogits V c)) := by
  show (cfg1.win 8).cut (grid1.coords t) ((dat1 (F := Ideal) V c).after 8 t) = _
  rw [after1_8]
  unfold out1_8
  rw [View.canon_unit_zero zero_offsets]
  simp only [View.ld_unit_zero (S := S400x128) zero_offsets, View.ld_unit_zero (S := S10000x128) zero_offsets,
    View.ld_unit_zero (S := S400x10000) zero_offsets, View.ld_unit_zero (S := S128x128) zero_offsets,
    View.ld_unit_zero (S := S1x128) zero_offsets, View.ld_unit_zero (S := S128x64) zero_offsets,
    View.ld_unit_zero (S := S1x64) zero_offsets]
  funext y
  obtain ⟨p, q, rfl⟩ : ∃ (p : Fin 400) (q : Fin 64), y = ix2 p q := ⟨y 0, y 1, eq_ix2 y⟩
  have ht : t.val < 25 := Nat.lt_of_lt_of_eq t.isLt N_1
  obtain ⟨-, -, -, -, -, -, -, -, -, -, -, -, -, -, -, -, e0, e1, -⟩ := blockAt1 t
  rw [View.read_apply]
  have hemb : ((cfg1.win 8).blk t).view.emb (ix2 p q) = (ix2 (⟨400 * t.val + p.val, by omega⟩ : Fin 10000) q : S10000x64.Idx) := by
    funext a; apply Fin.ext
    match a with
    | ⟨0, _⟩ => show win1_8.index t (0 : Fin 2) * 400 + 1 * p.val = 400 * t.val + p.val; rw [e0]; omega
    | ⟨1, _⟩ => show win1_8.index t (1 : Fin 2) * 64 + 1 * q.val = q.val; rw [e1]; omega
  rw [hemb]
  refine (logSoftmax_entry (iblk1 V c 0 t) (iblk1 V c 2 t) (iblk1 V c 1 t) (iblk1 V c 3 t) (iblk1 V c 4 t) (iblk1 V c 5 t) (iblk1 V c 6 t) (iblk1 V c 7 t)
    (V c main_v0_1) (V c main_arg1) ⟨400 * t.val + p.val, by omega⟩ p q
    (fun k => h1Rows_entry V c t p k _ rfl) (fun j => adjRows1_entry V c t p j _ rfl) (h1Whole_eq V c t)).trans ?_
  rw [w2Top_eq V c t, w2Bottom_eq V c t, bias2_eq V c t, wl_eq V c t, bl_eq V c t]
  rfl

/-- An index of the array is in point t's block iff its row is among rows 400·t … 400·t+399. -/
theorem mem_block1_8 (t : Fin cfg1.N) (i : S10000x64.Idx) :
    i ∈ ((cfg1.win 8).blk t).view.set ↔ ∀ a : Fin 2, win1_8.index t a * S400x64.size a ≤ (i a).val ∧ (i a).val < win1_8.index t a * S400x64.size a + S400x64.size a := by
  show i ∈ ((View.whole main_v0_0).slice (win1_8.rect t)).set ↔ _
  rw [View.set_slice_whole, Rect.mem_set_unit]
  exact Iff.rfl

/-- Every index of the array lies in the block of the point its row divided by 400 names. -/
theorem covered1_8 (i : S10000x64.Idx) :
    ∃ t : Fin cfg1.N, (cfg1.win 8).flush t = true ∧ i ∈ ((cfg1.win 8).blk t).view.set := by
  have hi0 : (i 0).val < 10000 := (i 0).isLt
  have hi1 : (i 1).val < 64 := (i 1).isLt
  have hN : cfg1.N = 25 := N_1
  let t : Fin cfg1.N := ⟨(i 0).val / 400, by rw [hN]; omega⟩
  obtain ⟨-, -, -, -, -, -, -, -, -, -, -, -, -, -, -, -, e0, e1, -⟩ := blockAt1 t
  have e0' : win1_8.index t (0 : Fin 2) = (i 0).val / 400 := e0
  refine ⟨t, flush1_8 t, ?_⟩
  rw [mem_block1_8]
  intro a
  match a with
  | ⟨0, _⟩ => show win1_8.index t (0 : Fin 2) * 400 ≤ (i 0).val ∧ (i 0).val < win1_8.index t (0 : Fin 2) * 400 + 400; rw [e0']; omega
  | ⟨1, _⟩ => show win1_8.index t (1 : Fin 2) * 64 ≤ (i 1).val ∧ (i 1).val < win1_8.index t (1 : Fin 2) * 64 + 64; rw [e1]; omega

/-- After the last point the second result holds the second layer, -/
theorem h2_whole (c : Dev nD) : (dat1 (F := Ideal) V c).arrAt 9 cfg1.N = secondLayer V c :=
  (dat1 (F := Ideal) V c).arrAt_eq_of_cover 9 _ (fun t _ => flushed1_9 V c t) covered1_9

/-- the third its logits, -/
theorem x3_whole (c : Dev nD) : (dat1 (F := Ideal) V c).arrAt 10 cfg1.N = classLogits V c :=
  (dat1 (F := Ideal) V c).arrAt_eq_of_cover 10 _ (fun t _ => flushed1_10 V c t) covered1_10

/-- and the first the row-wise log-softmax of those logits. -/
theorem out_whole (c : Dev nD) : (dat1 (F := Ideal) V c).arrAt 8 cfg1.N = Cert.Sage.logSoftmax (classLogits V c) :=
  (dat1 (F := Ideal) V c).arrAt_eq_of_cover 8 _ (fun t _ => flushed1_8 V c t) covered1_8

end Cert.KernelIdeal.Hand

end
-- ==== Proof.KI.Final.lean ====
/-
  The kernel's four results as the specification's functions of the eight arguments.

  Each pass leaves in its result arrays the layer (and, for the second pass, the logits and their row-wise log-softmax)
  of the arrays it finds. The first pass finds the arguments, the halves of `W1` and the bias `b1` as one row; a layer over
  the two halves and the bias row is the specification's layer over the whole weight matrix and the bias vector. The
  second pass finds at the first layer's buffer what the first pass left, and every other buffer as the first pass found
  it: the halves of `W2`, the rows `b2` and `bl`, the adjacency matrix and the classifier's weights.
-/
import proofs.«109832_g72069551227476_cont_9to1c4b_721_2_alg».proof.Proof.KI.Layer
import proofs.«109832_g72069551227476_cont_9to1c4b_721_2_alg».proof.Proof.KI.HostReads
import proofs.«109832_g72069551227476_cont_9to1c4b_721_2_alg».proof.Proof.KI.Seg0
import proofs.«109832_g72069551227476_cont_9to1c4b_721_2_alg».proof.Proof.KI.Seg1
import proofs.«109832_g72069551227476_cont_9to1c4b_721_2_alg».proof.Proof.KI.Value1
import proofs.«109832_g72069551227476_cont_9to1c4b_721_2_alg».proof.Proof.KI.Value2
import proofs.«109832_g72069551227476_cont_9to1c4b_721_2_alg».proof.Proof.Spec
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

/-! ## A layer over the halves of the weights -/

/-- A layer over the two halves `wa`, `wb` of a weight matrix `W` and a bias row `br` holding the bias `b` is the
    specification's layer over `W` and `b`. -/
theorem layerOf_eq_layer {h h' : S10000x128.Idx → EReal} {adj adj' : S10000x10000.Idx → EReal} {wa wb : S128x128.Idx → EReal}
    {br : S1x128.Idx → EReal} {W : Cert.Sage.Mat 256 128} {b : Cert.Sage.Vct 128} (eh : h = h') (eadj : adj = adj')
    (ha : ∀ k q : Fin 128, wa (ix2 k q) = Cert.Sage.top W k q) (hb : ∀ k q : Fin 128, wb (ix2 k q) = Cert.Sage.bot W k q)
    (hbias : ∀ q : Fin 128, br (ix2 (0 : Fin 1) q) = b (ix1 q)) :
    layerOf h adj wa wb br = Cert.Sage.layer h' adj' W b := by
  subst eh eadj
  funext i
  obtain ⟨r, q, rfl⟩ : ∃ (r : Fin 10000) (q : Fin 128), i = ix2 r q := ⟨i 0, i 1, eq_ix2 i⟩
  rw [layerOf_apply, Cert.Sage.layer_apply]
  unfold Cert.Sage.pre Cert.Sage.agg
  simp only [ha, hb, hbias]

/-- The logits over a bias row `blr` holding the bias `bl` are the specification's logits. -/
theorem logitsOf_eq_logits {h h' : S10000x128.Idx → EReal} {wl wl' : S128x64.Idx → EReal} {blr : S1x64.Idx → EReal}
    {bl : Cert.Sage.Vct 64} (eh : h = h') (ew : wl = wl') (hbias : ∀ q : Fin 64, blr (ix2 (0 : Fin 1) q) = bl (ix1 q)) :
    logitsOf h wl blr = Cert.Sage.logits h' wl' bl := by
  subst eh ew
  funext i
  obtain ⟨r, q, rfl⟩ : ∃ (r : Fin 10000) (q : Fin 64), i = ix2 r q := ⟨i 0, i 1, eq_ix2 i⟩
  rw [logitsOf_apply, Cert.Sage.logits_apply, hbias]

/-! ## What the second pass finds -/

section
variable (m : (ℓ : Loc nD τ sig) → Buf (Elt Ideal) ℓ) (c : Dev nD)

/-- The adjacency matrix, as at the start. -/
theorem adj_entered2 : X2 (F := Ideal) m c main_arg1 = (m ((c : Thread nD τ).loc main_arg1)) :=
  (X2_of_ne m c main_arg1 (by decide)).trans (adj_read m c)

/-- The classifier's weights, as at the start. -/
theorem wl_entered2 : X2 (F := Ideal) m c main_arg6 = (m ((c : Thread nD τ).loc main_arg6)) :=
  (X2_of_ne m c main_arg6 (by decide)).trans (wl_read m c)

/-- The top half of `W2`. -/
theorem w2_top_entered2 (k q : Fin 128) :
    X2 (F := Ideal) m c main_call0_v2 (ix2 k q) = Cert.Sage.top (m ((c : Thread nD τ).loc main_arg4)) k q :=
  (congrFun (X2_of_ne m c main_call0_v2 (by decide)) (ix2 k q)).trans (w2_top_read m c k q)

/-- The bottom half of `W2`. -/
theorem w2_bot_entered2 (k q : Fin 128) :
    X2 (F := Ideal) m c main_call0_v3 (ix2 k q) = Cert.Sage.bot (m ((c : Thread nD τ).loc main_arg4)) k q :=
  (congrFun (X2_of_ne m c main_call0_v3 (by decide)) (ix2 k q)).trans (w2_bot_read m c k q)

/-- `b2` as one row. -/
theorem b2_entered2 (q : Fin 128) :
    X2 (F := Ideal) m c main_call0_v5 (ix2 (0 : Fin 1) q) = (m ((c : Thread nD τ).loc main_arg5)) (ix1 q) :=
  (congrFun (X2_of_ne m c main_call0_v5 (by decide)) (ix2 (0 : Fin 1) q)).trans (b2_read m c q)

/-- `bl` as one row. -/
theorem bl_entered2 (q : Fin 64) :
    X2 (F := Ideal) m c main_call0_v6 (ix2 (0 : Fin 1) q) = (m ((c : Thread nD τ).loc main_arg7)) (ix1 q) :=
  (congrFun (X2_of_ne m c main_call0_v6 (by decide)) (ix2 (0 : Fin 1) q)).trans (bl_read m c q)

end

/-! ## The four results -/

section
variable (m : (ℓ : Loc nD τ sig) → Buf (Elt Ideal) ℓ) (c : Dev nD)

/-- What the first pass leaves in the first layer's buffer is the specification's first layer. -/
theorem h1_left : (dat0 (F := Ideal) (E1 m) c).arrAt 6 cfg0.N = Cert.Sage.h1 (m ((c : Thread nD τ).loc main_arg0)) (m ((c : Thread nD τ).loc main_arg1)) (m ((c : Thread nD τ).loc main_arg2)) (m ((c : Thread nD τ).loc main_arg3)) :=
  (h1_whole (E1 m) c).trans
    (layerOf_eq_layer (x_read m c) (adj_read m c) (w1_top_read m c) (w1_bot_read m c) (b1_read m c))

/-- The second pass finds the first layer in the first layer's buffer. -/
theorem h1_entered2 : X2 (F := Ideal) m c main_v0_1 = Cert.Sage.h1 (m ((c : Thread nD τ).loc main_arg0)) (m ((c : Thread nD τ).loc main_arg1)) (m ((c : Thread nD τ).loc main_arg2)) (m ((c : Thread nD τ).loc main_arg3)) :=
  (X2_h1 m c).trans (h1_left m c)

/-- The second layer of what the second pass finds is the specification's second layer. -/
theorem secondLayer_eq : secondLayer (E2 m) c = Cert.Sage.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layerOf_eq_layer (h1_entered2 m c) (adj_entered2 m c) (w2_top_entered2 m c) (w2_bot_entered2 m c) (b2_entered2 m c)

/-- Its logits are the specification's logits. -/
theorem classLogits_eq : classLogits (E2 m) c = Cert.Sage.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  logitsOf_eq_logits (secondLayer_eq m c) (wl_entered2 m c) (bl_entered2 m c)

/-- After both passes the first layer's buffer holds the specification's first layer. -/
theorem kernel_h1 : X3 (F := Ideal) m c main_v0_1 = Cert.Sage.h1 (m ((c : Thread nD τ).loc main_arg0)) (m ((c : Thread nD τ).loc main_arg1)) (m ((c : Thread nD τ).loc main_arg2)) (m ((c : Thread nD τ).loc main_arg3)) :=
  (X3_of_ne m c main_v0_1 (by decide) (by decide) (by decide)).trans (h1_entered2 m c)

/-- The second layer's buffer holds the specification's second layer. -/
theorem kernel_h2 : X3 (F := Ideal) m c main_v0_2 = Cert.Sage.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (X3_h2 m c).trans ((h2_whole (E2 m) c).trans (secondLayer_eq m c))

/-- The logits' buffer holds the specification's logits. -/
theorem kernel_x3 : X3 (F := Ideal) m c main_v0_3 = Cert.Sage.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (X3_logits m c).trans ((x3_whole (E2 m) c).trans (classLogits_eq m c))

/-- The first result's buffer holds the row-wise log-softmax of the specification's logits. -/
theorem kernel_out : X3 (F := Ideal) m c main_v0_0 = Cert.Sage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (X3_out m c).trans ((out_whole (E2 m) c).trans (congrArg Cert.Sage.logSoftmax (classLogits_eq m c)))

end

end Cert.KernelIdeal.Hand

end
-- ==== Proof.RefLayout.lean ====
/-
  Two layout facts about the reference's arrays, read at an index.

  A row of the concatenation `[x | y]` of two 10000 × 128 arrays along the columns is `x`'s row on the first 128
  columns and `y`'s row, 128 columns back, on the last 128. The reduction of a 10000 × 64 array along its rows by a
  maximum, started from an initial value, is at row `r` the maximum folded from that value over the row's 64 entries.
-/
import proofs.«109832_g72069551227476_cont_9to1c4b_721_2_alg».proof.Proof.Gen.ReferenceIdeal
import Idealize.ShloMosaic.Lib.Pipeline.Value
import Idealize.ShloMosaic.Lib.ValueIdx
import Idealize.ShloMosaic.PureOps.Ideal.Laws
import Idealize.ShloMosaic.PureOps.Reduce

noncomputable section

namespace Cert.Sage.Ref

open Cert.ReferenceIdeal Cert.ReferenceIdeal.Gen Idealize.ShloMosaic Idealize.ShloMosaic.ValueIdx

/-- The concatenated row at a column below 128 is the first array's entry at that column. -/
theorem concat_fst {α : Type} (x y : S10000x128.Idx → α) (r : Fin 10000) (k : Fin 128) (j : S10000x256.Idx)
    (h0 : (j 0).val = r.val) (h1 : (j 1).val = k.val) :
    concatenate S10000x256 1 [⟨S10000x128, x⟩, ⟨S10000x128, y⟩] concatenates_S10000x128_S10000x128_S10000x256_d1 j
      = x (ix2 r k) :=
  concatenate_pair_apply_left (1 : Fin S10000x256.rank) x y concatenates_S10000x128_S10000x128_S10000x256_d1 j rfl
    (ix2 r k) (fun b => match b with
      | ⟨0, _⟩ => h0.symm
      | ⟨1, _⟩ => h1.symm)

/-- The concatenated row at column `128 + k` is the second array's entry at column `k`. -/
theorem concat_snd {α : Type} (x y : S10000x128.Idx → α) (r : Fin 10000) (k : Fin 128) (j : S10000x256.Idx)
    (h0 : (j 0).val = r.val) (h1 : (j 1).val = 128 + k.val) :
    concatenate S10000x256 1 [⟨S10000x128, x⟩, ⟨S10000x128, y⟩] concatenates_S10000x128_S10000x128_S10000x256_d1 j
      = y (ix2 r k) :=
  concatenate_pair_apply_right (1 : Fin S10000x256.rank) x y concatenates_S10000x128_S10000x128_S10000x256_d1 j rfl rfl
    (ix2 r k) (fun b => match b with
      | ⟨0, _⟩ => fun _ => h0.symm
      | ⟨1, _⟩ => fun hb => absurd rfl hb)
    (by show k.val + 128 = (j 1).val; omega)

/-- Row `r` with column `k` put back. -/
theorem lift_row (h : S10000x64.Reduces [1] S10000) (r : Fin 10000) (k : Fin (S10000x64.size 1)) :
    h.lift (ix1 r) k = ix2 r (⟨k.val, k.isLt⟩ : Fin 64) := by
  funext c; apply Fin.ext
  fin_cases c <;> rfl

/-- The maximum-reduction along the rows, at row `r`: the maximum folded from the initial value over the row. -/
theorem reduce_max_row (z : S10000x64.Idx → EReal) (init : S_.Idx → EReal) (r : Fin 10000) :
    Host.reduce (FloatOps.maximumf (F := Ideal) (φ := .f32)) z init reducesTo_S10000x64_S10000_d1 h_S_ (ix1 r)
      = (Finset.univ : Finset (Fin 64)).fold max (init (Shape.Idx.first h_S_)) (fun k => z (ix2 r k)) := by
  have h : S10000x64.Reduces [1] S10000 := by decide
  rw [Host.reduce_eq_fold_single (FloatOps.maximumf (F := Ideal) (φ := .f32)) z init reducesTo_S10000x64_S10000_d1 h h_S_]
  have hf : (z ∘ h.lift (ix1 r)) = fun k : Fin 64 => z (ix2 r k) := funext fun k => congrArg z (lift_row h r k)
  exact congrArg (fun f => Finset.fold max (init (Shape.Idx.first h_S_)) f (Finset.univ : Finset (Fin 64))) hf

end Cert.Sage.Ref

end
-- ==== Proof.SpecLaws.lean ====
/-
  Laws over the extended reals that join the two arrangements of the network's arithmetic.

  The contraction over the 256 coordinates of a concatenated row `[h | adj · h]` is the sum of the contraction over its
  first 128 coordinates and the contraction over its last 128: the extended reals are a commutative monoid under addition,
  so no finiteness is needed for that. The log-softmax rearrangement `(z - m) - L = z - (L + m)` is a law of the real
  numbers only (`⊤ + ⊥ = ⊥` breaks it), so this file also shows that every quantity the network computes from real
  arguments is real: sums of products, a bias added, a rectifier, a nonempty row's maximum, and the logarithm of a
  nonempty sum of exponentials.
-/
import proofs.«109832_g72069551227476_cont_9to1c4b_721_2_alg».proof.Proof.Spec

noncomputable section

open scoped BigOperators

namespace Cert.Sage

open Idealize.ShloMosaic Idealize.ShloMosaic.ValueIdx

/-! ## The contraction over a concatenated row -/

/-- A sum over 256 coordinates is the sum over the first 128 plus the sum over the last 128. -/
theorem sum_halves (f : Fin 256 → EReal) :
    ∑ k : Fin 256, f k
      = (∑ k : Fin 128, f ⟨k.val, by omega⟩) + ∑ k : Fin 128, f ⟨128 + k.val, by omega⟩ :=
  Fin.sum_univ_add (M := EReal) (a := 128) (b := 128) f

/-! ## Real entries -/

/-- An extended real that is a real number. -/
def IsReal (x : EReal) : Prop := ∃ r : ℝ, x = (r : EReal)

theorem allReal_iff {s : Shape} (f : s.Idx → EReal) : AllReal f ↔ ∀ i, IsReal (f i) := Iff.rfl

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of reals is a real. -/
theorem isReal_sum {ι : Type*} (s : Finset ι) (f : ι → EReal) (hf : ∀ k, IsReal (f k)) : IsReal (∑ k ∈ s, f k) := by
  classical
  refine Finset.induction_on s ?_ fun a s ha ih => ?_
  · rw [Finset.sum_empty]; exact IsReal.zero
  · rw [Finset.sum_insert ha]; exact (hf a).add ih

/-- The maximum, folded from `-∞`, over a nonempty finite family of reals is a real. -/
theorem isReal_fold_max {ι : Type*} (s : Finset ι) (hs : s.Nonempty) (f : ι → EReal) (hf : ∀ k, IsReal (f k)) :
    IsReal (s.fold max (⊥ : EReal) f) := by
  classical
  induction s using Finset.induction_on with
  | empty => exact absurd hs Finset.not_nonempty_empty
  | insert a s ha ih =>
    rw [Finset.fold_insert ha]
    rcases s.eq_empty_or_nonempty with h | h
    · subst h; rw [Finset.fold_empty, max_eq_left bot_le]; exact hf a
    · exact (hf a).max (ih h)

/-- The exponential of a real is a positive real. -/
theorem exp_real_pos {x : EReal} (hx : IsReal x) : ∃ r : ℝ, 0 < r ∧ Ideal.exp x = (r : EReal) := by
  obtain ⟨a, rfl⟩ := hx; exact ⟨Real.exp a, Real.exp_pos a, rfl⟩

/-- A nonempty finite sum of positive reals is a positive real. -/
theorem sum_pos_real {ι : Type*} (s : Finset ι) (hs : s.Nonempty) (f : ι → EReal)
    (hf : ∀ k, ∃ r : ℝ, 0 < r ∧ f k = (r : EReal)) : ∃ r : ℝ, 0 < r ∧ ∑ k ∈ s, f k = (r : EReal) := by
  classical
  induction s using Finset.induction_on with
  | empty => exact absurd hs Finset.not_nonempty_empty
  | insert a s ha ih =>
    rw [Finset.sum_insert ha]
    obtain ⟨p, hp, ep⟩ := hf a
    rcases s.eq_empty_or_nonempty with h | h
    · subst h; rw [Finset.sum_empty, add_zero]; exact ⟨p, hp, ep⟩
    · obtain ⟨q, hq, eq⟩ := ih h
      exact ⟨p + q, add_pos hp hq, by rw [ep, eq, EReal.coe_add]⟩

/-- The logarithm of a positive real is a real. -/
theorem log_pos_real {x : EReal} (hx : ∃ r : ℝ, 0 < r ∧ x = (r : EReal)) : IsReal (Ideal.log x) := by
  obtain ⟨r, hr, rfl⟩ := hx
  exact ⟨Real.log r, by rw [Ideal.log_coe, if_neg (not_le.2 hr)]⟩

/-! ## The network's intermediate values are real -/

theorem allReal_layer {h : Mat 10000 128} {adj : Mat 10000 10000} {W : Mat 256 128} {b : Vct 128}
    (hh : AllReal h) (hadj : AllReal adj) (hW : AllReal W) (hb : AllReal b) : AllReal (layer h adj W b) := by
  intro i
  refine IsReal.max (IsReal.add (IsReal.add ?_ ?_) (hb _)) IsReal.zero
  · exact isReal_sum _ _ fun k => IsReal.mul (hh _) (hW _)
  · exact isReal_sum _ _ fun k => IsReal.mul (isReal_sum _ _ fun j => IsReal.mul (hadj _) (hh _)) (hW _)

theorem allReal_logits {h : Mat 10000 128} {Wl : Mat 128 64} {bl : Vct 64}
    (hh : AllReal h) (hW : AllReal Wl) (hb : AllReal bl) : AllReal (logits h Wl bl) := by
  intro i
  exact IsReal.add (isReal_sum _ _ fun k => IsReal.mul (hh _) (hW _)) (hb _)

theorem allReal_h1 {x : Mat 10000 128} {adj : Mat 10000 10000} {W1 : Mat 256 128} {b1 : Vct 128}
    (hx : AllReal x) (hadj : AllReal adj) (hW1 : AllReal W1) (hb1 : AllReal b1) : AllReal (h1 x adj W1 b1) :=
  allReal_layer hx hadj hW1 hb1

theorem allReal_h2 {x : Mat 10000 128} {adj : Mat 10000 10000} {W1 : Mat 256 128} {b1 : Vct 128} {W2 : Mat 256 128}
    {b2 : Vct 128} (hx : AllReal x) (hadj : AllReal adj) (hW1 : AllReal W1) (hb1 : AllReal b1) (hW2 : AllReal W2)
    (hb2 : AllReal b2) : AllReal (h2 x adj W1 b1 W2 b2) :=
  allReal_layer (allReal_h1 hx hadj hW1 hb1) hadj hW2 hb2

theorem allReal_x3 {x : Mat 10000 128} {adj : Mat 10000 10000} {W1 : Mat 256 128} {b1 : Vct 128} {W2 : Mat 256 128}
    {b2 : Vct 128} {Wl : Mat 128 64} {bl : Vct 64} (hx : AllReal x) (hadj : AllReal adj) (hW1 : AllReal W1)
    (hb1 : AllReal b1) (hW2 : AllReal W2) (hb2 : AllReal b2) (hWl : AllReal Wl) (hbl : AllReal bl) :
    AllReal (x3 x adj W1 b1 W2 b2 Wl bl) :=
  allReal_logits (allReal_h2 hx hadj hW1 hb1 hW2 hb2) hWl hbl

/-! ## The row-wise log-softmax -/

/-- A row of real logits has a real maximum. -/
theorem isReal_rowMax {z : Mat 10000 64} (hz : AllReal z) (r : Fin 10000) : IsReal (rowMax z r) :=
  isReal_fold_max _ ⟨(0 : Fin 64), Finset.mem_univ _⟩ _ fun k => hz _

/-- The logarithm of a row's sum of shifted exponentials is real. -/
theorem isReal_logSumExp {z : Mat 10000 64} (hz : AllReal z) (r : Fin 10000) :
    IsReal (Ideal.log (∑ k : Fin 64, Ideal.exp (z (ix2 r k) - rowMax z r))) :=
  log_pos_real (sum_pos_real _ ⟨(0 : Fin 64), Finset.mem_univ _⟩ _ fun k =>
    exp_real_pos (IsReal.sub (hz _) (isReal_rowMax hz r)))

theorem isReal_lse {z : Mat 10000 64} (hz : AllReal z) (r : Fin 10000) : IsReal (lse z r) :=
  (isReal_logSumExp hz r).add (isReal_rowMax hz r)

theorem allReal_logSoftmax {z : Mat 10000 64} (hz : AllReal z) : AllReal (logSoftmax z) :=
  fun i => IsReal.sub (hz i) (isReal_lse hz (i 0))

/-- Among reals, subtracting the shift and then the logarithm is subtracting their sum. -/
theorem sub_sub_eq_sub_add {z m L : EReal} (hz : IsReal z) (hm : IsReal m) (hL : IsReal L) :
    (z - m) - L = z - (L + m) := by
  obtain ⟨a, rfl⟩ := hz; obtain ⟨b, rfl⟩ := hm; obtain ⟨c, rfl⟩ := hL
  rw [← EReal.coe_sub, ← EReal.coe_sub, ← EReal.coe_add, ← EReal.coe_sub]
  exact congrArg _ (by ring)

/-- The log-softmax in the arrangement `(z - m) - log Σ exp (z - m)` is the specification's
    `z - (log Σ exp (z - m) + m)`, for real logits. -/
theorem shifted_eq_logSoftmax {z : Mat 10000 64} (hz : AllReal z) (r : Fin 10000) (c : Fin 64) :
    (z (ix2 r c) - rowMax z r) - Ideal.log (∑ k : Fin 64, Ideal.exp (z (ix2 r k) - rowMax z r))
      = logSoftmax z (ix2 r c) :=
  sub_sub_eq_sub_add (hz _) (isReal_rowMax hz r) (isReal_logSumExp hz r)

end Cert.Sage

end
-- ==== Proof.RefValue.lean ====
/-
  The reference's four results, read off its run, are the specification's functions of the arguments.

  The reference computes a layer as ONE contraction of the concatenated row `[h | adj · h]` with the 256 × 128 weight
  matrix, adds the bias (broadcast along the rows) and takes the maximum with zero; the specification splits the
  contraction into its two halves. The reference's log-softmax is `(z - m) - log (0 + Σ exp (z - m))` with
  `m = max (-∞, max-reduce from -∞)`; the specification's is `z - (log Σ exp (z - m) + m)`, equal for real logits.
-/
import proofs.«109832_g72069551227476_cont_9to1c4b_721_2_alg».proof.Proof.RefRead
import proofs.«109832_g72069551227476_cont_9to1c4b_721_2_alg».proof.Proof.RefLayout
import proofs.«109832_g72069551227476_cont_9to1c4b_721_2_alg».proof.Proof.Spec
import proofs.«109832_g72069551227476_cont_9to1c4b_721_2_alg».proof.Proof.SpecLaws

noncomputable section

namespace Cert.Sage.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## One layer -/

/-- One layer of the reference over any feature array `h`: the single contraction over the 256 coordinates of the row
    `[h | adj · h]` splits into the contraction of `h`'s row with the top half of `W` and of `adj · h`'s row with the
    bottom half. -/
theorem layer_eq (h : (⟨S10000x128, .f32⟩ : BufTy).Contents (Elt Ideal)) (adj : (⟨S10000x10000, .f32⟩ : BufTy).Contents (Elt Ideal))
    (W : (⟨S256x128, .f32⟩ : BufTy).Contents (Elt Ideal)) (b : (⟨S128, .f32⟩ : BufTy).Contents (Elt Ideal)) :
    val_main_v6 (F := Ideal) h adj W b = Cert.Sage.layer h adj W b := by
  funext i
  obtain ⟨r, c, rfl⟩ : ∃ (r : Fin 10000) (c : Fin 128), i = ix2 r c := ⟨i 0, i 1, eq_ix2 i⟩
  rw [val_main_v6_apply, val_main_v5_apply, val_main_v2_apply, val_main_v4_apply, val_main_v3_apply,
    val_main_call0_v0_apply, val_main_call0_cst_apply, Cert.Sage.layer_apply]
  -- the bias, broadcast along the rows, is the bias at the column
  have hb : b (idx_main_v3 (idx_main_v4 (ix2 r c))) = b (ix1 c) :=
    congrArg b (funext fun a => match a with | ⟨0, _⟩ => rfl)
  -- the contraction over 256 coordinates, by halves
  have hs : ∑ k : Fin 256, val_main_v1 (F := Ideal) h adj (lidx_main_v2 (ix2 r c) k) * W (ridx_main_v2 (ix2 r c) k)
      = (∑ k : Fin 128, h (ix2 r k) * top W k c) + ∑ k : Fin 128, agg adj h r k * bot W k c := by
    rw [sum_halves]
    refine congrArg₂ (· + ·) (Finset.sum_congr rfl fun k _ => ?_) (Finset.sum_congr rfl fun k _ => ?_)
    · refine congrArg₂ (· * ·) ?_ ?_
      · unfold val_main_v1
        exact concat_fst h _ r k _ rfl rfl
      · exact congrArg W (funext fun a => match a with | ⟨0, _⟩ => rfl | ⟨1, _⟩ => rfl)
    · refine congrArg₂ (· * ·) ?_ ?_
      · unfold val_main_v1
        rw [concat_snd h _ r k _ rfl rfl, val_main_v0_apply]
        exact Finset.sum_congr rfl fun j _ => congrArg₂ (· * ·)
          (congrArg adj (funext fun a => match a with | ⟨0, _⟩ => rfl | ⟨1, _⟩ => rfl))
          (congrArg h (funext fun a => match a with | ⟨0, _⟩ => rfl | ⟨1, _⟩ => rfl))
      · exact congrArg W (funext fun a => match a with | ⟨0, _⟩ => rfl | ⟨1, _⟩ => rfl)
  exact congrArg₂ max (congrArg₂ (· + ·) hs hb) Ideal.ofBits_zero_f32

/-- The reference's second layer is its first layer's operations again, on the first layer's result. -/
theorem second_layer_unfold (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) :
    val_main_v13 (F := Ideal) x0 x1 x2 x3 x4 x5 = val_main_v6 (F := Ideal) (val_main_v6 (F := Ideal) x0 x1 x2 x3) x1 x4 x5 := rfl

theorem h1_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) :
    val_main_v6 (F := Ideal) x0 x1 x2 x3 = Cert.Sage.h1 x0 x1 x2 x3 := layer_eq x0 x1 x2 x3

theorem h2_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) :
    val_main_v13 (F := Ideal) x0 x1 x2 x3 x4 x5 = Cert.Sage.h2 x0 x1 x2 x3 x4 x5 :=
  (second_layer_unfold x0 x1 x2 x3 x4 x5).trans
    ((layer_eq _ x1 x4 x5).trans (congrArg (fun h => Cert.Sage.layer h x1 x4 x5) (h1_eq x0 x1 x2 x3)))

/-! ## The logits -/

/-- The reference's logits over its second hidden layer. -/
theorem logits_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v17 (F := Ideal) x0 x1 x2 x3 x4 x5 x6 x7
      = Cert.Sage.logits (val_main_v13 (F := Ideal) x0 x1 x2 x3 x4 x5) x6 x7 := by
  funext i
  obtain ⟨r, c, rfl⟩ : ∃ (r : Fin 10000) (c : Fin 64), i = ix2 r c := ⟨i 0, i 1, eq_ix2 i⟩
  rw [val_main_v17_apply, val_main_v14_apply, val_main_v16_apply, val_main_v15_apply, Cert.Sage.logits_apply]
  generalize val_main_v13 (F := Ideal) x0 x1 x2 x3 x4 x5 = h
  exact congrArg₂ (· + ·)
    (Finset.sum_congr rfl fun k _ => congrArg₂ (· * ·)
      (congrArg h (funext fun a => match a with | ⟨0, _⟩ => rfl | ⟨1, _⟩ => rfl))
      (congrArg x6 (funext fun a => match a with | ⟨0, _⟩ => rfl | ⟨1, _⟩ => rfl)))
    (congrArg x7 (funext fun a => match a with | ⟨0, _⟩ => rfl))

theorem x3_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v17 (F := Ideal) x0 x1 x2 x3 x4 x5 x6 x7 = Cert.Sage.x3 x0 x1 x2 x3 x4 x5 x6 x7 :=
  (logits_eq x0 x1 x2 x3 x4 x5 x6 x7).trans (congrArg (fun h => Cert.Sage.logits h x6 x7) (h2_eq x0 x1 x2 x3 x4 x5))

/-! ## The log-softmax -/

/-- The float word of `-∞`. -/
theorem bits_neg_inf : Ideal.ofBits .f32 0xFF800000#32 = (⊥ : EReal) := by simp [Ideal.ofBits, Ideal.ieee]

/-- The reference's row maximum, `max (-∞, max-reduce from -∞)`, is the row's maximum folded from `-∞`. -/
theorem rowMax_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (r : Fin 10000) :
    val_main_call2_v2 (F := Ideal) x0 x1 x2 x3 x4 x5 x6 x7 (ix1 r) = Cert.Sage.rowMax (val_main_v17 (F := Ideal) x0 x1 x2 x3 x4 x5 x6 x7) r := by
  rw [val_main_call2_v2_apply, val_main_call2_v1_apply, val_main_call2_cst_0_apply]
  unfold val_main_call2_v0
  generalize val_main_v17 (F := Ideal) x0 x1 x2 x3 x4 x5 x6 x7 = z
  refine (max_eq_right ?_).trans ((reduce_max_row z (val_main_call2_cst (F := Ideal)) r).trans ?_)
  · show Ideal.ofBits .f32 0xFF800000#32 ≤ _
    rw [bits_neg_inf]; exact bot_le
  · show Finset.fold max (Ideal.ofBits .f32 0xFF800000#32) _ _ = Finset.fold max (⊥ : EReal) _ _
    rw [bits_neg_inf]

/-- The reference's shifted logits `z - m`. -/
theorem shifted_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (r : Fin 10000) (c : Fin 64) :
    val_main_call2_v5 (F := Ideal) x0 x1 x2 x3 x4 x5 x6 x7 (ix2 r c)
      = (val_main_v17 (F := Ideal) x0 x1 x2 x3 x4 x5 x6 x7) (ix2 r c) - Cert.Sage.rowMax (val_main_v17 (F := Ideal) x0 x1 x2 x3 x4 x5 x6 x7) r := by
  rw [val_main_call2_v5_apply, val_main_call2_v4_apply, val_main_call2_v3_apply]
  have hi : idx_main_call2_v3 (idx_main_call2_v4 (ix2 r c)) = ix1 r := funext fun a => match a with | ⟨0, _⟩ => rfl
  rw [hi, rowMax_eq]
  rfl

/-- The reference's logarithm of the row's sum of exponentials of the shifted logits (summed from zero). -/
theorem logSumExp_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (r : Fin 10000) (c : Fin 64) :
    val_main_call2_v10 (F := Ideal) x0 x1 x2 x3 x4 x5 x6 x7 (ix2 r c)
      = Ideal.log (∑ k : Fin 64, Ideal.exp ((val_main_v17 (F := Ideal) x0 x1 x2 x3 x4 x5 x6 x7) (ix2 r k) - Cert.Sage.rowMax (val_main_v17 (F := Ideal) x0 x1 x2 x3 x4 x5 x6 x7) r)) := by
  rw [val_main_call2_v10_apply, val_main_call2_v9_apply, val_main_call2_v8_apply]
  have hi : idx_main_call2_v8 (idx_main_call2_v10 (ix2 r c)) = ix1 r := funext fun a => match a with | ⟨0, _⟩ => rfl
  rw [hi, val_main_call2_v7_apply, val_main_call2_cst_1_apply]
  have hs : ∀ k : Fin 64, val_main_call2_v6 (F := Ideal) x0 x1 x2 x3 x4 x5 x6 x7 (idx_main_call2_v7 (ix1 r) k)
      = Ideal.exp ((val_main_v17 (F := Ideal) x0 x1 x2 x3 x4 x5 x6 x7) (ix2 r k) - Cert.Sage.rowMax (val_main_v17 (F := Ideal) x0 x1 x2 x3 x4 x5 x6 x7) r) := fun k => by
    have hk : idx_main_call2_v7 (ix1 r) k = ix2 r k := funext fun a => match a with | ⟨0, _⟩ => rfl | ⟨1, _⟩ => rfl
    rw [hk, val_main_call2_v6_apply, shifted_eq]
    rfl
  rw [Finset.sum_congr rfl fun k _ => hs k]
  show Ideal.log (Ideal.ofBits .f32 0x00000000#32 + _) = _
  rw [Ideal.ofBits_zero_f32, zero_add]

/-- The reference's log-softmax of real logits is the specification's. -/
theorem logSoftmax_eq (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (hz : AllReal (val_main_v17 (F := Ideal) x0 x1 x2 x3 x4 x5 x6 x7)) :
    val_main_v18 (F := Ideal) x0 x1 x2 x3 x4 x5 x6 x7 = Cert.Sage.logSoftmax (val_main_v17 (F := Ideal) x0 x1 x2 x3 x4 x5 x6 x7) := by
  funext i
  obtain ⟨r, c, rfl⟩ : ∃ (r : Fin 10000) (c : Fin 64), i = ix2 r c := ⟨i 0, i 1, eq_ix2 i⟩
  rw [val_main_v18_apply, shifted_eq, logSumExp_eq]
  exact shifted_eq_logSoftmax hz r c

/-! ## The four results of the run -/

/-- The reference's first hidden layer is the specification's. -/
theorem ref_h1 (m : (ℓ : Loc nD τ sig) → Buf (Elt Ideal) ℓ) (c : Dev nD) :
    maximumf (F := Ideal) (addf (Host.dotGeneral (φ₁ := .f32) (φ₂ := .f32) dot_S10000x256_S256x128_S10000x128_1_0_0_1_n_n none (concatenate S10000x256 1 [⟨S10000x128, (m ((c.tc : Thread nD τ).loc main_arg0))⟩, ⟨S10000x128, (Host.dotGeneral (φ₁ := .f32) (φ₂ := .f32) dot_S10000x10000_S10000x128_S10000x128_1_0_0_1_n_n none (m ((c.tc : Thread nD τ).loc main_arg1)) (m ((c.tc : Thread nD τ).loc main_arg0)))⟩] concatenates_S10000x128_S10000x128_S10000x256_d1) (m ((c.tc : Thread nD τ).loc main_arg2))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant S_ .f32 0x00000000#32))
      = Cert.Sage.h1 (m ((c.tc : Thread nD τ).loc main_arg0)) (m ((c.tc : Thread nD τ).loc main_arg1)) (m ((c.tc : Thread nD τ).loc main_arg2)) (m ((c.tc : Thread nD τ).loc main_arg3)) := (val_main_v6_eq (F := Ideal) _ _ _ _).trans (h1_eq _ _ _ _)

/-- The reference's second hidden layer is the specification's. -/
theorem ref_h2 (m : (ℓ : Loc nD τ sig) → Buf (Elt Ideal) ℓ) (c : Dev nD) :
    maximumf (F := Ideal) (addf (Host.dotGeneral (φ₁ := .f32) (φ₂ := .f32) dot_S10000x256_S256x128_S10000x128_1_0_0_1_n_n none (concatenate S10000x256 1 [⟨S10000x128, (maximumf (addf (Host.dotGeneral (φ₁ := .f32) (φ₂ := .f32) dot_S10000x256_S256x128_S10000x128_1_0_0_1_n_n none (concatenate S10000x256 1 [⟨S10000x128, (m ((c.tc : Thread nD τ).loc main_arg0))⟩, ⟨S10000x128, (Host.dotGeneral (φ₁ := .f32) (φ₂ := .f32) dot_S10000x10000_S10000x128_S10000x128_1_0_0_1_n_n none (m ((c.tc : Thread nD τ).loc main_arg1)) (m ((c.tc : Thread nD τ).loc main_arg0)))⟩] concatenates_S10000x128_S10000x128_S10000x256_d1) (m ((c.tc : Thread nD τ).loc main_arg2))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant S_ .f32 0x00000000#32)))⟩, ⟨S10000x128, (Host.dotGeneral (φ₁ := .f32) (φ₂ := .f32) dot_S10000x10000_S10000x128_S10000x128_1_0_0_1_n_n none (m ((c.tc : Thread nD τ).loc main_arg1)) (maximumf (addf (Host.dotGeneral (φ₁ := .f32) (φ₂ := .f32) dot_S10000x256_S256x128_S10000x128_1_0_0_1_n_n none (concatenate S10000x256 1 [⟨S10000x128, (m ((c.tc : Thread nD τ).loc main_arg0))⟩, ⟨S10000x128, (Host.dotGeneral (φ₁ := .f32) (φ₂ := .f32) dot_S10000x10000_S10000x128_S10000x128_1_0_0_1_n_n none (m ((c.tc : Thread nD τ).loc main_arg1)) (m ((c.tc : Thread nD τ).loc main_arg0)))⟩] concatenates_S10000x128_S10000x128_S10000x256_d1) (m ((c.tc : Thread nD τ).loc main_arg2))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant S_ .f32 0x00000000#32))))⟩] concatenates_S10000x128_S10000x128_S10000x256_d1) (m ((c.tc : Thread nD τ).loc main_arg4))) (broadcastInDim S10000x128 ![0, 1] bcast_S1x128_S10000x128_0_1 (broadcastInDim S1x128 ![1] bcast_S128_S1x128_1 (m ((c.tc : Thread nD τ).loc main_arg5))))) (broadcastInDim S10000x128 ![] bcast_S_S10000x128 (constant S_ .f32 0x00000000#32))
      = Cert.Sage.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := (val_main_v13_eq (F := Ideal) _ _ _ _ _ _).trans (h2_eq _ _ _ _ _ _)

/-- The reference's logits are the specification's. -/
theorem ref_x3 (m : (ℓ : Loc nD τ sig) → Buf (Elt Ideal) ℓ) (c : Dev nD) :
    addf (F := Ideal) (Host.dotGeneral (φ₁ := .f32) (φ₂ := .f32) dot_S10000x128_S128x64_S10000x64_1_0_0_1_n_n none (maximumf (addf (Host.dotGeneral (φ₁ := .f32) (φ₂ := .f32) dot_S10000x256_S256x128_S10000x128_1_0_0_1_n_n none (concatenate S10000x256 1 [⟨S10000x128, (maximumf (addf (Host.dotGeneral (φ₁ := .f32) (φ₂ := .f32) dot_S10000x256_S256x128_S10000x128_1_0_0_1_n_n none (concatenate S10000x256 1 [⟨S10000x128, (m ((c.tc : Thread nD τ).loc main_arg0))⟩, ⟨S10000x128, (Host.dotGeneral (φ₁ := .f32) (φ₂ := .f32) dot_S10000x10000_S10000x128_S10000x128_1_0_0_1_n_n none (m ((c.tc : Thread nD τ).loc main_arg1)) (m ((c.tc : Thread nD τ).loc main_arg0)))⟩] concatenates_S10000x128_S10000x128_S10000x256_d1) (m ((c.tc : Thread nD τ).loc main_arg2))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant S_ .f32 0x00000000#32)))⟩, ⟨S10000x128, (Host.dotGeneral (φ₁ := .f32) (φ₂ := .f32) dot_S10000x10000_S10000x128_S10000x128_1_0_0_1_n_n none (m ((c.tc : Thread nD τ).loc main_arg1)) (maximumf (addf (Host.dotGeneral (φ₁ := .f32) (φ₂ := .f32) dot_S10000x256_S256x128_S10000x128_1_0_0_1_n_n none (concatenate S10000x256 1 [⟨S10000x128, (m ((c.tc : Thread nD τ).loc main_arg0))⟩, ⟨S10000x128, (Host.dotGeneral (φ₁ := .f32) (φ₂ := .f32) dot_S10000x10000_S10000x128_S10000x128_1_0_0_1_n_n none (m ((c.tc : Thread nD τ).loc main_arg1)) (m ((c.tc : Thread nD τ).loc main_arg0)))⟩] concatenates_S10000x128_S10000x128_S10000x256_d1) (m ((c.tc : Thread nD τ).loc main_arg2))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant S_ .f32 0x00000000#32))))⟩] concatenates_S10000x128_S10000x128_S10000x256_d1) (m ((c.tc : Thread nD τ).loc main_arg4))) (broadcastInDim S10000x128 ![0, 1] bcast_S1x128_S10000x128_0_1 (broadcastInDim S1x128 ![1] bcast_S128_S1x128_1 (m ((c.tc : Thread nD τ).loc main_arg5))))) (broadcastInDim S10000x128 ![] bcast_S_S10000x128 (constant S_ .f32 0x00000000#32))) (m ((c.tc : Thread nD τ).loc main_arg6))) (broadcastInDim S10000x64 ![0, 1] bcast_S1x64_S10000x64_0_1 (broadcastInDim S1x64 ![1] bcast_S64_S1x64_1 (m ((c.tc : Thread nD τ).loc main_arg7))))
      = Cert.Sage.x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (val_main_v17_eq (F := Ideal) _ _ _ _ _ _ _ _).trans (x3_eq _ _ _ _ _ _ _ _)

/-- The reference's log-softmax of the logits is the specification's, for real arguments. -/
theorem ref_out (m : (ℓ : Loc nD τ sig) → Buf (Elt Ideal) ℓ) (c : Dev nD)
    (hfin : AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3)) ∧ AllReal (m ((c.tc : Thread nD τ).loc main_arg4)) ∧ AllReal (m ((c.tc : Thread nD τ).loc main_arg5)) ∧ AllReal (m ((c.tc : Thread nD τ).loc main_arg6)) ∧ AllReal (m ((c.tc : Thread nD τ).loc main_arg7))) :
    Cert.ReferenceIdeal.Value.res_main_v18 (F := Ideal) m c
      = Cert.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hx := x3_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
  have hz : AllReal (val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
    rw [hx]
    exact allReal_x3 hfin.1 hfin.2.1 hfin.2.2.1 hfin.2.2.2.1 hfin.2.2.2.2.1 hfin.2.2.2.2.2.1 hfin.2.2.2.2.2.2.1 hfin.2.2.2.2.2.2.2
  exact (val_main_v18_eq m c).trans ((logSoftmax_eq _ _ _ _ _ _ _ _ hz).trans (congrArg Cert.Sage.logSoftmax hx))

end Cert.Sage.Ref

end
-- ==== Proof.Finite.lean ====
/-
  Finiteness out of the precondition.

  The precondition says, of each of the eight argument arrays, that every entry `x` has `|x| < +∞`, and takes the
  conjunction of the eight statements. Over the extended reals `|x| < +∞` leaves out exactly the two infinities, so
  every entry of every array is a real number — what the laws that move a factor across a sum need.
-/
import proofs.«109832_g72069551227476_cont_9to1c4b_721_2_alg».proof.Pre_finite_inputs
import proofs.«109832_g72069551227476_cont_9to1c4b_721_2_alg».proof.Proof.Spec
import Idealize.ShloMosaic.Lib.ReduceAll
import Idealize.ShloMosaic.Lib.ValueIdx
import Idealize.ShloMosaic.PureOps.Ideal.Laws

noncomputable section

namespace Cert.Sage

open Idealize.ShloMosaic Idealize.ShloMosaic.ValueIdx

/-- The scalar shape has one index. -/
instance : Subsingleton Cert.Pre_finite_inputs.S_.Idx := ⟨fun _ _ => funext fun d => d.elim0⟩

/-- The word `0x7F800000` is `+∞`. -/
theorem ofBits_posInf_f32 : Ideal.ofBits .f32 0x7F800000#32 = (⊤ : EReal) := by
  simp [Ideal.ofBits, Ideal.ieee]

/-- An extended real whose absolute value is below `+∞` is a real number: the test fails at both infinities. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_posInf_f32] at h
  induction x using EReal.rec with
  | bot => simp [Ideal.cmp] at h
  | coe r => exact ⟨r, rfl⟩
  | top => simp [Ideal.cmp] at h

/-- One array: if the conjunction over all entries of `|x| < +∞` came out true, every entry is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    AllReal x := fun i =>
  real_of_abs_lt_inf (x i) (Host.reduce_andi_all _ _ hr hu ix0 e i)

/-- All eight arrays: the precondition's value is the conjunction of the eight tests. -/
theorem allReal_of_pre [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S256x128 .f32) (a3 : FVec Ideal Cert.Pre_finite_inputs.S128 .f32)
    (a4 : FVec Ideal Cert.Pre_finite_inputs.S256x128 .f32) (a5 : FVec Ideal Cert.Pre_finite_inputs.S128 .f32)
    (a6 : FVec Ideal Cert.Pre_finite_inputs.S128x64 .f32) (a7 : FVec Ideal Cert.Pre_finite_inputs.S64 .f32)
    (h : Cert.Pre_finite_inputs.fn (F := Ideal) a0 a1 a2 a3 a4 a5 a6 a7 = (fun _ => 1#1)) :
    AllReal a0 ∧ AllReal a1 ∧ AllReal a2 ∧ AllReal a3 ∧ AllReal a4 ∧ AllReal a5 ∧ AllReal a6 ∧ AllReal a7 := by
  have h0 := congrFun h ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6, allReal_of_all a7 _ _ _ e7⟩

end Cert.Sage

end
-- ==== Proof.lean ====
/-
  Two-layer GraphSAGE on 10000 nodes with a dense adjacency: the Pallas kernel against its jnp reference, over the extended reals.

  Each layer is max(h · W_top + (adj · h) · W_bot + b, 0). The reference forms the 256-wide row [h | adj · h] and takes ONE product
  with W; the kernel never forms the row: it splits W into its top and bottom halves and adds the two 128-wide products. The two are
  the same sum, the 256 contraction coordinates taken as 128 + 128 (addition on the extended reals is commutative and
  associative: no finiteness is used here). The logits are h₂ · Wl + bl on both sides. The last result is the row-wise log-softmax:
  the reference computes (z - m) - log Σ exp (z - m), the kernel z - (log Σ exp (z - m) + m), with m the row's maximum. These agree
  for real z (then m is a real, every exp (z - m) a positive real, their sum a positive real and its log a real) but not at
  infinities, where ⊤ + ⊥ = ⊥ breaks the rearrangement: this is where the precondition — every input entry is finite — is used,
  carried through both layers and the logits (sums and products of reals, a maximum with 0).

  The kernel runs as two passes over 25 blocks of 400 rows; pass 1 writes the first layer's result, pass 2 reads it back (a row
  block and the whole array) and writes the other three results. Each pass's blocks tile its result arrays, so each array ends as
  one whole-array function of what the pass found; the weight halves and bias rows it finds are the host's slices and reshapes of
  the arguments. The word-level program's frame and the idealized program's are the same run read at two instances.
-/
import proofs.«109832_g72069551227476_cont_9to1c4b_721_2_alg».proof.Defs
import proofs.«109832_g72069551227476_cont_9to1c4b_721_2_alg».proof.Proof.Gen.Kernel
import proofs.«109832_g72069551227476_cont_9to1c4b_721_2_alg».proof.Proof.Gen.KernelIdeal
import proofs.«109832_g72069551227476_cont_9to1c4b_721_2_alg».proof.Proof.Gen.ReferenceIdeal
import proofs.«109832_g72069551227476_cont_9to1c4b_721_2_alg».proof.Proof.Gen.Pre_finite_inputs
import proofs.«109832_g72069551227476_cont_9to1c4b_721_2_alg».proof.Proof.K.Frame
import proofs.«109832_g72069551227476_cont_9to1c4b_721_2_alg».proof.Proof.KI.Frame
import proofs.«109832_g72069551227476_cont_9to1c4b_721_2_alg».proof.Proof.KI.Final
import proofs.«109832_g72069551227476_cont_9to1c4b_721_2_alg».proof.Proof.RefValue
import proofs.«109832_g72069551227476_cont_9to1c4b_721_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as launched. -/
theorem frame_k : Cert.frame_Kernel := fun m ρ _ => Cert.Kernel.Hand.frame (F := Bits) m ρ

/-- So does the idealized kernel: the same run, read at the extended reals. -/
theorem frame_ki : Cert.frame_KernelIdeal := fun m ρ _ => Cert.KernelIdeal.Hand.frame (F := Ideal) m ρ

/-- The reference is host operations only: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

/-- From memories that agree on the eight arguments, all finite, both programs end with the specification's four functions of
    the arguments in their result arrays: the kernel by its two passes' blocks, the reference by its operations read one at a
    time, the log-softmax's two arrangements joined on the reals. -/
theorem algebraic : Cert.algebraic_KernelIdeal_ReferenceIdeal := by
  intro m ρ m' ρ' hpre hagree
  have hfin : ∀ c : Dev Cert.KernelIdeal.nD, Cert.Sage.AllReal (m ((c.tc : Thread Cert.KernelIdeal.nD Cert.KernelIdeal.τ).loc Cert.KernelIdeal.main_arg0)) ∧ Cert.Sage.AllReal (m ((c.tc : Thread Cert.KernelIdeal.nD Cert.KernelIdeal.τ).loc Cert.KernelIdeal.main_arg1)) ∧ Cert.Sage.AllReal (m ((c.tc : Thread Cert.KernelIdeal.nD Cert.KernelIdeal.τ).loc Cert.KernelIdeal.main_arg2)) ∧ Cert.Sage.AllReal (m ((c.tc : Thread Cert.KernelIdeal.nD Cert.KernelIdeal.τ).loc Cert.KernelIdeal.main_arg3))
      ∧ Cert.Sage.AllReal (m ((c.tc : Thread Cert.KernelIdeal.nD Cert.KernelIdeal.τ).loc Cert.KernelIdeal.main_arg4)) ∧ Cert.Sage.AllReal (m ((c.tc : Thread Cert.KernelIdeal.nD Cert.KernelIdeal.τ).loc Cert.KernelIdeal.main_arg5)) ∧ Cert.Sage.AllReal (m ((c.tc : Thread Cert.KernelIdeal.nD Cert.KernelIdeal.τ).loc Cert.KernelIdeal.main_arg6)) ∧ Cert.Sage.AllReal (m ((c.tc : Thread Cert.KernelIdeal.nD Cert.KernelIdeal.τ).loc Cert.KernelIdeal.main_arg7)) :=
    fun c => Cert.Sage.allReal_of_pre _ _ _ _ _ _ _ _ (hpre c)
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Sage.h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Sage.h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Sage.x3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v0_0 (by decide))).trans (Cert.KernelIdeal.Hand.kernel_out m c),
       (h c _ (Cert.KernelIdeal.Hand.mem_uc Cert.KernelIdeal.main_v0_1 (by decide))).trans (Cert.KernelIdeal.Hand.kernel_h1 m c),
       (h c _ (Cert.KernelIdeal.Hand.mem_uc Cert.KernelIdeal.main_v0_2 (by decide))).trans (Cert.KernelIdeal.Hand.kernel_h2 m c),
       (h c _ (Cert.KernelIdeal.Hand.mem_uc Cert.KernelIdeal.main_v0_3 (by decide))).trans (Cert.KernelIdeal.Hand.kernel_x3 m c),
       (h c _ (Cert.KernelIdeal.Hand.mem_uc Cert.KernelIdeal.main_arg0 (by decide))).trans (Cert.KernelIdeal.Hand.X3_kept m c Cert.KernelIdeal.main_arg0 (by decide) (by decide) (by decide) (by decide) (by decide)),
       (h c _ (Cert.KernelIdeal.Hand.mem_uc Cert.KernelIdeal.main_arg1 (by decide))).trans (Cert.KernelIdeal.Hand.X3_kept m c Cert.KernelIdeal.main_arg1 (by decide) (by decide) (by decide) (by decide) (by decide)),
       (h c _ (Cert.KernelIdeal.Hand.mem_uc Cert.KernelIdeal.main_arg2 (by decide))).trans (Cert.KernelIdeal.Hand.X3_kept m c Cert.KernelIdeal.main_arg2 (by decide) (by decide) (by decide) (by decide) (by decide)),
       (h c _ (Cert.KernelIdeal.Hand.mem_uc Cert.KernelIdeal.main_arg3 (by decide))).trans (Cert.KernelIdeal.Hand.X3_kept m c Cert.KernelIdeal.main_arg3 (by decide) (by decide) (by decide) (by decide) (by decide)),
       (h c _ (Cert.KernelIdeal.Hand.mem_uc Cert.KernelIdeal.main_arg4 (by decide))).trans (Cert.KernelIdeal.Hand.X3_kept m c Cert.KernelIdeal.main_arg4 (by decide) (by decide) (by decide) (by decide) (by decide)),
       (h c _ (Cert.KernelIdeal.Hand.mem_uc Cert.KernelIdeal.main_arg5 (by decide))).trans (Cert.KernelIdeal.Hand.X3_kept m c Cert.KernelIdeal.main_arg5 (by decide) (by decide) (by decide) (by decide) (by decide)),
       (h c _ (Cert.KernelIdeal.Hand.mem_uc Cert.KernelIdeal.main_arg6 (by decide))).trans (Cert.KernelIdeal.Hand.X3_kept m c Cert.KernelIdeal.main_arg6 (by decide) (by decide) (by decide) (by decide) (by decide)),
       (h c _ (Cert.KernelIdeal.Hand.mem_uc Cert.KernelIdeal.main_arg7 (by decide))).trans (Cert.KernelIdeal.Hand.X3_kept m c Cert.KernelIdeal.main_arg7 (by decide) (by decide) (by decide) (by decide) (by decide))⟩)
      (Cert.KernelIdeal.Hand.run_all (F := Ideal) m ρ)
  · have hfin' : ∀ c : Dev Cert.ReferenceIdeal.nD, Cert.Sage.AllReal (m' ((c.tc : Thread Cert.ReferenceIdeal.nD Cert.ReferenceIdeal.τ).loc Cert.ReferenceIdeal.main_arg0)) ∧ Cert.Sage.AllReal (m' ((c.tc : Thread Cert.ReferenceIdeal.nD Cert.ReferenceIdeal.τ).loc Cert.ReferenceIdeal.main_arg1)) ∧ Cert.Sage.AllReal (m' ((c.tc : Thread Cert.ReferenceIdeal.nD Cert.ReferenceIdeal.τ).loc Cert.ReferenceIdeal.main_arg2)) ∧ Cert.Sage.AllReal (m' ((c.tc : Thread Cert.ReferenceIdeal.nD Cert.ReferenceIdeal.τ).loc Cert.ReferenceIdeal.main_arg3))
        ∧ Cert.Sage.AllReal (m' ((c.tc : Thread Cert.ReferenceIdeal.nD Cert.ReferenceIdeal.τ).loc Cert.ReferenceIdeal.main_arg4)) ∧ Cert.Sage.AllReal (m' ((c.tc : Thread Cert.ReferenceIdeal.nD Cert.ReferenceIdeal.τ).loc Cert.ReferenceIdeal.main_arg5)) ∧ Cert.Sage.AllReal (m' ((c.tc : Thread Cert.ReferenceIdeal.nD Cert.ReferenceIdeal.τ).loc Cert.ReferenceIdeal.main_arg6)) ∧ Cert.Sage.AllReal (m' ((c.tc : Thread Cert.ReferenceIdeal.nD Cert.ReferenceIdeal.τ).loc Cert.ReferenceIdeal.main_arg7)) := by
      intro c
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact hfin c
    exact (θ_run Cert.ReferenceIdeal.defs _ _).mono (fun r h c =>
      ⟨(h c).1.trans ((Cert.Sage.Ref.ref_out m' c (hfin' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2])),
       (h c).2.1.trans ((Cert.Sage.Ref.ref_h1 m' c).trans (by rw [(hagree c).1, (hagree c).2.1, (hagree c).2.2.1, (hagree c).2.2.2.1])),
       (h c).2.2.1.trans ((Cert.Sage.Ref.ref_h2 m' c).trans (by rw [(hagree c).1, (hagree c).2.1, (hagree c).2.2.1, (hagree c).2.2.2.1, (hagree c).2.2.2.2.1, (hagree c).2.2.2.2.2.1])),
       (h c).2.2.2.1.trans ((Cert.Sage.Ref.ref_x3 m' c).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2])),
       (h c).2.2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
